-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x512 : Shape := ⟨2, ![4096, 512]⟩
abbrev S4096 : Shape := ⟨1, ![4096]⟩
abbrev S_ : Shape := ⟨0, ![]⟩

class Facts : Prop where
  bcast_S_S4096x512 : S_.BroadcastsInDim S4096x512 (![] : Fin 0 → Fin S4096x512.rank)
  reducesTo_S4096x512_S_d0_1 : S4096x512.ReducesTo [0, 1] S_
  h_S_ : 0 < S_.numel

variable [Facts]

def fn {F : FTy → Type} [FloatOps F] (main_arg0 : FVec F S4096x512 .f32) (main_arg1 : IVec S4096 32) : IVec S_ 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_c : IVec S_ 1 := constantI S_ 1 1#1
  let main_v3 : IVec S_ 1 := (fun x v => Host.reduce IntOp.andi x v reducesTo_S4096x512_S_d0_1 h_S_) main_v2 main_c
  main_v3
-- ==== Kernel.lean ====
abbrev S4096x512 : Shape := ⟨2, ![4096, 512]⟩
abbrev S4096 : Shape := ⟨1, ![4096]⟩
abbrev S4096x1 : Shape := ⟨2, ![4096, 1]⟩
abbrev S1x4096 : Shape := ⟨2, ![1, 4096]⟩
abbrev S512x512 : Shape := ⟨2, ![512, 512]⟩
abbrev S512x1 : Shape := ⟨2, ![512, 1]⟩
abbrev S1x512 : Shape := ⟨2, ![1, 512]⟩
abbrev S512 : Shape := ⟨1, ![512]⟩
abbrev S_ : Shape := ⟨0, ![]⟩

abbrev nBuf : Space → Nat
  | .hbm => 9
  | .vmem => 14
  | .smem => 0
  | _ => 0

abbrev bufTy : (tb : Table) → Fin (tcTables nBuf tb) → BufTy
  | .hbm, ⟨0, _⟩ => ⟨S4096x512, .f32⟩
  | .hbm, ⟨1, _⟩ => ⟨S4096, .i32⟩
  | .hbm, ⟨2, _⟩ => ⟨S4096x1, .i32⟩
  | .hbm, ⟨3, _⟩ => ⟨S1x4096, .i32⟩
  | .hbm, ⟨4, _⟩ => ⟨S4096x1, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x1, .i32⟩
  | .local _ .vmem, ⟨5, _⟩ => ⟨S512x1, .i32⟩
  | .local _ .vmem, ⟨6, _⟩ => ⟨S1x512, .i32⟩
  | .local _ .vmem, ⟨7, _⟩ => ⟨S1x512, .i32⟩
  | .local _ .vmem, ⟨8, _⟩ => ⟨S512x1, .f32⟩
  | .local _ .vmem, ⟨9, _⟩ => ⟨S512x1, .f32⟩
  | .local _ .vmem, ⟨10, _⟩ => ⟨S512x1, .f32⟩
  | .local _ .vmem, ⟨11, _⟩ => ⟨S512x1, .f32⟩
  | .local _ .vmem, ⟨12, _⟩ => ⟨S512x1, .f32⟩
  | .local _ .vmem, ⟨13, _⟩ => ⟨S512x1, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v91 : BitVec 1 := Scalar.cmpi .eq arg1 c7_i32
  let v92 : BitVec 32 := Scalar.extui v91
  let c0_i32_40 : BitVec 32 := 0#32
  let v93 : BitVec 1 := Scalar.cmpi .ne v92 c0_i32_40
  v93

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  shapeCasts_S4096_S4096x1 : S4096.ShapeCasts S4096x1
  shapeCasts_S4096_S1x4096 : S4096.ShapeCasts S1x4096
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S512x512_S512x512_0_0 : ∀ a, (![0, 0] : Fin 2 → Nat) a + S512x512.size a ≤ S512x512.size a
  h_S512x512 : 0 < S512x512.numel
  bitsLt_bf16_f32 : FTy.bits .bf16 < FTy.bits .f32
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S512x1_S512x512 : S512x1.Broadcasts S512x512
  broadcasts_S1x512_S512x512 : S1x512.Broadcasts S512x512
  reduces_S512x512_S512 : S512x512.Reduces [1] S512
  shapeCasts_S512_S512x1 : S512.ShapeCasts S512x1
  natLt_1_32 : 1 < 32
  reducesTo_S4096x1_S_d0_1 : S4096x1.ReducesTo [0, 1] S_
  h_S_ : 0 < S_.numel
  dot_S512x512_S512x512_S512x512_1_1_0_0_n_n_wf : DotDims.WF S512x512 S512x512 S512x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S4096x512.size a
  hwx0_0 : ∀ i : grid0.Coords, EltTy.bits .f32 = 32 ∨ (Rect.block (s := S4096x512) S512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S4096x512.size a
  hwx0_1 : ∀ i : grid0.Coords, EltTy.bits .f32 = 32 ∨ (Rect.block (s := S4096x512) S512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S4096x1.size a
  hwx0_2 : ∀ i : grid0.Coords, EltTy.bits .i32 = 32 ∨ (Rect.block (s := S4096x1) S512x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x4096.size a
  hwx0_3 : ∀ i : grid0.Coords, EltTy.bits .i32 = 32 ∨ (Rect.block (s := S1x4096) S1x512.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1.size a ≤ S4096x1.size a
  hwx0_4 : ∀ i : grid0.Coords, EltTy.bits .f32 = 32 ∨ (Rect.block (s := S4096x1) S512x1.size (cc0_transform_4 i) (hinb0_4 i)).WholeWords (EltTy.packing .f32)

variable [Facts₀]

def dot_S512x512_S512x512_S512x512_1_1_0_0_n_n : DotDims S512x512 S512x512 S512x512 where
  lhsContracting := [1]
  rhsContracting := [1]
  lhsNonContracting := [0]
  rhsNonContracting := [0]
  lhsBatch := []
  rhsBatch := []
  wf := dot_S512x512_S512x512_S512x512_1_1_0_0_n_n_wf

abbrev win0_0 : Pipeline.Window sig grid0 :=
  Pipeline.Window.ofSpec (Memref.whole main_arg0) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S512x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2) S512x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S4096x512 : Shape := ⟨2, ![4096, 512]⟩
abbrev S4096 : Shape := ⟨1, ![4096]⟩
abbrev S512x4096 : Shape := ⟨2, ![512, 4096]⟩
abbrev S4096x4096 : Shape := ⟨2, ![4096, 4096]⟩
abbrev S4096x1 : Shape := ⟨2, ![4096, 1]⟩
abbrev S1x4096 : Shape := ⟨2, ![1, 4096]⟩
abbrev S_ : Shape := ⟨0, ![]⟩

abbrev nBuf : Space → Nat
  | .hbm => 101
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096, .i32⟩
  | .hbm, ⟨2, _⟩ => ⟨S512x4096, .f32⟩
  | .hbm, ⟨3, _⟩ => ⟨S4096x4096, .f32⟩
  | .hbm, ⟨4, _⟩ => ⟨S4096x1, .i32⟩
  | .hbm, ⟨5, _⟩ => ⟨S1x4096, .i32⟩
  | .hbm, ⟨6, _⟩ => ⟨S4096x4096, .i32⟩
  | .hbm, ⟨7, _⟩ => ⟨S4096x4096, .i32⟩
  | .hbm, ⟨8, _⟩ => ⟨S4096x4096, .i1⟩
  | .hbm, ⟨9, _⟩ => ⟨S_, .f32⟩
  | .hbm, ⟨10, _⟩ => ⟨S4096x4096, .f32⟩
  | .hbm, ⟨11, _⟩ => ⟨S4096x4096, .i1⟩
  | .hbm, ⟨12, _⟩ => ⟨S4096x4096, .i1⟩
  | .hbm, ⟨13, _⟩ => ⟨S4096x4096, .i1⟩
  | .hbm, ⟨14, _⟩ => ⟨S_, .f32⟩
  | .hbm, ⟨15, _⟩ => ⟨S4096x4096, .f32⟩
  | .hbm, ⟨16, _⟩ => ⟨S4096x4096, .f32⟩
  | .hbm, ⟨17, _⟩ => ⟨S_, .f32⟩
  | .hbm, ⟨18, _⟩ => ⟨S4096x4096, .f32⟩
  | .hbm, ⟨19, _⟩ => ⟨S4096x4096, .f32⟩
  | .hbm, ⟨20, _⟩ => ⟨S_, .f32⟩
  | .hbm, ⟨21, _⟩ => ⟨S4096x4096, .f32⟩
  | .hbm, ⟨22, _⟩ => ⟨S4096x4096, .f32⟩
  | .hbm, ⟨23, _⟩ => ⟨S4096x4096, .f32⟩
  | .hbm, ⟨24, _⟩ => ⟨S4096x4096, .f32⟩
  | .hbm, ⟨25, _⟩ => ⟨S4096x4096, .i1⟩
  | .hbm, ⟨26, _⟩ => ⟨S4096x4096, .f32⟩
  | .hbm, ⟨27, _⟩ => ⟨S4096x4096, .f32⟩
  | .hbm, ⟨28, _⟩ => ⟨S4096x4096, .f32⟩
  | .hbm, ⟨29, _⟩ => ⟨S4096x4096, .f32⟩
  | .hbm, ⟨30, _⟩ => ⟨S4096x4096, .f32⟩
  | .hbm, ⟨31, _⟩ => ⟨S4096x4096, .f32⟩
  | .hbm, ⟨32, _⟩ => ⟨S4096x4096, .f32⟩
  | .hbm, ⟨33, _⟩ => ⟨S4096x4096, .f32⟩
  | .hbm, ⟨34, _⟩ => ⟨S_, .f32⟩
  | .hbm, ⟨35, _⟩ => ⟨S4096x4096, .f32⟩
  | .hbm, ⟨36, _⟩ => ⟨S4096x4096, .f32⟩
  | .hbm, ⟨37, _⟩ => ⟨S_, .f32⟩
  | .hbm, ⟨38, _⟩ => ⟨S4096x4096, .f32⟩
  | .hbm, ⟨39, _⟩ => ⟨S4096x4096, .f32⟩
  | .hbm, ⟨40, _⟩ => ⟨S_, .f32⟩
  | .hbm, ⟨41, _⟩ => ⟨S4096x4096, .f32⟩
  | .hbm, ⟨42, _⟩ => ⟨S4096x4096, .f32⟩
  | .hbm, ⟨43, _⟩ => ⟨S4096x4096, .f32⟩
  | .hbm, ⟨44, _⟩ => ⟨S4096x4096, .f32⟩
  | .hbm, ⟨45, _⟩ => ⟨S4096x4096, .i1⟩
  | .hbm, ⟨46, _⟩ => ⟨S4096x4096, .f32⟩
  | .hbm, ⟨47, _⟩ => ⟨S4096x4096, .f32⟩
  | .hbm, ⟨48, _⟩ => ⟨S4096x4096, .f32⟩
  | .hbm, ⟨49, _⟩ => ⟨S4096x4096, .f32⟩
  | .hbm, ⟨50, _⟩ => ⟨S4096x4096, .f32⟩
  | .hbm, ⟨51, _⟩ => ⟨S4096x4096, .f32⟩
  | .hbm, ⟨52, _⟩ => ⟨S4096x4096, .f32⟩
  | .hbm, ⟨53, _⟩ => ⟨S4096x4096, .f32⟩
  | .hbm, ⟨54, _⟩ => ⟨S4096x4096, .i32⟩
  | .hbm, ⟨55, _⟩ => ⟨S_, .i32⟩
  | .hbm, ⟨56, _⟩ => ⟨S4096, .i32⟩
  | .hbm, ⟨57, _⟩ => ⟨S4096x4096, .i32⟩
  | .hbm, ⟨58, _⟩ => ⟨S_, .i32⟩
  | .hbm, ⟨59, _⟩ => ⟨S4096, .i32⟩
  | .hbm, ⟨60, _⟩ => ⟨S_, .f32⟩
  | .hbm, ⟨61, _⟩ => ⟨S_, .f32⟩
  | .hbm, ⟨62, _⟩ => ⟨S4096x4096, .f32⟩
  | .hbm, ⟨63, _⟩ => ⟨S4096x4096, .f32⟩
  | .hbm, ⟨64, _⟩ => ⟨S_, .f32⟩
  | .hbm, ⟨65, _⟩ => ⟨S4096, .f32⟩
  | .hbm, ⟨66, _⟩ => ⟨S_, .f32⟩
  | .hbm, ⟨67, _⟩ => ⟨S_, .f32⟩
  | .hbm, ⟨68, _⟩ => ⟨S4096x4096, .f32⟩
  | .hbm, ⟨69, _⟩ => ⟨S4096x4096, .f32⟩
  | .hbm, ⟨70, _⟩ => ⟨S_, .f32⟩
  | .hbm, ⟨71, _⟩ => ⟨S4096, .f32⟩
  | .hbm, ⟨72, _⟩ => ⟨S_, .i32⟩
  | .hbm, ⟨73, _⟩ => ⟨S4096, .i32⟩
  | .hbm, ⟨74, _⟩ => ⟨S4096, .i1⟩
  | .hbm, ⟨75, _⟩ => ⟨S_, .i32⟩
  | .hbm, ⟨76, _⟩ => ⟨S4096, .i32⟩
  | .hbm, ⟨77, _⟩ => ⟨S4096, .i32⟩
  | .hbm, ⟨78, _⟩ => ⟨S4096, .f32⟩
  | .hbm, ⟨79, _⟩ => ⟨S4096, .f32⟩
  | .hbm, ⟨80, _⟩ => ⟨S_, .f32⟩
  | .hbm, ⟨81, _⟩ => ⟨S_, .f32⟩
  | .hbm, ⟨82, _⟩ => ⟨S4096, .f32⟩
  | .hbm, ⟨83, _⟩ => ⟨S4096, .f32⟩
  | .hbm, ⟨84, _⟩ => ⟨S_, .i32⟩
  | .hbm, ⟨85, _⟩ => ⟨S4096, .i32⟩
  | .hbm, ⟨86, _⟩ => ⟨S4096, .i1⟩
  | .hbm, ⟨87, _⟩ => ⟨S_, .i32⟩
  | .hbm, ⟨88, _⟩ => ⟨S4096, .i32⟩
  | .hbm, ⟨89, _⟩ => ⟨S4096, .i32⟩
  | .hbm, ⟨90, _⟩ => ⟨S4096, .f32⟩
  | .hbm, ⟨91, _⟩ => ⟨S4096, .f32⟩
  | .hbm, ⟨92, _⟩ => ⟨S_, .f32⟩
  | .hbm, ⟨93, _⟩ => ⟨S_, .f32⟩
  | .hbm, ⟨94, _⟩ => ⟨S4096, .f32⟩
  | .hbm, ⟨95, _⟩ => ⟨S4096, .f32⟩
  | .hbm, ⟨96, _⟩ => ⟨S4096, .f32⟩
  | .hbm, ⟨97, _⟩ => ⟨S_, .f32⟩
  | .hbm, ⟨98, _⟩ => ⟨S_, .f32⟩
  | .hbm, ⟨99, _⟩ => ⟨S_, .f32⟩
  | .hbm, ⟨100, _⟩ => ⟨S_, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst_0 : Ref sig .tc := ⟨.hbm, 14, rfl⟩
abbrev main_v11 : Ref sig .tc := ⟨.hbm, 15, rfl⟩
abbrev main_v12 : Ref sig .tc := ⟨.hbm, 16, rfl⟩
abbrev main_cst_1 : Ref sig .tc := ⟨.hbm, 17, rfl⟩
abbrev main_v13 : Ref sig .tc := ⟨.hbm, 18, rfl⟩
abbrev main_v14 : Ref sig .tc := ⟨.hbm, 19, rfl⟩
abbrev main_call0_cst : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_call0_v5 : Ref sig .tc := ⟨.hbm, 26, rfl⟩
abbrev main_call0_v6 : Ref sig .tc := ⟨.hbm, 27, rfl⟩
abbrev main_call0_v7 : Ref sig .tc := ⟨.hbm, 28, rfl⟩
abbrev main_call0_v8 : Ref sig .tc := ⟨.hbm, 29, rfl⟩
abbrev main_call0_v9 : Ref sig .tc := ⟨.hbm, 30, rfl⟩
abbrev main_call0_v10 : Ref sig .tc := ⟨.hbm, 31, rfl⟩
abbrev main_call0_v11 : Ref sig .tc := ⟨.hbm, 32, rfl⟩
abbrev main_v15 : Ref sig .tc := ⟨.hbm, 33, rfl⟩
abbrev main_cst_2 : Ref sig .tc := ⟨.hbm, 34, rfl⟩
abbrev main_v16 : Ref sig .tc := ⟨.hbm, 35, rfl⟩
abbrev main_v17 : Ref sig .tc := ⟨.hbm, 36, rfl⟩
abbrev main_cst_3 : Ref sig .tc := ⟨.hbm, 37, rfl⟩
abbrev main_v18 : Ref sig .tc := ⟨.hbm, 38, rfl⟩
abbrev main_v19 : Ref sig .tc := ⟨.hbm, 39, rfl⟩
abbrev main_call1_cst : Ref sig .tc := ⟨.hbm, 40, rfl⟩
abbrev main_call1_v0 : Ref sig .tc := ⟨.hbm, 41, rfl⟩
abbrev main_call1_v1 : Ref sig .tc := ⟨.hbm, 42, rfl⟩
abbrev main_call1_v2 : Ref sig .tc := ⟨.hbm, 43, rfl⟩
abbrev main_call1_v3 : Ref sig .tc := ⟨.hbm, 44, rfl⟩
abbrev main_call1_v4 : Ref sig .tc := ⟨.hbm, 45, rfl⟩
abbrev main_call1_v5 : Ref sig .tc := ⟨.hbm, 46, rfl⟩
abbrev main_call1_v6 : Ref sig .tc := ⟨.hbm, 47, rfl⟩
abbrev main_call1_v7 : Ref sig .tc := ⟨.hbm, 48, rfl⟩
abbrev main_call1_v8 : Ref sig .tc := ⟨.hbm, 49, rfl⟩
abbrev main_call1_v9 : Ref sig .tc := ⟨.hbm, 50, rfl⟩
abbrev main_call1_v10 : Ref sig .tc := ⟨.hbm, 51, rfl⟩
abbrev main_call1_v11 : Ref sig .tc := ⟨.hbm, 52, rfl⟩
abbrev main_v20 : Ref sig .tc := ⟨.hbm, 53, rfl⟩
abbrev main_v21 : Ref sig .tc := ⟨.hbm, 54, rfl⟩
abbrev main_c : Ref sig .tc := ⟨.hbm, 55, rfl⟩
abbrev main_v22 : Ref sig .tc := ⟨.hbm, 56, rfl⟩
abbrev main_v23 : Ref sig .tc := ⟨.hbm, 57, rfl⟩
abbrev main_c_4 : Ref sig .tc := ⟨.hbm, 58, rfl⟩
abbrev main_v24 : Ref sig .tc := ⟨.hbm, 59, rfl⟩
abbrev main_cst_5 : Ref sig .tc := ⟨.hbm, 60, rfl⟩
abbrev main_call2_v0 : Ref sig .tc := ⟨.hbm, 61, rfl⟩
abbrev main_call2_v1 : Ref sig .tc := ⟨.hbm, 62, rfl⟩
abbrev main_v25 : Ref sig .tc := ⟨.hbm, 63, rfl⟩
abbrev main_cst_6 : Ref sig .tc := ⟨.hbm, 64, rfl⟩
abbrev main_v26 : Ref sig .tc := ⟨.hbm, 65, rfl⟩
abbrev main_cst_7 : Ref sig .tc := ⟨.hbm, 66, rfl⟩
abbrev main_call3_v0 : Ref sig .tc := ⟨.hbm, 67, rfl⟩
abbrev main_call3_v1 : Ref sig .tc := ⟨.hbm, 68, rfl⟩
abbrev main_v27 : Ref sig .tc := ⟨.hbm, 69, rfl⟩
abbrev main_cst_8 : Ref sig .tc := ⟨.hbm, 70, rfl⟩
abbrev main_v28 : Ref sig .tc := ⟨.hbm, 71, rfl⟩
abbrev main_c_9 : Ref sig .tc := ⟨.hbm, 72, rfl⟩
abbrev main_v29 : Ref sig .tc := ⟨.hbm, 73, rfl⟩
abbrev main_v30 : Ref sig .tc := ⟨.hbm, 74, rfl⟩
abbrev main_c_10 : Ref sig .tc := ⟨.hbm, 75, rfl⟩
abbrev main_v31 : Ref sig .tc := ⟨.hbm, 76, rfl⟩
abbrev main_v32 : Ref sig .tc := ⟨.hbm, 77, rfl⟩
abbrev main_v33 : Ref sig .tc := ⟨.hbm, 78, rfl⟩
abbrev main_v34 : Ref sig .tc := ⟨.hbm, 79, rfl⟩
abbrev main_cst_11 : Ref sig .tc := ⟨.hbm, 80, rfl⟩
abbrev main_call4_v0 : Ref sig .tc := ⟨.hbm, 81, rfl⟩
abbrev main_call4_v1 : Ref sig .tc := ⟨.hbm, 82, rfl⟩
abbrev main_v35 : Ref sig .tc := ⟨.hbm, 83, rfl⟩
abbrev main_c_12 : Ref sig .tc := ⟨.hbm, 84, rfl⟩
abbrev main_v36 : Ref sig .tc := ⟨.hbm, 85, rfl⟩
abbrev main_v37 : Ref sig .tc := ⟨.hbm, 86, rfl⟩
abbrev main_c_13 : Ref sig .tc := ⟨.hbm, 87, rfl⟩
abbrev main_v38 : Ref sig .tc := ⟨.hbm, 88, rfl⟩
abbrev main_v39 : Ref sig .tc := ⟨.hbm, 89, rfl⟩
abbrev main_v40 : Ref sig .tc := ⟨.hbm, 90, rfl⟩
abbrev main_v41 : Ref sig .tc := ⟨.hbm, 91, rfl⟩
abbrev main_cst_14 : Ref sig .tc := ⟨.hbm, 92, rfl⟩
abbrev main_call5_v0 : Ref sig .tc := ⟨.hbm, 93, rfl⟩
abbrev main_call5_v1 : Ref sig .tc := ⟨.hbm, 94, rfl⟩
abbrev main_v42 : Ref sig .tc := ⟨.hbm, 95, rfl⟩
abbrev main_v43 : Ref sig .tc := ⟨.hbm, 96, rfl⟩
abbrev main_cst_15 : Ref sig .tc := ⟨.hbm, 97, rfl⟩
abbrev main_v44 : Ref sig .tc := ⟨.hbm, 98, rfl⟩
abbrev main_cst_16 : Ref sig .tc := ⟨.hbm, 99, rfl⟩
abbrev main_v45 : Ref sig .tc := ⟨.hbm, 100, rfl⟩

abbrev nD : Nat := 1
abbrev τ : Topo := Topo.v7x

variable {F : FTy → Type} [FloatOps F]

class Facts₀ : Prop where
  transposes_S4096x512_S512x4096_1_0 : S4096x512.Transposes [1, 0] S512x4096
  bcast_S4096_S4096x1_0 : S4096.BroadcastsInDim S4096x1 (![0] : Fin 1 → Fin S4096x1.rank)
  bcast_S4096_S1x4096_1 : S4096.BroadcastsInDim S1x4096 (![1] : Fin 1 → Fin S1x4096.rank)
  bcast_S4096x1_S4096x4096_0_1 : S4096x1.BroadcastsInDim S4096x4096 (![0, 1] : Fin 2 → Fin S4096x4096.rank)
  bcast_S1x4096_S4096x4096_0_1 : S1x4096.BroadcastsInDim S4096x4096 (![0, 1] : Fin 2 → Fin S4096x4096.rank)
  bcast_S_S4096x4096 : S_.BroadcastsInDim S4096x4096 (![] : Fin 0 → Fin S4096x4096.rank)
  natLt_1_32 : 1 < 32
  reducesTo_S4096x4096_S4096_d1 : S4096x4096.ReducesTo [1] S4096
  h_S_ : 0 < S_.numel
  bcast_S_S4096 : S_.BroadcastsInDim S4096 (![] : Fin 0 → Fin S4096.rank)
  reducesTo_S4096_S_d0 : S4096.ReducesTo [0] S_
  dot_S4096x512_S512x4096_S4096x4096_1_0_0_1_n_n_wf : DotDims.WF S4096x512 S512x4096 S4096x4096 [1] [0] [0] [1] [] []

variable [Facts₀]

def dot_S4096x512_S512x4096_S4096x4096_1_0_0_1_n_n : DotDims S4096x512 S512x4096 S4096x4096 where
  lhsContracting := [1]
  rhsContracting := [0]
  lhsNonContracting := [0]
  rhsNonContracting := [1]
  lhsBatch := []
  rhsBatch := []
  wf := dot_S4096x512_S512x4096_S4096x4096_1_0_0_1_n_n_wf

class Facts : Prop extends Facts₀ where

variable [Facts]
-- ==== Proof.Spec.lean ====
import Idealize.ShloMosaic.PureOps.Ideal
import Idealize.ShloMosaic.PureOps.Ideal.Laws
import Idealize.ShloMosaic.Lib.ValueIdx

/-!
The binomial-deviance loss as one function of its two argument arrays, index by index.

For an embedding array `x : [4096, 512]` and labels `tg : [4096]`, the similarity of rows
`r` and `k` is the inner product `sim r k = ∑ d, x r d * x k d`. A pair is positive when the
labels agree and the similarity is below one, negative when the labels differ. Each row averages a
softplus of the shifted, scaled similarity over its positive pairs and over its negative pairs (an
empty average is zero), and the loss is the mean over the rows of the sum of the two averages.
-/

noncomputable section

namespace Cert.Spec

open Idealize.ShloMosaic Idealize.ShloMosaic.ValueIdx
open scoped BigOperators

/-- The embeddings: an extended real per (row, feature). -/
abbrev XArr := (⟨2, ![4096, 512]⟩ : Shape).Idx → EReal
/-- The labels: a 32-bit integer per row. -/
abbrev TArr := (⟨1, ![4096]⟩ : Shape).Idx → BitVec 32

def zero : EReal := Ideal.ofBits .f32 0x00000000#32
def one  : EReal := Ideal.ofBits .f32 0x3F800000#32
def half : EReal := Ideal.ofBits .f32 0x3F000000#32
def negTwo : EReal := Ideal.ofBits .f32 0xC0000000#32
def c25 : EReal := Ideal.ofBits .f32 0x41C80000#32
def n4096 : EReal := Ideal.ofBits .f32 0x45800000#32

/-- The similarity of rows `r` and `k`: their inner product. -/
def sim (x : XArr) (r k : Fin 4096) : EReal := ∑ d : Fin 512, x (ix2 r d) * x (ix2 k d)

/-- Whether rows `r` and `k` carry the same label. -/
def same (tg : TArr) (r k : Fin 4096) : BitVec 1 := IntOp.cmpi .eq (tg (ix1 r)) (tg (ix1 k))

/-- The softplus `log (1 + exp z)` in its overflow-free form `max z 0 + log1p (exp (-|z|))`,
    guarded by the self-comparison `z - 0 ≠ z - 0` (never true on the extended reals). -/
def softplus (z : EReal) : EReal :=
  Scalar.select (FloatOps.cmpf (F := Ideal) (φ := .f32) .one (z - zero) (z - zero)) (z + zero)
    (max z zero + Ideal.log1p (Ideal.exp (zero - FloatOps.absf (F := Ideal) (φ := .f32) (z - zero))))

/-- A positive pair: same label and similarity below one. -/
def posMask (x : XArr) (tg : TArr) (r k : Fin 4096) : BitVec 1 :=
  IntOp.andi (same tg r k) (FloatOps.cmpf (F := Ideal) (φ := .f32) .olt (sim x r k) one)

/-- A negative pair: different labels. -/
def negMask (tg : TArr) (r k : Fin 4096) : BitVec 1 := IntOp.xori (same tg r k) 1#1

def posTerm (x : XArr) (r k : Fin 4096) : EReal := softplus (negTwo * (sim x r k - half))
def negTerm (x : XArr) (r k : Fin 4096) : EReal := softplus (c25 * (sim x r k - half))

/-- The sum of the positive terms of row `r`. -/
def posSum (x : XArr) (tg : TArr) (r : Fin 4096) : EReal :=
  ∑ k : Fin 4096, Scalar.select (posMask x tg r k) (posTerm x r k) zero
/-- The sum of the negative terms of row `r`. -/
def negSum (x : XArr) (tg : TArr) (r : Fin 4096) : EReal :=
  ∑ k : Fin 4096, Scalar.select (negMask tg r k) (negTerm x r k) zero
/-- The number of positive pairs of row `r`, as an extended real. -/
def posCnt (x : XArr) (tg : TArr) (r : Fin 4096) : EReal :=
  ∑ k : Fin 4096, FloatOps.sitofp (F := Ideal) .f32 ((posMask x tg r k).setWidth 32)
/-- The number of negative pairs of row `r`, as an extended real. -/
def negCnt (tg : TArr) (r : Fin 4096) : EReal :=
  ∑ k : Fin 4096, FloatOps.sitofp (F := Ideal) .f32 ((negMask tg r k).setWidth 32)

/-- The average `s / max c 1` when the count `c` is positive, else zero. -/
def mean (s c : EReal) : EReal :=
  Scalar.select (FloatOps.cmpf (F := Ideal) (φ := .f32) .ogt c zero) (Ideal.div s (max c one)) zero

def perRow (x : XArr) (tg : TArr) (r : Fin 4096) : EReal :=
  mean (posSum x tg r) (posCnt x tg r) + mean (negSum x tg r) (negCnt tg r)

/-- The loss: the mean over the rows of the per-row value. -/
def loss (x : XArr) (tg : TArr) : EReal := Ideal.div (zero + ∑ r : Fin 4096, perRow x tg r) n4096

end Cert.Spec
-- ==== Proof.LibCount.lean ====
import Mathlib
import Idealize.ShloMosaic.PureOps.Ideal
import Idealize.ShloMosaic.PureOps.Ideal.Laws
import Idealize.ShloMosaic.Lib.ValueIdx

/-!
# Counting a 0/1 mask, as a 32-bit integer and as an extended real

A mask is a family `b : Fin n → BitVec 1`.  Its *count* is the number of indices at which the bit is set.
Two programs may compute that count differently: one sums the zero-extended bits as wrapping 32-bit integers and
converts the total to a float afterwards, the other converts each bit to a float first and sums the floats.  At the
ideal values (floats are extended reals, every conversion exact) both give the natural number `count b`, provided the
count stays below `2 ^ 31`, so that the signed reading of the 32-bit total is the count itself.
-/

noncomputable section

namespace Cert.LibCount

open Idealize.ShloMosaic

/-- The number of indices at which the mask bit is set. -/
def count {n : ℕ} (b : Fin n → BitVec 1) : ℕ := (Finset.univ.filter fun k => b k = 1#1).card

/-- The count never exceeds the number of indices. -/
theorem count_le {n : ℕ} (b : Fin n → BitVec 1) : count b ≤ n := by
  unfold count
  exact (Finset.card_le_univ _).trans (by simp)

/-- A zero-extended bit is the 32-bit word one when the bit is set and zero otherwise. -/
theorem setWidth_bit (x : BitVec 1) : x.setWidth 32 = if x = 1#1 then (1 : BitVec 32) else 0 := by
  revert x; decide

/-- Read as a signed integer, a zero-extended bit is one when the bit is set and zero otherwise. -/
theorem toInt_setWidth_bit (x : BitVec 1) : (x.setWidth 32 : BitVec 32).toInt = if x = 1#1 then 1 else 0 := by
  revert x; decide

/-- A bit converted to a float through its 32-bit zero extension is the extended real one when set, zero otherwise. -/
theorem sitofp_bit (x : BitVec 1) :
    FloatOps.sitofp (F := Ideal) .f32 (x.setWidth 32) = if x = 1#1 then (1 : EReal) else 0 := by
  show (((x.setWidth 32 : BitVec 32).toInt : ℝ) : EReal) = _
  rw [toInt_setWidth_bit]
  split <;> simp

/-- **(a) The float sum of the bits is the count.**  Converting each zero-extended bit to a float and summing the
    floats gives the count, as a real number inside the extended reals. -/
theorem sum_sitofp_eq_count {n : ℕ} (b : Fin n → BitVec 1) :
    ∑ k : Fin n, FloatOps.sitofp (F := Ideal) .f32 ((b k).setWidth 32) = ((count b : ℝ) : EReal) := by
  simp only [sitofp_bit]
  rw [Finset.sum_boole, EReal.coe_natCast]
  rfl

/-- A fold of wrapping 32-bit addition over a finite set is the initial word plus the sum of the words. -/
theorem fold_addi_eq_sum {ι : Type*} [DecidableEq ι] (s : Finset ι) (z : BitVec 32) (g : ι → BitVec 32) :
    s.fold IntOp.addi z g = z + ∑ k ∈ s, g k := by
  induction s using Finset.induction_on with
  | empty => simp
  | insert a s ha ih =>
    rw [Finset.fold_insert ha, ih, Finset.sum_insert ha]
    show g a + (z + _) = z + (g a + _)
    ac_rfl

/-- **(b) The wrapping integer sum of the bits is the count**, in the shape a one-axis reduction reads as: the fold of
    32-bit addition from an initial word `z` over all indices of the zero-extended bits is `z` plus the count. -/
theorem fold_addi_bits {n : ℕ} (z : BitVec 32) (b : Fin n → BitVec 1) :
    (Finset.univ : Finset (Fin n)).fold IntOp.addi z (fun k => (b k).setWidth 32) = z + BitVec.ofNat 32 (count b) := by
  rw [fold_addi_eq_sum]
  simp only [setWidth_bit]
  rw [Finset.sum_boole]
  rfl

/-- The same from the zero word: the fold is the count, as a 32-bit word. -/
theorem fold_addi_bits_zero {n : ℕ} (b : Fin n → BitVec 1) :
    (Finset.univ : Finset (Fin n)).fold IntOp.addi 0#32 (fun k => (b k).setWidth 32) = BitVec.ofNat 32 (count b) := by
  rw [fold_addi_bits, BitVec.zero_add]

/-! ### The 32-bit total read back as a number -/

/-- The f32 pattern `0x3F800000` is the extended real one. -/
theorem ofBits_one_f32 : Ideal.ofBits .f32 0x3F800000#32 = 1 := by
  simp [Ideal.ofBits, Ideal.ieee, -EReal.coe_mul]; norm_num

/-- A natural number below `2 ^ 31`, stored in 32 bits and read back signed, is itself. -/
theorem toInt_ofNat_small {N : ℕ} (h : N < 2 ^ 31) : (BitVec.ofNat 32 N).toInt = (N : ℤ) := by
  have hN : (BitVec.ofNat 32 N).toNat = N := by
    rw [BitVec.toNat_ofNat]; exact Nat.mod_eq_of_lt (by omega)
  rw [BitVec.toInt_eq_toNat_cond, hN, if_pos (by omega)]

/-- The signed maximum of a small count and the word one is the larger of the two numbers. -/
theorem toInt_maxsi_one {N : ℕ} (h : N < 2 ^ 31) :
    (IntOp.maxsi (BitVec.ofNat 32 N) 1#32).toInt = max (N : ℤ) 1 := by
  have h1 : (1#32 : BitVec 32).toInt = 1 := by decide
  have hN := toInt_ofNat_small h
  unfold IntOp.maxsi BitVec.slt
  rw [h1, hN]
  by_cases hlt : (1 : ℤ) < N
  · rw [if_pos (by simpa using hlt), hN, max_eq_left (le_of_lt hlt)]
  · rw [if_neg (by simpa using hlt), h1, max_eq_right (not_lt.mp hlt)]

/-- **(c), the divisor.**  For a count `N < 2 ^ 31` held as a 32-bit word: clamping it below by the word one (signed
    maximum) and converting to a float gives the larger of the real number `N` and the float one. -/
theorem sitofp_maxsi_one {N : ℕ} (h : N < 2 ^ 31) :
    FloatOps.sitofp (F := Ideal) .f32 (IntOp.maxsi (BitVec.ofNat 32 N) 1#32)
      = max ((N : ℝ) : EReal) (Ideal.ofBits .f32 0x3F800000#32) := by
  rw [ofBits_one_f32]
  show (((IntOp.maxsi (BitVec.ofNat 32 N) 1#32).toInt : ℝ) : EReal) = _
  rw [toInt_maxsi_one h, ← EReal.coe_one, ← EReal.coe_strictMono.monotone.map_max]
  push_cast
  rfl

/-- **(c), the guard.**  For a count `N < 2 ^ 31` held as a 32-bit word: the signed test "count greater than zero" is the
    float test "the real number `N` greater than the float zero" (both are one bit). -/
theorem cmpi_sgt_zero {N : ℕ} (h : N < 2 ^ 31) :
    IntOp.cmpi .sgt (BitVec.ofNat 32 N) 0#32
      = FloatOps.cmpf (F := Ideal) (φ := .f32) .ogt ((N : ℝ) : EReal) (Ideal.ofBits .f32 0x00000000#32) := by
  rw [Ideal.ofBits_zero_f32]
  have h0 : (0#32 : BitVec 32).toInt = 0 := by decide
  show BitVec.ofBool ((0#32 : BitVec 32).slt (BitVec.ofNat 32 N)) = BitVec.ofBool (decide ((0 : EReal) < ((N : ℝ) : EReal)))
  congr 1
  unfold BitVec.slt
  rw [h0, toInt_ofNat_small h]
  simp only [decide_eq_decide]
  rw [EReal.coe_pos, Nat.cast_pos, Nat.cast_pos]

/-- The f32 pattern `0x00000000` is the extended real zero. -/
theorem ofBits_zero_f32 : Ideal.ofBits .f32 0x00000000#32 = 0 := Ideal.ofBits_zero_f32

/-- The divisor, with the float one written as the extended real `1`. -/
theorem sitofp_maxsi_one' {N : ℕ} (h : N < 2 ^ 31) :
    FloatOps.sitofp (F := Ideal) .f32 (IntOp.maxsi (BitVec.ofNat 32 N) 1#32) = max ((N : ℝ) : EReal) 1 := by
  rw [sitofp_maxsi_one h, ofBits_one_f32]

/-- The guard, with the float zero written as the extended real `0`. -/
theorem cmpi_sgt_zero' {N : ℕ} (h : N < 2 ^ 31) :
    IntOp.cmpi .sgt (BitVec.ofNat 32 N) 0#32
      = FloatOps.cmpf (F := Ideal) (φ := .f32) .ogt ((N : ℝ) : EReal) 0 := by
  rw [cmpi_sgt_zero h, ofBits_zero_f32]

/-! ### The two ways of counting, side by side

With `n < 2 ^ 31` indices the count is below `2 ^ 31`, so the integer route (wrapping sum of the bits from the zero word,
then clamp / test, then convert) and the float route (convert each bit, sum, then clamp / test) agree. -/

/-- The integer total, clamped below by one and converted, is the float total clamped below by the float one. -/
theorem sitofp_maxsi_fold_eq {n : ℕ} (hn : n < 2 ^ 31) (b : Fin n → BitVec 1) :
    FloatOps.sitofp (F := Ideal) .f32
        (IntOp.maxsi ((Finset.univ : Finset (Fin n)).fold IntOp.addi 0#32 (fun k => (b k).setWidth 32)) 1#32)
      = max (∑ k : Fin n, FloatOps.sitofp (F := Ideal) .f32 ((b k).setWidth 32)) (Ideal.ofBits .f32 0x3F800000#32) := by
  rw [fold_addi_bits_zero, sum_sitofp_eq_count, sitofp_maxsi_one (lt_of_le_of_lt (count_le b) hn)]

/-- The integer total is positive exactly when the float total exceeds the float zero. -/
theorem cmpi_sgt_fold_eq {n : ℕ} (hn : n < 2 ^ 31) (b : Fin n → BitVec 1) :
    IntOp.cmpi .sgt ((Finset.univ : Finset (Fin n)).fold IntOp.addi 0#32 (fun k => (b k).setWidth 32)) 0#32
      = FloatOps.cmpf (F := Ideal) (φ := .f32) .ogt
          (∑ k : Fin n, FloatOps.sitofp (F := Ideal) .f32 ((b k).setWidth 32)) (Ideal.ofBits .f32 0x00000000#32) := by
  rw [fold_addi_bits_zero, sum_sitofp_eq_count, cmpi_sgt_zero (lt_of_le_of_lt (count_le b) hn)]

/-! ### The instance of 4096 indices -/

/-- The float sum of 4096 bits is their count. -/
theorem sum_sitofp_eq_count_4096 (b : Fin 4096 → BitVec 1) :
    ∑ k : Fin 4096, FloatOps.sitofp (F := Ideal) .f32 ((b k).setWidth 32) = ((count b : ℝ) : EReal) :=
  sum_sitofp_eq_count b

/-- The wrapping integer sum of 4096 bits from the zero word is their count. -/
theorem fold_addi_bits_zero_4096 (b : Fin 4096 → BitVec 1) :
    (Finset.univ : Finset (Fin 4096)).fold IntOp.addi 0#32 (fun k => (b k).setWidth 32) = BitVec.ofNat 32 (count b) :=
  fold_addi_bits_zero b

/-- A count of 4096 bits is below `2 ^ 31`. -/
theorem count_lt_4096 (b : Fin 4096 → BitVec 1) : count b < 2 ^ 31 :=
  lt_of_le_of_lt (count_le b) (by norm_num)

/-- At 4096 indices: the clamped, converted integer total is the clamped float total. -/
theorem sitofp_maxsi_fold_eq_4096 (b : Fin 4096 → BitVec 1) :
    FloatOps.sitofp (F := Ideal) .f32
        (IntOp.maxsi ((Finset.univ : Finset (Fin 4096)).fold IntOp.addi 0#32 (fun k => (b k).setWidth 32)) 1#32)
      = max (∑ k : Fin 4096, FloatOps.sitofp (F := Ideal) .f32 ((b k).setWidth 32)) (Ideal.ofBits .f32 0x3F800000#32) :=
  sitofp_maxsi_fold_eq (by norm_num) b

/-- At 4096 indices: the integer total is positive exactly when the float total exceeds the float zero. -/
theorem cmpi_sgt_fold_eq_4096 (b : Fin 4096 → BitVec 1) :
    IntOp.cmpi .sgt ((Finset.univ : Finset (Fin 4096)).fold IntOp.addi 0#32 (fun k => (b k).setWidth 32)) 0#32
      = FloatOps.cmpf (F := Ideal) (φ := .f32) .ogt
          (∑ k : Fin 4096, FloatOps.sitofp (F := Ideal) .f32 ((b k).setWidth 32)) (Ideal.ofBits .f32 0x00000000#32) :=
  cmpi_sgt_fold_eq (by norm_num) b

/-- At 4096 indices, for the count itself: the divisor. -/
theorem sitofp_maxsi_count_4096 (b : Fin 4096 → BitVec 1) :
    FloatOps.sitofp (F := Ideal) .f32 (IntOp.maxsi (BitVec.ofNat 32 (count b)) 1#32) = max ((count b : ℝ) : EReal) 1 :=
  sitofp_maxsi_one' (count_lt_4096 b)

/-- At 4096 indices, for the count itself: the guard. -/
theorem cmpi_sgt_count_4096 (b : Fin 4096 → BitVec 1) :
    IntOp.cmpi .sgt (BitVec.ofNat 32 (count b)) 0#32
      = FloatOps.cmpf (F := Ideal) (φ := .f32) .ogt ((count b : ℝ) : EReal) 0 :=
  cmpi_sgt_zero' (count_lt_4096 b)

end Cert.LibCount
-- ==== Proof.RefSide.lean ====
import proofs.«115931_j57277683859994_1_alg».proof.Defs
import proofs.«115931_j57277683859994_1_alg».proof.Proof.Gen.ReferenceIdeal
import proofs.«115931_j57277683859994_1_alg».proof.Proof.Gen.Pre_finite_inputs
import proofs.«115931_j57277683859994_1_alg».proof.Proof.RefReadP
import proofs.«115931_j57277683859994_1_alg».proof.Proof.Spec
import proofs.«115931_j57277683859994_1_alg».proof.Proof.LibCount
import Idealize.ShloMosaic.PureOps.Reduce
import Idealize.ShloMosaic.Lib.IdealHost

/-!
The reference program computes the specification.

The reference is a straight line of whole-array operations. Read one operation at a time at an index, each
intermediate array is one of the specification's quantities: the product of the embeddings with their transpose is
the inner product of two rows; the two masks, the two softplus terms and their masked sums are the specification's
by unfolding; the reference counts each mask as a 32-bit integer sum — which, being a sum of 4096 zeros and ones, is
the count itself — where the specification sums extended reals, and the integer comparison with zero, the integer
maximum with one and the conversion to a float agree with their extended-real counterparts on such a count. The run
of the program then ends with the result buffer holding the specification's loss and the arguments unchanged.
-/

noncomputable section

namespace Cert.RefSide

open Cert.ReferenceIdeal Cert.ReferenceIdeal.Gen Cert.ReferenceIdeal.ReadP Idealize.ShloMosaic Idealize.ShloMosaic.ValueIdx
open scoped BigOperators

/-! ## Small general facts -/

theorem zero_eq : Cert.Spec.zero = 0 := Ideal.ofBits_zero_f32
theorem one_eq : Cert.Spec.one = 1 := Cert.LibCount.ofBits_one_f32

/-- Nothing is unordered on the extended reals: a value never differs from itself. -/
theorem cmp_ne_self (p : CmpFPredicate) (hp : p = .one ∨ p = .une) (a : EReal) :
    FloatOps.cmpf (F := Ideal) (φ := .f32) p a a = 0#1 := by
  rcases hp with rfl | rfl <;> simp [Ideal.cmpf_def, Ideal.cmp]

/-- The reference's softplus, operation by operation, is the specification's: the guard is never
    taken in either, and `-a = 0 - a`. -/
theorem softplus_ref (z : EReal) :
    Scalar.select (FloatOps.cmpf (F := Ideal) (φ := .f32) .une (FloatOps.subf (F := Ideal) (φ := .f32) z (FloatOps.ofBits .f32 0x00000000#32)) (FloatOps.subf (F := Ideal) (φ := .f32) z (FloatOps.ofBits .f32 0x00000000#32)))
      (FloatOps.addf (F := Ideal) (φ := .f32) z (FloatOps.ofBits .f32 0x00000000#32))
      (FloatOps.addf (F := Ideal) (φ := .f32) (FloatOps.maximumf (F := Ideal) (φ := .f32) z (FloatOps.ofBits .f32 0x00000000#32))
        (FloatOps.hostUnary (F := Ideal) (φ := .f32) .log1p (FloatOps.hostUnary (F := Ideal) (φ := .f32) .exp (FloatOps.hostNegf (F := Ideal) (φ := .f32)
          (FloatOps.hostAbsf (F := Ideal) (φ := .f32) (FloatOps.subf (F := Ideal) (φ := .f32) z (FloatOps.ofBits .f32 0x00000000#32)))))))
      = Cert.Spec.softplus z := by
  unfold Cert.Spec.softplus
  rw [cmp_ne_self .une (Or.inr rfl), cmp_ne_self .one (Or.inl rfl)]
  show max z Cert.Spec.zero + Ideal.log1p (Ideal.exp (-(max (z - Cert.Spec.zero) (-(z - Cert.Spec.zero))))) = max z Cert.Spec.zero + Ideal.log1p (Ideal.exp (Cert.Spec.zero - max (z - Cert.Spec.zero) (-(z - Cert.Spec.zero))))
  rw [zero_eq, zero_sub]

/-- On one bit, the complement is the exclusive or with one. -/
theorem noti_bit (b : BitVec 1) : ~~~b = IntOp.xori b 1#1 := by
  revert b; decide

/-- A rank-one index is its only coordinate. -/
def idxEquiv1 {n : Nat} : (⟨1, ![n]⟩ : Shape).Idx ≃ Fin n where
  toFun j := j 0
  invFun := ix1
  left_inv j := (eq_ix1 j).symm
  right_inv _ := rfl

theorem sum_idx1 {M : Type*} [AddCommMonoid M] {n : Nat} (f : (⟨1, ![n]⟩ : Shape).Idx → M) :
    ∑ j, f j = ∑ r : Fin n, f (ix1 r) :=
  (Equiv.sum_comp idxEquiv1.symm f).symm

/-- Over a row index `r`, the index of the square array with column coordinate `k` is `(r, k)`. -/
theorem lift_row {n0 n1 : Nat} (h : (⟨2, ![n0, n1]⟩ : Shape).Reduces [1] ⟨1, ![n0]⟩) (r : Fin n0) (k : Fin n1) :
    h.lift (ix1 r) k = ix2 r k := by
  funext c
  apply Fin.ext
  show h.liftVal (ix1 r) k.val c = (ix2 r k c).val
  unfold Shape.Reduces.liftVal
  match c with
  | ⟨0, _⟩ => simp
  | ⟨1, _⟩ => simp

theorem idx2_ext {n0 n1 : Nat} (i j : (⟨2, ![n0, n1]⟩ : Shape).Idx) (h0 : (i 0).val = (j 0).val) (h1 : (i 1).val = (j 1).val) :
    i = j :=
  funext fun a => match a with
    | ⟨0, _⟩ => Fin.ext h0
    | ⟨1, _⟩ => Fin.ext h1

theorem idx1_ext {n : Nat} (i j : (⟨1, ![n]⟩ : Shape).Idx) (h0 : (i 0).val = (j 0).val) : i = j :=
  funext fun a => match a with
    | ⟨0, _⟩ => Fin.ext h0

/-! ## The reference, stage by stage, at an index -/

section Stages

variable (x : (⟨S4096x512, .f32⟩ : BufTy).Contents (Elt Ideal)) (tg : (⟨S4096, .i32⟩ : BufTy).Contents (Elt Ideal))
variable (r k : Fin 4096)

/-- The product with the transpose is the inner product of two rows. -/
theorem sim_at : val_main_v1 (F := Ideal) x (ix2 r k) = Cert.Spec.sim x r k := by
  rw [val_main_v1_apply]
  unfold Cert.Spec.sim
  refine Finset.sum_congr rfl fun d _ => ?_
  rw [val_main_v0_apply]
  rw [show lidx_main_v1 (ix2 r k) d = ix2 r d from idx2_ext _ _ rfl rfl,
    show idx_main_v0 (ridx_main_v1 (ix2 r k) d) = ix2 k d from idx2_ext _ _ rfl rfl]

theorem same_at : val_main_v6 (F := Ideal) tg (ix2 r k) = Cert.Spec.same tg r k := by
  rw [val_main_v6_apply, val_main_v4_apply, val_main_v5_apply, val_main_v2_apply, val_main_v3_apply]
  rw [show idx_main_v2 (idx_main_v4 (ix2 r k)) = ix1 r from idx1_ext _ _ rfl,
    show idx_main_v3 (idx_main_v5 (ix2 r k)) = ix1 k from idx1_ext _ _ rfl]
  rfl

theorem posMask_at : val_main_v9 (F := Ideal) x tg (ix2 r k) = Cert.Spec.posMask x tg r k := by
  rw [val_main_v9_apply, same_at, val_main_v8_apply, sim_at, val_main_v7_apply, val_main_cst_apply]
  rfl

theorem negMask_at : val_main_v10 (F := Ideal) tg (ix2 r k) = Cert.Spec.negMask tg r k := by
  rw [val_main_v10_apply, same_at]
  exact noti_bit _

theorem posArg_at : val_main_v14 (F := Ideal) x (ix2 r k) = Cert.Spec.negTwo * (Cert.Spec.sim x r k - Cert.Spec.half) := by
  rw [val_main_v14_apply, val_main_v13_apply, val_main_cst_1_apply, val_main_v12_apply, sim_at, val_main_v11_apply,
    val_main_cst_0_apply]
  rfl

theorem negArg_at : val_main_v19 (F := Ideal) x (ix2 r k) = Cert.Spec.c25 * (Cert.Spec.sim x r k - Cert.Spec.half) := by
  rw [val_main_v19_apply, val_main_v18_apply, val_main_cst_3_apply, val_main_v17_apply, sim_at, val_main_v16_apply,
    val_main_cst_2_apply]
  rfl

theorem posTerm_at : val_main_v15 (F := Ideal) x (ix2 r k) = Cert.Spec.posTerm x r k := by
  rw [val_main_v15_apply, val_main_call0_v4_apply, val_main_call0_v6_apply, val_main_call0_v11_apply,
    val_main_call0_v1_apply, val_main_call0_v10_apply, val_main_call0_v9_apply, val_main_call0_v8_apply,
    val_main_call0_v7_apply, val_main_call0_v3_apply, val_main_call0_v0_apply, val_main_call0_v2_apply,
    val_main_call0_v5_apply, val_main_call0_cst_apply, posArg_at]
  exact softplus_ref _

theorem negTerm_at : val_main_v20 (F := Ideal) x (ix2 r k) = Cert.Spec.negTerm x r k := by
  rw [val_main_v20_apply, val_main_call1_v4_apply, val_main_call1_v6_apply, val_main_call1_v11_apply,
    val_main_call1_v1_apply, val_main_call1_v10_apply, val_main_call1_v9_apply, val_main_call1_v8_apply,
    val_main_call1_v7_apply, val_main_call1_v3_apply, val_main_call1_v0_apply, val_main_call1_v2_apply,
    val_main_call1_v5_apply, val_main_call1_cst_apply, negArg_at]
  exact softplus_ref _

theorem posSel_at : val_main_v25 (F := Ideal) x tg (ix2 r k)
    = Scalar.select (Cert.Spec.posMask x tg r k) (Cert.Spec.posTerm x r k) Cert.Spec.zero := by
  rw [val_main_v25_apply, posMask_at, posTerm_at, val_main_call2_v1_apply, val_main_call2_v0_apply, val_main_cst_5_apply]
  rfl

theorem negSel_at : val_main_v27 (F := Ideal) x tg (ix2 r k)
    = Scalar.select (Cert.Spec.negMask tg r k) (Cert.Spec.negTerm x r k) Cert.Spec.zero := by
  rw [val_main_v27_apply, negMask_at, negTerm_at, val_main_call3_v1_apply, val_main_call3_v0_apply, val_main_cst_7_apply]
  rfl

end Stages

/-! ## The per-row quantities -/

section Rows

variable (x : (⟨S4096x512, .f32⟩ : BufTy).Contents (Elt Ideal)) (tg : (⟨S4096, .i32⟩ : BufTy).Contents (Elt Ideal))
variable (r : Fin 4096)

theorem posSum_at : val_main_v26 (F := Ideal) x tg (ix1 r) = Cert.Spec.posSum x tg r := by
  rw [val_main_v26_apply, val_main_cst_6_apply]
  show Ideal.ofBits .f32 0x00000000#32 + _ = _
  rw [Ideal.ofBits_zero_f32, zero_add]
  unfold Cert.Spec.posSum
  refine Finset.sum_congr rfl fun k _ => ?_
  rw [show idx_main_v26 (ix1 r) k = ix2 r k from idx2_ext _ _ rfl rfl, posSel_at]

theorem negSum_at : val_main_v28 (F := Ideal) x tg (ix1 r) = Cert.Spec.negSum x tg r := by
  rw [val_main_v28_apply, val_main_cst_8_apply]
  show Ideal.ofBits .f32 0x00000000#32 + _ = _
  rw [Ideal.ofBits_zero_f32, zero_add]
  unfold Cert.Spec.negSum
  refine Finset.sum_congr rfl fun k _ => ?_
  rw [show idx_main_v28 (ix1 r) k = ix2 r k from idx2_ext _ _ rfl rfl, negSel_at]

/-- The integer sum of a row of the positive mask is its count: a sum of 4096 zeros and ones does not wrap. -/
theorem posCntI_at : val_main_v22 (F := Ideal) x tg (ix1 r)
    = BitVec.ofNat 32 (Cert.LibCount.count fun k : Fin 4096 => Cert.Spec.posMask x tg r k) := by
  unfold val_main_v22
  have hred : S4096x4096.Reduces [1] S4096 := by decide
  rw [Host.reduce_eq_fold_single IntOp.addi _ _ reducesTo_S4096x4096_S4096_d1 hred h_S_ (ix1 r)]
  have e : (val_main_v21 (F := Ideal) x tg ∘ hred.lift (ix1 r))
      = fun k : Fin 4096 => (Cert.Spec.posMask x tg r k).setWidth 32 := by
    refine funext fun (k : Fin 4096) => ?_
    show val_main_v21 (F := Ideal) x tg (hred.lift (ix1 r) k) = _
    have hl : hred.lift (ix1 r) k = ix2 r k := lift_row hred r k
    rw [hl, val_main_v21_apply, posMask_at]
  rw [e]
  exact Cert.LibCount.fold_addi_bits_zero _

theorem negCntI_at : val_main_v24 (F := Ideal) tg (ix1 r)
    = BitVec.ofNat 32 (Cert.LibCount.count fun k : Fin 4096 => Cert.Spec.negMask tg r k) := by
  unfold val_main_v24
  have hred : S4096x4096.Reduces [1] S4096 := by decide
  rw [Host.reduce_eq_fold_single IntOp.addi _ _ reducesTo_S4096x4096_S4096_d1 hred h_S_ (ix1 r)]
  have e : (val_main_v23 (F := Ideal) tg ∘ hred.lift (ix1 r))
      = fun k : Fin 4096 => (Cert.Spec.negMask tg r k).setWidth 32 := by
    refine funext fun (k : Fin 4096) => ?_
    show val_main_v23 (F := Ideal) tg (hred.lift (ix1 r) k) = _
    have hl : hred.lift (ix1 r) k = ix2 r k := lift_row hred r k
    rw [hl, val_main_v23_apply, negMask_at]
  rw [e]
  exact Cert.LibCount.fold_addi_bits_zero _

theorem posCnt_eq : Cert.Spec.posCnt x tg r
    = (((Cert.LibCount.count fun k : Fin 4096 => Cert.Spec.posMask x tg r k : ℕ) : ℝ) : EReal) :=
  Cert.LibCount.sum_sitofp_eq_count _

theorem negCnt_eq : Cert.Spec.negCnt tg r
    = (((Cert.LibCount.count fun k : Fin 4096 => Cert.Spec.negMask tg r k : ℕ) : ℝ) : EReal) :=
  Cert.LibCount.sum_sitofp_eq_count _

theorem posMean_at : val_main_v35 (F := Ideal) x tg (ix1 r)
    = Cert.Spec.mean (Cert.Spec.posSum x tg r) (Cert.Spec.posCnt x tg r) := by
  rw [val_main_v35_apply, val_main_v30_apply, val_main_v34_apply, val_main_v33_apply, val_main_v32_apply, posSum_at,
    posCntI_at, val_main_v29_apply, val_main_c_9_apply, val_main_v31_apply, val_main_c_10_apply,
    val_main_call4_v1_apply, val_main_call4_v0_apply, val_main_cst_11_apply,
    Cert.LibCount.cmpi_sgt_count_4096, Cert.LibCount.sitofp_maxsi_count_4096]
  unfold Cert.Spec.mean
  rw [posCnt_eq, zero_eq, one_eq]
  show Scalar.select _ _ (Ideal.ofBits .f32 0x00000000#32) = _
  rw [Ideal.ofBits_zero_f32]
  rfl

theorem negMean_at : val_main_v42 (F := Ideal) x tg (ix1 r)
    = Cert.Spec.mean (Cert.Spec.negSum x tg r) (Cert.Spec.negCnt tg r) := by
  rw [val_main_v42_apply, val_main_v37_apply, val_main_v41_apply, val_main_v40_apply, val_main_v39_apply, negSum_at,
    negCntI_at, val_main_v36_apply, val_main_c_12_apply, val_main_v38_apply, val_main_c_13_apply,
    val_main_call5_v1_apply, val_main_call5_v0_apply, val_main_cst_14_apply,
    Cert.LibCount.cmpi_sgt_count_4096, Cert.LibCount.sitofp_maxsi_count_4096]
  unfold Cert.Spec.mean
  rw [negCnt_eq, zero_eq, one_eq]
  show Scalar.select _ _ (Ideal.ofBits .f32 0x00000000#32) = _
  rw [Ideal.ofBits_zero_f32]
  rfl

theorem perRow_at : val_main_v43 (F := Ideal) x tg (ix1 r) = Cert.Spec.perRow x tg r := by
  rw [val_main_v43_apply, posMean_at, negMean_at]
  rfl

end Rows

/-- The reference's result, as a function of its two arguments, is the specification. -/
theorem val_eq_spec (x : (⟨S4096x512, .f32⟩ : BufTy).Contents (Elt Ideal)) (tg : (⟨S4096, .i32⟩ : BufTy).Contents (Elt Ideal)) :
    val_main_v45 (F := Ideal) x tg = fun _ => Cert.Spec.loss x tg := by
  funext i
  rw [val_main_v45_apply, val_main_v44_apply, val_main_cst_15_apply, val_main_cst_16_apply, sum_idx1]
  unfold Cert.Spec.loss
  rw [show (∑ r : Fin 4096, val_main_v43 (F := Ideal) x tg (ix1 r)) = ∑ r : Fin 4096, Cert.Spec.perRow x tg r from
    Finset.sum_congr rfl fun r _ => perRow_at x tg r]
  rfl

/-! ## The run -/

open Idealize.SL.Sem Idealize.ShloMosaic.TcCoe

/-- Every weakly fair execution of the reference terminates with the result buffer at the specification's loss of
    the two argument arrays, and the arguments unchanged. -/
theorem ref_run (m' : (ℓ : Loc Cert.ReferenceIdeal.nD Cert.ReferenceIdeal.τ Cert.ReferenceIdeal.sig) → Buf (Elt Ideal) ℓ)
    (g' : Dev Cert.ReferenceIdeal.nD → PrngReg) :
    θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
        r.2.mem ((c.tc : Thread Cert.ReferenceIdeal.nD Cert.ReferenceIdeal.τ).loc Cert.ReferenceIdeal.main_v45)
          = (fun _ => Cert.Spec.loss (m' ((c.tc : Thread Cert.ReferenceIdeal.nD Cert.ReferenceIdeal.τ).loc Cert.ReferenceIdeal.main_arg0))
              (m' ((c.tc : Thread Cert.ReferenceIdeal.nD Cert.ReferenceIdeal.τ).loc Cert.ReferenceIdeal.main_arg1)))
        ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)) :=
  (θ_run _ _ _).mono (fun _ h c => ⟨(h c).1.trans ((val_main_v45_eq m' c).trans (val_eq_spec _ _)), (h c).2.1, (h c).2.2⟩)
    (Cert.ReferenceIdeal.ValueP.run m' g')

/-- The reference runs and leaves its arguments unchanged. -/
theorem frame_ri : Cert.frame_ReferenceIdeal :=
  fun m g _ => (θ_run _ _ _).mono (fun _ h c => ⟨(h c).2.1, (h c).2.2⟩) (Cert.ReferenceIdeal.ValueP.run m g)

end Cert.RefSide

end
-- ==== Proof.KRuns.lean ====
/-
  The tiled loss kernel, what its control cases share. One grid point (i, j) handles row tile i against column
  tile j. The body has two conditionals on j: at j = 0 the four per-row accumulators (kept in scratch between
  points) are reset to zero; at j = 7 the per-row means are formed from them and stored to the output block.
  So a point is in one of three cases: FIRST (j = 0), MIDDLE (0 < j < 7), LAST (j = 7). Stated here: the blocks
  of the four input windows as read off the arrays the region finds, the two conditions in closed form over the
  linear position t (j = t mod 8), where the output window is idle, and the names of the staging and scratch
  memrefs the cases' runs are stated over.
-/
import proofs.«115931_j57277683859994_1_alg».proof.Proof.Gen.KernelIdeal.Launch
import proofs.«115931_j57277683859994_1_alg».proof.Proof.Gen.KernelIdeal.Skeleton
import proofs.«115931_j57277683859994_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the arrays as the region finds them, core by core
variable (V : (c : Dev nD) → (b : Ref sig .tc) → Buf (Elt F) ((c : Thread nD τ).loc b))

/-- Window `w`'s block at position `t`, read off its array at the region's entry. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every position, fetched there or not: when a position
    does not fetch, the block index has not moved since the one before. For the row tile (window 0). -/
theorem before0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The same for the column tile (window 1). -/
theorem before1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- The same for the row labels (window 2). -/
theorem before2_of {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- The same for the column labels (window 3). -/
theorem before3_of {c : Dev nD} (dat : Dat τ (Elt F) Unit ℕ (UR sig nD τ) ℕ cfg0 c) (hA : dat.A 3 = V c (Pipeline.arrRef spec0 3))
    (hafter : ∀ t, dat.after 3 t = iblk V c 3 t) (t : Fin cfg0.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The two conditions -/

/-- "This is the first column tile": j = 0, as the body computes it. -/
abbrev isFirst (i : grid0.Coords) : Prop := (Scalar.cmpi .ne (Scalar.extui (Scalar.cmpi .eq (BitVec.ofNat 32 (i 1).val) 0#32)) 0#32) = 1#1
/-- It holds exactly at the positions t with t mod 8 = 0. -/
theorem isFirst_iff : ∀ t : Fin cfg0.N, isFirst (grid0.coords t) ↔ t.val % 8 = 0 :=
  (by decide +kernel : ∀ t : Fin grid0.N, isFirst (grid0.coords t) ↔ t.val % 8 = 0)
/-- "This is the last column tile": j = 7. -/
abbrev isLast (i : grid0.Coords) : Prop := k0_cond2 i = 1#1
/-- It holds exactly at the positions t with t mod 8 = 7. -/
theorem isLast_iff : ∀ t : Fin cfg0.N, isLast (grid0.coords t) ↔ t.val % 8 = 7 :=
  (by decide +kernel : ∀ t : Fin grid0.N, isLast (grid0.coords t) ↔ t.val % 8 = 7)

/-! ## Where the windows are idle -/

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
/-- Away from the last column tile the output block is not stored into, -/
theorem idle4 : ∀ t : Fin cfg0.N, ¬isLast (grid0.coords t) → cfg0.idle 4 (grid0.coords t) = true := by decide +kernel
/-- and not written back; -/
theorem noFlush4 : ∀ t : Fin cfg0.N, ¬isLast (grid0.coords t) → (cfg0.win 4).flush t = false := by decide +kernel
/-- at the last column tile it is stored. -/
theorem live4 : ∀ t : Fin cfg0.N, isLast (grid0.coords t) → cfg0.idle 4 (grid0.coords t) = false := by decide +kernel

/-! ## The memrefs the body is called with -/

abbrev ms0 (t : Fin cfg0.N) : Memref sig .tc .vmem S512x512 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S512x512 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S512x1 .i32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x512 .i32 := win0_3.stage (cfg0.slots t 3)
abbrev hs3 (t : Fin cfg0.N) : (ms3 t).IsWhole := hstage0_3 ((cfg0.slots t 3).cast nbuf0_3)
abbrev ms4 (t : Fin cfg0.N) : Memref sig .tc .vmem S512x1 .f32 := win0_4.stage (cfg0.slots t 4)
abbrev hs4 (t : Fin cfg0.N) : (ms4 t).IsWhole := hstage0_4 ((cfg0.slots t 4).cast nbuf0_4)
/-- The four accumulators: sum over positives, sum over negatives, count of positives, count of negatives. -/
abbrev accPS : Memref sig .tc .vmem S512x1 .f32 := Memref.whole cc0_scratch0
abbrev accNS : Memref sig .tc .vmem S512x1 .f32 := Memref.whole cc0_scratch1
abbrev accPC : Memref sig .tc .vmem S512x1 .f32 := Memref.whole cc0_scratch2
abbrev accNC : Memref sig .tc .vmem S512x1 .f32 := Memref.whole cc0_scratch3
/-- A view of a [512, 1] buffer through which contents are read back (any whole one serves). -/
abbrev VO : View sig .tc .vmem S512x1 .f32 := (Memref.whole cc0_stg4_0 : Memref sig .tc .vmem S512x1 .f32).view

/-- The region's invariant at entry and exit, with the four accumulators as memrefs at some contents. -/
theorem PhiA_eq (c : Dev nD) :
    (Pipeline.ΦA spec0 c : sProp 𝕄)
      = iprop(iprop((∃ d, owns (c : Thread nD τ) accPS fullShare d) ∗ (∃ d, owns (c : Thread nD τ) accNS fullShare d) ∗ (∃ d, owns (c : Thread nD τ) accPC fullShare d) ∗ (∃ d, owns (c : Thread nD τ) accNC fullShare d)) ∗ (∃ r, prngReg c r)) := by
  unfold Pipeline.ΦA; rw [scopedRest0_eq]; simp only [accPS, accNS, accPC, accNC, owns_whole]; try rfl

end Cert.KernelIdeal.Hand

end
-- ==== Proof.KRunFirst.lean ====
/-
  The body at a FIRST column tile (j = 0): the four accumulators are reset to zero and the tile's four row
  quantities are added; the output block is not touched. Whatever the accumulators held before is irrelevant.
  The run is found by symbolic execution of the body over its named payloads; what each accumulator ends with is
  recorded as the list of its stores (last first).
-/
import proofs.«115931_j57277683859994_1_alg».proof.Proof.KRuns
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- On whole memrefs — the four inputs at their blocks, the output's buffer at contents handed back untouched, the
    accumulators at anything — the body at a first column tile runs to its end, leaving the inputs and the output's
    buffer as they were and each accumulator with its stores written. -/
noncomputable def runFirst (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : isFirst i) (hc1 : ¬isLast i)
    (x0 x1 : Vec F S512x512 .f32) (x2 : Vec F S512x1 .i32) (x3 : Vec F S1x512 .i32) :
    Σ' (LS0 : List (View.Piece (Elt F) S512x1 .f32)) (LS1 : List (View.Piece (Elt F) S512x1 .f32)) (LS2 : List (View.Piece (Elt F) S512x1 .f32)), { LS3 : List (View.Piece (Elt F) S512x1 .f32) //
      ∀ (xi4 : Vec F S512x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4
            ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2) ∗ (∃ f, arg10.view.loc (c : Thread nD τ) ↦[arg10.view.set]{fullShare} arg10.view.writes (Elt F) f LS3)) -∗ K ⟨⟩))
          ⊢ wp frame (wpE (defs₀ (F := F)) Variants.none c none) E (cc0__binomial_loss_kernel i arg2 harg2 arg3 harg3 arg4 harg4 arg5 harg5 arg6 harg6 arg7 harg7 arg8 harg8 arg9 harg9 arg10 harg10) K } := by
  refine ⟨?_, ?_, ?_, ?_, fun xi4 E K => ?run⟩
  case run =>
    simp only [cc0__binomial_loss_kernel_eq_skeleton]; unfold cc0__binomial_loss_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, ⟨%ds2, %fs2, -, HS2⟩, ⟨%ds3, %fs3, -, HS3⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    isplitl [HS1]; · iexists _; iexact HS1
    isplitl [HS2]; · iexists _; iexact HS2
    iexists _; iexact HS3

end Cert.KernelIdeal.Hand

end
-- ==== Proof.KRunMiddle.lean ====
/-
  The body at a MIDDLE column tile (0 < j < 7): the tile's four row quantities are added to the accumulators as
  the tile before left them; the output block is not touched.
-/
import proofs.«115931_j57277683859994_1_alg».proof.Proof.KRunFirst
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- On whole memrefs — the four inputs at their blocks, the output's buffer at contents handed back untouched, the
    accumulators at what the tile before left — the body at a middle column tile runs to its end, leaving the inputs
    and the output's buffer as they were and each accumulator with its store written. -/
noncomputable def runMiddle (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : ¬isFirst i) (hc1 : ¬isLast i)
    (x0 x1 : Vec F S512x512 .f32) (x2 : Vec F S512x1 .i32) (x3 : Vec F S1x512 .i32) (xs0 xs1 xs2 xs3 : Vec F S512x1 .f32) :
    Σ' (LS0 : List (View.Piece (Elt F) S512x1 .f32)) (LS1 : List (View.Piece (Elt F) S512x1 .f32)) (LS2 : List (View.Piece (Elt F) S512x1 .f32)), { LS3 : List (View.Piece (Elt F) S512x1 .f32) //
      ∀ (xi4 : Vec F S512x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4
            ∗ owns (c : Thread nD τ) arg7 fullShare xs0 ∗ owns (c : Thread nD τ) arg8 fullShare xs1 ∗ owns (c : Thread nD τ) arg9 fullShare xs2 ∗ owns (c : Thread nD τ) arg10 fullShare xs3
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2) ∗ (∃ f, arg10.view.loc (c : Thread nD τ) ↦[arg10.view.set]{fullShare} arg10.view.writes (Elt F) f LS3)) -∗ K ⟨⟩))
          ⊢ wp frame (wpE (defs₀ (F := F)) Variants.none c none) E (cc0__binomial_loss_kernel i arg2 harg2 arg3 harg3 arg4 harg4 arg5 harg5 arg6 harg6 arg7 harg7 arg8 harg8 arg9 harg9 arg10 harg10) K } := by
  refine ⟨?_, ?_, ?_, ?_, fun xi4 E K => ?run⟩
  case run =>
    simp only [cc0__binomial_loss_kernel_eq_skeleton]; unfold cc0__binomial_loss_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, ⟨%fs2, %hfs2, HS2⟩, ⟨%fs3, %hfs3, HS3⟩, Hk⟩
    obtain rfl := harg2.eq_unread hf0; obtain rfl := harg3.eq_unread hf1; obtain rfl := harg4.eq_unread hf2; obtain rfl := harg5.eq_unread hf3; obtain rfl := harg6.eq_unread hf4
    obtain rfl := harg7.eq_unread hfs0; obtain rfl := harg8.eq_unread hfs1; obtain rfl := harg9.eq_unread hfs2; obtain rfl := harg10.eq_unread hfs3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    isplitl [HS1]; · iexists _; iexact HS1
    isplitl [HS2]; · iexists _; iexact HS2
    iexists _; iexact HS3

end Cert.KernelIdeal.Hand

end
-- ==== Proof.KRunLast.lean ====
/-
  The body at a LAST column tile (j = 7): the tile's four row quantities are added to the accumulators as the tile
  before left them, and then the row means — each sum over its count where the count is positive, zero otherwise —
  are added and stored to the output block.
-/
import proofs.«115931_j57277683859994_1_alg».proof.Proof.KRunMiddle
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- On whole memrefs — the four inputs at their blocks, the output's buffer at anything, the accumulators at what
    the tile before left — the body at a last column tile runs to its end, leaving the inputs as they were, each
    accumulator with its store written, and the output's buffer with its store written. -/
noncomputable def runLast (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : ¬isFirst i) (hc1 : isLast i)
    (x0 x1 : Vec F S512x512 .f32) (x2 : Vec F S512x1 .i32) (x3 : Vec F S1x512 .i32) (xs0 xs1 xs2 xs3 : Vec F S512x1 .f32) :
    Σ' (L4 : List (View.Piece (Elt F) S512x1 .f32)) (LS0 : List (View.Piece (Elt F) S512x1 .f32)) (LS1 : List (View.Piece (Elt F) S512x1 .f32)) (LS2 : List (View.Piece (Elt F) S512x1 .f32)), { LS3 : List (View.Piece (Elt F) S512x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d)
            ∗ owns (c : Thread nD τ) arg7 fullShare xs0 ∗ owns (c : Thread nD τ) arg8 fullShare xs1 ∗ owns (c : Thread nD τ) arg9 fullShare xs2 ∗ owns (c : Thread nD τ) arg10 fullShare xs3
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2) ∗ (∃ f, arg10.view.loc (c : Thread nD τ) ↦[arg10.view.set]{fullShare} arg10.view.writes (Elt F) f LS3)) -∗ K ⟨⟩))
          ⊢ wp frame (wpE (defs₀ (F := F)) Variants.none c none) E (cc0__binomial_loss_kernel i arg2 harg2 arg3 harg3 arg4 harg4 arg5 harg5 arg6 harg6 arg7 harg7 arg8 harg8 arg9 harg9 arg10 harg10) K } := by
  refine ⟨?_, ?_, ?_, ?_, ?_, fun E K => ?run⟩
  case run =>
    simp only [cc0__binomial_loss_kernel_eq_skeleton]; unfold cc0__binomial_loss_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%fs1, %hfs1, HS1⟩, ⟨%fs2, %hfs2, HS2⟩, ⟨%fs3, %hfs3, HS3⟩, Hk⟩
    obtain rfl := harg2.eq_unread hf0; obtain rfl := harg3.eq_unread hf1; obtain rfl := harg4.eq_unread hf2; obtain rfl := harg5.eq_unread hf3
    obtain rfl := harg7.eq_unread hfs0; obtain rfl := harg8.eq_unread hfs1; obtain rfl := harg9.eq_unread hfs2; obtain rfl := harg10.eq_unread hfs3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [HS0]; · iexists _; iexact HS0
    isplitl [HS1]; · iexists _; iexact HS1
    isplitl [HS2]; · iexists _; iexact HS2
    iexists _; iexact HS3

end Cert.KernelIdeal.Hand

end
-- ==== Proof.KBody.lean ====
/-
  The tiled loss kernel, position by position. What the four accumulators (and, at a last column tile, the output
  block) hold after the body at each position of the grid, by recursion on the position: a first column tile starts
  from nothing, a middle or last one from what the position before left. From these: the region's invariant (the
  accumulators at the contents the position before left), the proof data of the pipeline, and the body's obligation
  at every position, by cases on where in its row of tiles the position is.
-/
import proofs.«115931_j57277683859994_1_alg».proof.Proof.KRunLast
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Contents read back from a list of stores (last first) over a [512, 1] buffer. -/
def readBack (L : List (View.Piece (Elt F) S512x1 .f32)) : Vec F S512x1 .f32 := VO.read (Elt F) (VO.writes (Elt F) VO.junk L)

/-! ## Each case's stores tile the buffer they go to -/

theorem coverFirst0 (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : isFirst i) (hc1 : ¬isLast i) (x0 x1 : Vec F S512x512 .f32) (x2 : Vec F S512x1 .i32) (x3 : Vec F S1x512 .i32) (y : S512x1.Idx) : ∃ pc ∈ (runFirst c i arg2 harg2 arg3 harg3 arg4 harg4 arg5 harg5 arg6 harg6 arg7 harg7 arg8 harg8 arg9 harg9 arg10 harg10 hc0 hc1 x0 x1 x2 x3).1, y ∈ pc.1.set :=
  View.cover_of_tiledL _ S512x1.size (by sl_kernel_rfl) y
theorem coverMiddle0 (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : ¬isFirst i) (hc1 : ¬isLast i) (x0 x1 : Vec F S512x512 .f32) (x2 : Vec F S512x1 .i32) (x3 : Vec F S1x512 .i32) (xs0 xs1 xs2 xs3 : Vec F S512x1 .f32) (y : S512x1.Idx) : ∃ pc ∈ (runMiddle c i arg2 harg2 arg3 harg3 arg4 harg4 arg5 harg5 arg6 harg6 arg7 harg7 arg8 harg8 arg9 harg9 arg10 harg10 hc0 hc1 x0 x1 x2 x3 xs0 xs1 xs2 xs3).1, y ∈ pc.1.set :=
  View.cover_of_tiledL _ S512x1.size (by sl_kernel_rfl) y
theorem coverLast0 (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : ¬isFirst i) (hc1 : isLast i) (x0 x1 : Vec F S512x512 .f32) (x2 : Vec F S512x1 .i32) (x3 : Vec F S1x512 .i32) (xs0 xs1 xs2 xs3 : Vec F S512x1 .f32) (y : S512x1.Idx) : ∃ pc ∈ (runLast c i arg2 harg2 arg3 harg3 arg4 harg4 arg5 harg5 arg6 harg6 arg7 harg7 arg8 harg8 arg9 harg9 arg10 harg10 hc0 hc1 x0 x1 x2 x3 xs0 xs1 xs2 xs3).2.1, y ∈ pc.1.set :=
  View.cover_of_tiledL _ S512x1.size (by sl_kernel_rfl) y
theorem coverFirst1 (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : isFirst i) (hc1 : ¬isLast i) (x0 x1 : Vec F S512x512 .f32) (x2 : Vec F S512x1 .i32) (x3 : Vec F S1x512 .i32) (y : S512x1.Idx) : ∃ pc ∈ (runFirst c i arg2 harg2 arg3 harg3 arg4 harg4 arg5 harg5 arg6 harg6 arg7 harg7 arg8 harg8 arg9 harg9 arg10 harg10 hc0 hc1 x0 x1 x2 x3).2.1, y ∈ pc.1.set :=
  View.cover_of_tiledL _ S512x1.size (by sl_kernel_rfl) y
theorem coverMiddle1 (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : ¬isFirst i) (hc1 : ¬isLast i) (x0 x1 : Vec F S512x512 .f32) (x2 : Vec F S512x1 .i32) (x3 : Vec F S1x512 .i32) (xs0 xs1 xs2 xs3 : Vec F S512x1 .f32) (y : S512x1.Idx) : ∃ pc ∈ (runMiddle c i arg2 harg2 arg3 harg3 arg4 harg4 arg5 harg5 arg6 harg6 arg7 harg7 arg8 harg8 arg9 harg9 arg10 harg10 hc0 hc1 x0 x1 x2 x3 xs0 xs1 xs2 xs3).2.1, y ∈ pc.1.set :=
  View.cover_of_tiledL _ S512x1.size (by sl_kernel_rfl) y
theorem coverLast1 (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : ¬isFirst i) (hc1 : isLast i) (x0 x1 : Vec F S512x512 .f32) (x2 : Vec F S512x1 .i32) (x3 : Vec F S1x512 .i32) (xs0 xs1 xs2 xs3 : Vec F S512x1 .f32) (y : S512x1.Idx) : ∃ pc ∈ (runLast c i arg2 harg2 arg3 harg3 arg4 harg4 arg5 harg5 arg6 harg6 arg7 harg7 arg8 harg8 arg9 harg9 arg10 harg10 hc0 hc1 x0 x1 x2 x3 xs0 xs1 xs2 xs3).2.2.1, y ∈ pc.1.set :=
  View.cover_of_tiledL _ S512x1.size (by sl_kernel_rfl) y
theorem coverFirst2 (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : isFirst i) (hc1 : ¬isLast i) (x0 x1 : Vec F S512x512 .f32) (x2 : Vec F S512x1 .i32) (x3 : Vec F S1x512 .i32) (y : S512x1.Idx) : ∃ pc ∈ (runFirst c i arg2 harg2 arg3 harg3 arg4 harg4 arg5 harg5 arg6 harg6 arg7 harg7 arg8 harg8 arg9 harg9 arg10 harg10 hc0 hc1 x0 x1 x2 x3).2.2.1, y ∈ pc.1.set :=
  View.cover_of_tiledL _ S512x1.size (by sl_kernel_rfl) y
theorem coverMiddle2 (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : ¬isFirst i) (hc1 : ¬isLast i) (x0 x1 : Vec F S512x512 .f32) (x2 : Vec F S512x1 .i32) (x3 : Vec F S1x512 .i32) (xs0 xs1 xs2 xs3 : Vec F S512x1 .f32) (y : S512x1.Idx) : ∃ pc ∈ (runMiddle c i arg2 harg2 arg3 harg3 arg4 harg4 arg5 harg5 arg6 harg6 arg7 harg7 arg8 harg8 arg9 harg9 arg10 harg10 hc0 hc1 x0 x1 x2 x3 xs0 xs1 xs2 xs3).2.2.1, y ∈ pc.1.set :=
  View.cover_of_tiledL _ S512x1.size (by sl_kernel_rfl) y
theorem coverLast2 (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : ¬isFirst i) (hc1 : isLast i) (x0 x1 : Vec F S512x512 .f32) (x2 : Vec F S512x1 .i32) (x3 : Vec F S1x512 .i32) (xs0 xs1 xs2 xs3 : Vec F S512x1 .f32) (y : S512x1.Idx) : ∃ pc ∈ (runLast c i arg2 harg2 arg3 harg3 arg4 harg4 arg5 harg5 arg6 harg6 arg7 harg7 arg8 harg8 arg9 harg9 arg10 harg10 hc0 hc1 x0 x1 x2 x3 xs0 xs1 xs2 xs3).2.2.2.1, y ∈ pc.1.set :=
  View.cover_of_tiledL _ S512x1.size (by sl_kernel_rfl) y
theorem coverFirst3 (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : isFirst i) (hc1 : ¬isLast i) (x0 x1 : Vec F S512x512 .f32) (x2 : Vec F S512x1 .i32) (x3 : Vec F S1x512 .i32) (y : S512x1.Idx) : ∃ pc ∈ (runFirst c i arg2 harg2 arg3 harg3 arg4 harg4 arg5 harg5 arg6 harg6 arg7 harg7 arg8 harg8 arg9 harg9 arg10 harg10 hc0 hc1 x0 x1 x2 x3).2.2.2.1, y ∈ pc.1.set :=
  View.cover_of_tiledL _ S512x1.size (by sl_kernel_rfl) y
theorem coverMiddle3 (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : ¬isFirst i) (hc1 : ¬isLast i) (x0 x1 : Vec F S512x512 .f32) (x2 : Vec F S512x1 .i32) (x3 : Vec F S1x512 .i32) (xs0 xs1 xs2 xs3 : Vec F S512x1 .f32) (y : S512x1.Idx) : ∃ pc ∈ (runMiddle c i arg2 harg2 arg3 harg3 arg4 harg4 arg5 harg5 arg6 harg6 arg7 harg7 arg8 harg8 arg9 harg9 arg10 harg10 hc0 hc1 x0 x1 x2 x3 xs0 xs1 xs2 xs3).2.2.2.1, y ∈ pc.1.set :=
  View.cover_of_tiledL _ S512x1.size (by sl_kernel_rfl) y
theorem coverLast3 (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : ¬isFirst i) (hc1 : isLast i) (x0 x1 : Vec F S512x512 .f32) (x2 : Vec F S512x1 .i32) (x3 : Vec F S1x512 .i32) (xs0 xs1 xs2 xs3 : Vec F S512x1 .f32) (y : S512x1.Idx) : ∃ pc ∈ (runLast c i arg2 harg2 arg3 harg3 arg4 harg4 arg5 harg5 arg6 harg6 arg7 harg7 arg8 harg8 arg9 harg9 arg10 harg10 hc0 hc1 x0 x1 x2 x3 xs0 xs1 xs2 xs3).2.2.2.2.1, y ∈ pc.1.set :=
  View.cover_of_tiledL _ S512x1.size (by sl_kernel_rfl) y
theorem coverLastOut (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : ¬isFirst i) (hc1 : isLast i) (x0 x1 : Vec F S512x512 .f32) (x2 : Vec F S512x1 .i32) (x3 : Vec F S1x512 .i32) (xs0 xs1 xs2 xs3 : Vec F S512x1 .f32) (y : S512x1.Idx) : ∃ pc ∈ (runLast c i arg2 harg2 arg3 harg3 arg4 harg4 arg5 harg5 arg6 harg6 arg7 harg7 arg8 harg8 arg9 harg9 arg10 harg10 hc0 hc1 x0 x1 x2 x3 xs0 xs1 xs2 xs3).1, y ∈ pc.1.set :=
  View.cover_of_tiledL _ S512x1.size (by sl_kernel_rfl) y

/-- What the body leaves behind at a position: the output block's buffer and the four accumulators. -/
structure St (F : FTy → Type) [FloatOps F] where
  out : Vec F S512x1 .f32
  ps : Vec F S512x1 .f32
  ns : Vec F S512x1 .f32
  pc : Vec F S512x1 .f32
  nc : Vec F S512x1 .f32

/-- After a first column tile. (The output's buffer is not stored: a placeholder nothing consults.) -/
def stFirst (c : Dev nD) (t : Fin cfg0.N) (h0 : t.val % 8 = 0) (h1 : ¬t.val % 8 = 7) : St F :=
  let r := runFirst (F := F) c (grid0.coords t) (ms0 t) (hs0 t) (ms1 t) (hs1 t) (ms2 t) (hs2 t) (ms3 t) (hs3 t) (ms4 t) (hs4 t) accPS (Memref.isWhole_whole _) accNS (Memref.isWhole_whole _) accPC (Memref.isWhole_whole _) accNC (Memref.isWhole_whole _) ((isFirst_iff t).mpr h0) (fun h => h1 ((isLast_iff t).mp h)) (iblk V c 0 t) (iblk V c 1 t) (iblk V c 2 t) (iblk V c 3 t)
  ⟨readBack [], readBack r.1, readBack r.2.1, readBack r.2.2.1, readBack r.2.2.2.1⟩
/-- After a middle column tile, from what the position before left. -/
def stMiddle (c : Dev nD) (t : Fin cfg0.N) (h0 : ¬t.val % 8 = 0) (h1 : ¬t.val % 8 = 7) (p : St F) : St F :=
  let r := runMiddle (F := F) c (grid0.coords t) (ms0 t) (hs0 t) (ms1 t) (hs1 t) (ms2 t) (hs2 t) (ms3 t) (hs3 t) (ms4 t) (hs4 t) accPS (Memref.isWhole_whole _) accNS (Memref.isWhole_whole _) accPC (Memref.isWhole_whole _) accNC (Memref.isWhole_whole _) (fun h => h0 ((isFirst_iff t).mp h)) (fun h => h1 ((isLast_iff t).mp h)) (iblk V c 0 t) (iblk V c 1 t) (iblk V c 2 t) (iblk V c 3 t) p.ps p.ns p.pc p.nc
  ⟨readBack [], readBack r.1, readBack r.2.1, readBack r.2.2.1, readBack r.2.2.2.1⟩
/-- After a last column tile, from what the position before left. -/
def stLast (c : Dev nD) (t : Fin cfg0.N) (h0 : ¬t.val % 8 = 0) (h1 : t.val % 8 = 7) (p : St F) : St F :=
  let r := runLast (F := F) c (grid0.coords t) (ms0 t) (hs0 t) (ms1 t) (hs1 t) (ms2 t) (hs2 t) (ms3 t) (hs3 t) (ms4 t) (hs4 t) accPS (Memref.isWhole_whole _) accNS (Memref.isWhole_whole _) accPC (Memref.isWhole_whole _) accNC (Memref.isWhole_whole _) (fun h => h0 ((isFirst_iff t).mp h)) ((isLast_iff t).mpr h1) (iblk V c 0 t) (iblk V c 1 t) (iblk V c 2 t) (iblk V c 3 t) p.ps p.ns p.pc p.nc
  ⟨readBack r.1, readBack r.2.1, readBack r.2.2.1, readBack r.2.2.2.1, readBack r.2.2.2.2.1⟩

/-- THE ACCUMULATION: what is left after the body at position `n`. -/
def stAt (c : Dev nD) : (n : ℕ) → n < cfg0.N → St F
  | 0, hn => stFirst V c ⟨0, hn⟩ (Nat.zero_mod _) (by show ¬(0 % 8 = 7); omega)
  | n + 1, hn =>
    if h0 : (n + 1) % 8 = 0 then
      if h1 : (n + 1) % 8 = 7 then False.elim (by omega)
      else stFirst V c ⟨n + 1, hn⟩ h0 h1
    else
      if h1 : (n + 1) % 8 = 7 then stLast V c ⟨n + 1, hn⟩ h0 h1 (stAt c n (Nat.lt_of_succ_lt hn))
      else stMiddle V c ⟨n + 1, hn⟩ h0 h1 (stAt c n (Nat.lt_of_succ_lt hn))

theorem stAt_first (c : Dev nD) (t : Fin cfg0.N) (h0 : t.val % 8 = 0) (h1 : ¬t.val % 8 = 7) :
    stAt V c t.val t.isLt = stFirst V c t h0 h1 := by
  obtain ⟨n, hn⟩ := t
  cases n with
  | zero => rfl
  | succ n => exact (dif_pos h0).trans ((dif_neg h1).trans rfl)
theorem stAt_middle (c : Dev nD) (t : Fin cfg0.N) (h0 : ¬t.val % 8 = 0) (h1 : ¬t.val % 8 = 7) :
    stAt V c t.val t.isLt = stMiddle V c t h0 h1 (stAt V c (t.val - 1) (Nat.lt_of_le_of_lt (Nat.sub_le _ _) t.isLt)) := by
  obtain ⟨n, hn⟩ := t
  cases n with
  | zero => exact absurd (Nat.zero_mod _) h0
  | succ n => exact (dif_neg h0).trans ((dif_neg h1).trans rfl)
theorem stAt_last (c : Dev nD) (t : Fin cfg0.N) (h0 : ¬t.val % 8 = 0) (h1 : t.val % 8 = 7) :
    stAt V c t.val t.isLt = stLast V c t h0 h1 (stAt V c (t.val - 1) (Nat.lt_of_le_of_lt (Nat.sub_le _ _) t.isLt)) := by
  obtain ⟨n, hn⟩ := t
  cases n with
  | zero => exact absurd (Nat.zero_mod _) h0
  | succ n => exact (dif_neg h0).trans ((dif_pos h1).trans rfl)

/-- The accumulators at named contents, and the generator register at some state. -/
def accsAt (c : Dev nD) (s : St F) : sProp 𝕄 :=
  iprop(iprop(owns (c : Thread nD τ) accPS fullShare s.ps ∗ owns (c : Thread nD τ) accNS fullShare s.ns ∗ owns (c : Thread nD τ) accPC fullShare s.pc ∗ owns (c : Thread nD τ) accNC fullShare s.nc) ∗ (∃ r, prngReg c r))

/-- The region's invariant before position `n`: at the start every scratch at anything; afterwards the accumulators
    at what the position before left. -/
def PhiS (c : Dev nD) : (n : ℕ) → n ≤ cfg0.N → sProp 𝕄
  | 0, _ => Pipeline.ΦA spec0 c
  | n + 1, hn => accsAt c (stAt V c n hn)

theorem PhiS_zero (c : Dev nD) (n : ℕ) (h : n ≤ cfg0.N) (hz : n = 0) : PhiS V c n h = Pipeline.ΦA spec0 c := by
  subst hz; rfl
theorem PhiS_succ (c : Dev nD) (n : ℕ) (hn : n < cfg0.N) : PhiS V c (n + 1) hn = accsAt c (stAt V c n hn) := rfl
theorem PhiS_pos (c : Dev nD) (n : ℕ) (h : n ≤ cfg0.N) (hz : n ≠ 0) :
    PhiS V c n h = accsAt c (stAt V c (n - 1) (by omega)) := by
  cases n with
  | zero => exact absurd rfl hz
  | succ n => rfl

/-! ## The pipeline's proof data -/

/-- The arrays as the region finds them; after the body each input's buffer at its block, the output's at what the
    accumulation says; the invariant above; the array behind the row and column tiles held in two halves, one per
    window; nothing owed. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => (stAt V c t.val t.isLt).out
  Φ t := PhiS V c t.val (Nat.le_of_lt_succ t.isLt)
  q w := match w with
    | ⟨0, _⟩ => (fullShare : PosShare TreeShare).left
    | ⟨1, _⟩ => (fullShare : PosShare TreeShare).right
    | _ => fullShare
  owed _ := 0

theorem A_eq (c : Dev nD) (w : Fin cfg0.W) : (dat V c).A w = V c (Pipeline.arrRef spec0 w) := by dsimp only [dat]
theorem Phi_castSucc (c : Dev nD) (t : Fin cfg0.N) : (dat V c).Φ t.castSucc = PhiS V c t.val (Nat.le_of_lt t.isLt) := by
  dsimp only [dat]; simp only [Fin.coe_castSucc]
theorem after0 (c : Dev nD) (t : Fin cfg0.N) : (dat V c).after 0 t = iblk V c 0 t := by dsimp only [dat]
theorem after1 (c : Dev nD) (t : Fin cfg0.N) : (dat V c).after 1 t = iblk V c 1 t := by dsimp only [dat]
theorem after2 (c : Dev nD) (t : Fin cfg0.N) : (dat V c).after 2 t = iblk V c 2 t := by dsimp only [dat]
theorem after3 (c : Dev nD) (t : Fin cfg0.N) : (dat V c).after 3 t = iblk V c 3 t := by dsimp only [dat]
theorem after4 (c : Dev nD) (t : Fin cfg0.N) : (dat V c).after 4 t = (stAt V c t.val t.isLt).out := by dsimp only [dat]
theorem before0 (c : Dev nD) (t : Fin cfg0.N) (d) : (dat V c).before 0 t d = iblk V c 0 t := before0_of V (dat V c) (A_eq V c 0) (after0 V c) t d
theorem before1 (c : Dev nD) (t : Fin cfg0.N) (d) : (dat V c).before 1 t d = iblk V c 1 t := before1_of V (dat V c) (A_eq V c 1) (after1 V c) t d
theorem before2 (c : Dev nD) (t : Fin cfg0.N) (d) : (dat V c).before 2 t d = iblk V c 2 t := before2_of V (dat V c) (A_eq V c 2) (after2 V c) t d
theorem before3 (c : Dev nD) (t : Fin cfg0.N) (d) : (dat V c).before 3 t d = iblk V c 3 t := before3_of V (dat V c) (A_eq V c 3) (after3 V c) t d

/-! ## The body's obligation at a position -/

/-- What the body is called with at position `t`, the windows one by one, -/
def bodyPre (c : Dev nD) (t : Fin cfg0.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d))
    ∗ (∃ d, owns (c : Thread nD τ) (ms4 t) fullShare ((dat V c).before 4 t d)))

/-- and what it returns. -/
def bodyPost (c : Dev nD) (t : Fin cfg0.N) : sProp 𝕄 :=
  iprop((dat V c).Φ t.succ ∗ (dat V c).owesAt () t.succ
    ∗ (dat V c).leavesExact 0 t ∗ (dat V c).leavesExact 1 t ∗ (dat V c).leavesExact 2 t ∗ (dat V c).leavesExact 3 t ∗ (dat V c).leavesExact 4 t)

set_option maxHeartbeats 8000000 in
/-- The body at any position. The inputs' buffers hold their blocks; the position's place in its row of tiles says
    which case's run applies; the invariant hands over the accumulators (at anything before the very first position,
    else at what the position before left) and takes them back at this position's contents. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0, before1, before2, before3]
  rw [show (dat V c).owesAt () t.succ = (dat V c).owesAt () t.castSucc from rfl]
  rw [show (dat V c).Φ t.succ = PhiS V c (t.val + 1) t.isLt from rfl, PhiS_succ]
  rw [show (dat V c).leavesExact 0 t = owns (c : Thread nD τ) (ms0 t) fullShare ((dat V c).after 0 t) from by
    unfold Dat.leavesExact; rw [live0 t], after0]
  rw [show (dat V c).leavesExact 1 t = owns (c : Thread nD τ) (ms1 t) fullShare ((dat V c).after 1 t) from by
    unfold Dat.leavesExact; rw [live1 t], after1]
  rw [show (dat V c).leavesExact 2 t = owns (c : Thread nD τ) (ms2 t) fullShare ((dat V c).after 2 t) from by
    unfold Dat.leavesExact; rw [live2 t], after2]
  rw [show (dat V c).leavesExact 3 t = owns (c : Thread nD τ) (ms3 t) fullShare ((dat V c).after 3 t) from by
    unfold Dat.leavesExact; rw [live3 t], after3]
  by_cases h0 : t.val % 8 = 0
  · have h1 : ¬t.val % 8 = 7 := by omega
    rw [Dat.leavesExact_idle (dat V c) 4 t (idle4 t (fun h => h1 ((isLast_iff t).mp h))) (noFlush4 t (fun h => h1 ((isLast_iff t).mp h)))]
    rw [stAt_first V c t h0 h1]
    unfold stFirst accsAt readBack; dsimp only
    by_cases hz : t.val = 0
    · rw [Phi_castSucc V c t, PhiS_zero V c _ _ hz, PhiA_eq]
      iintro ⟨⟨⟨HS0, HS1, HS2, HS3⟩, Hg⟩, Ho, ⟨%d0, H0⟩, ⟨%d1, H1⟩, ⟨%d2, H2⟩, ⟨%d3, H3⟩, ⟨%d4, H4⟩⟩
      iapply ((runFirst c (grid0.coords t) _ _ _ _ _ _ _ _ _ _ _ _ _ _ _ _ _ _ ((isFirst_iff t).mpr h0) (fun h => h1 ((isLast_iff t).mp h)) (iblk V c 0 t) (iblk V c 1 t) (iblk V c 2 t) (iblk V c 3 t)).2.2.2.2 _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      isplitl [HS2]; · iexact HS2
      isplitl [HS3]; · iexact HS3
      iintro ⟨H0, H1, H2, H3, H4, ⟨%e0, HS0⟩, ⟨%e1, HS1⟩, ⟨%e2, HS2⟩, ⟨%e3, HS3⟩⟩
      isplitl [HS0 HS1 HS2 HS3 Hg]
      · isplitl [HS0 HS1 HS2 HS3]
        · isplitl [HS0]
          · unfold owns; iexists _; isplitr
            swap; · iexact HS0
            ipureintro; exact View.read_writes_of_cover _ _ _ _ _ (coverFirst0 c _ _ _ _ _ _ _ _ _ _ _ _ _ _ _ _ _ _ _ _ _ _ _ _ _)
          isplitl [HS1]
          · unfold owns; iexists _; isplitr
            swap; · iexact HS1
            ipureintro; exact View.read_writes_of_cover _ _ _ _ _ (coverFirst1 c _ _ _ _ _ _ _ _ _ _ _ _ _ _ _ _ _ _ _ _ _ _ _ _ _)
          isplitl [HS2]
          · unfold owns; iexists _; isplitr
            swap; · iexact HS2
            ipureintro; exact View.read_writes_of_cover _ _ _ _ _ (coverFirst2 c _ _ _ _ _ _ _ _ _ _ _ _ _ _ _ _ _ _ _ _ _ _ _ _ _)
          · unfold owns; iexists _; isplitr
            swap; · iexact HS3
            ipureintro; exact View.read_writes_of_cover _ _ _ _ _ (coverFirst3 c _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4
    · rw [Phi_castSucc V c t, PhiS_pos V c _ _ hz]
      unfold accsAt
      iintro ⟨⟨⟨HS0, HS1, HS2, HS3⟩, Hg⟩, Ho, ⟨%d0, H0⟩, ⟨%d1, H1⟩, ⟨%d2, H2⟩, ⟨%d3, H3⟩, ⟨%d4, H4⟩⟩
      iapply ((runFirst c (grid0.coords t) _ _ _ _ _ _ _ _ _ _ _ _ _ _ _ _ _ _ ((isFirst_iff t).mpr h0) (fun h => h1 ((isLast_iff t).mp h)) (iblk V c 0 t) (iblk V c 1 t) (iblk V c 2 t) (iblk V c 3 t)).2.2.2.2 _ Set.univ _)
      isplitl [H0]; · iexact H0
      isplitl [H1]; · iexact H1
      isplitl [H2]; · iexact H2
      isplitl [H3]; · iexact H3
      isplitl [H4]; · iexact H4
      isplitl [HS0]; · iexists _; iexact HS0
      isplitl [HS1]; · iexists _; iexact HS1
      isplitl [HS2]; · iexists _; iexact HS2
      isplitl [HS3]; · iexists _; iexact HS3
      iintro ⟨H0, H1, H2, H3, H4, ⟨%e0, HS0⟩, ⟨%e1, HS1⟩, ⟨%e2, HS2⟩, ⟨%e3, HS3⟩⟩
      isplitl [HS0 HS1 HS2 HS3 Hg]
      · isplitl [HS0 HS1 HS2 HS3]
        · isplitl [HS0]
          · unfold owns; iexists _; isplitr
            swap; · iexact HS0
            ipureintro; exact View.read_writes_of_cover _ _ _ _ _ (coverFirst0 c _ _ _ _ _ _ _ _ _ _ _ _ _ _ _ _ _ _ _ _ _ _ _ _ _)
          isplitl [HS1]
          · unfold owns; iexists _; isplitr
            swap; · iexact HS1
            ipureintro; exact View.read_writes_of_cover _ _ _ _ _ (coverFirst1 c _ _ _ _ _ _ _ _ _ _ _ _ _ _ _ _ _ _ _ _ _ _ _ _ _)
          isplitl [HS2]
          · unfold owns; iexists _; isplitr
            swap; · iexact HS2
            ipureintro; exact View.read_writes_of_cover _ _ _ _ _ (coverFirst2 c _ _ _ _ _ _ _ _ _ _ _ _ _ _ _ _ _ _ _ _ _ _ _ _ _)
          · unfold owns; iexists _; isplitr
            swap; · iexact HS3
            ipureintro; exact View.read_writes_of_cover _ _ _ _ _ (coverFirst3 c _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := fun e => h0 (by rw [e])
    by_cases h1 : t.val % 8 = 7
    · rw [show (dat V c).leavesExact 4 t = owns (c : Thread nD τ) (ms4 t) fullShare ((dat V c).after 4 t) from by
        unfold Dat.leavesExact; rw [live4 t ((isLast_iff t).mpr h1)], after4]
      rw [stAt_last V c t h0 h1]
      unfold stLast accsAt readBack; dsimp only
      rw [Phi_castSucc V c t, PhiS_pos V c _ _ hz]
      unfold accsAt
      iintro ⟨⟨⟨HS0, HS1, HS2, HS3⟩, Hg⟩, Ho, ⟨%d0, H0⟩, ⟨%d1, H1⟩, ⟨%d2, H2⟩, ⟨%d3, H3⟩, ⟨%d4, H4⟩⟩
      iapply ((runLast c (grid0.coords t) _ _ _ _ _ _ _ _ _ _ _ _ _ _ _ _ _ _ (fun h => h0 ((isFirst_iff t).mp h)) ((isLast_iff t).mpr h1) (iblk V c 0 t) (iblk V c 1 t) (iblk V c 2 t) (iblk V c 3 t) _ _ _ _).2.2.2.2.2 Set.univ _)
      isplitl [H0]; · iexact H0
      isplitl [H1]; · iexact H1
      isplitl [H2]; · iexact H2
      isplitl [H3]; · iexact H3
      isplitl [H4]; · iexists _; iexact H4
      isplitl [HS0]; · iexact HS0
      isplitl [HS1]; · iexact HS1
      isplitl [HS2]; · iexact HS2
      isplitl [HS3]; · iexact HS3
      iintro ⟨H0, H1, H2, H3, ⟨%e4, H4⟩, ⟨%e0, HS0⟩, ⟨%e1, HS1⟩, ⟨%e2, HS2⟩, ⟨%e3, HS3⟩⟩
      isplitl [HS0 HS1 HS2 HS3 Hg]
      · isplitl [HS0 HS1 HS2 HS3]
        · isplitl [HS0]
          · unfold owns; iexists _; isplitr
            swap; · iexact HS0
            ipureintro; exact View.read_writes_of_cover _ _ _ _ _ (coverLast0 c _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (coverLast1 c _ _ _ _ _ _ _ _ _ _ _ _ _ _ _ _ _ _ _ _ _ _ _ _ _ _ _ _ _)
          isplitl [HS2]
          · unfold owns; iexists _; isplitr
            swap; · iexact HS2
            ipureintro; exact View.read_writes_of_cover _ _ _ _ _ (coverLast2 c _ _ _ _ _ _ _ _ _ _ _ _ _ _ _ _ _ _ _ _ _ _ _ _ _ _ _ _ _)
          · unfold owns; iexists _; isplitr
            swap; · iexact HS3
            ipureintro; exact View.read_writes_of_cover _ _ _ _ _ (coverLast3 c _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (coverLastOut c _ _ _ _ _ _ _ _ _ _ _ _ _ _ _ _ _ _ _ _ _ _ _ _ _ _ _ _ _)
    · rw [Dat.leavesExact_idle (dat V c) 4 t (idle4 t (fun h => h1 ((isLast_iff t).mp h))) (noFlush4 t (fun h => h1 ((isLast_iff t).mp h)))]
      rw [stAt_middle V c t h0 h1]
      unfold stMiddle accsAt readBack; dsimp only
      rw [Phi_castSucc V c t, PhiS_pos V c _ _ hz]
      unfold accsAt
      iintro ⟨⟨⟨HS0, HS1, HS2, HS3⟩, Hg⟩, Ho, ⟨%d0, H0⟩, ⟨%d1, H1⟩, ⟨%d2, H2⟩, ⟨%d3, H3⟩, ⟨%d4, H4⟩⟩
      iapply ((runMiddle c (grid0.coords t) _ _ _ _ _ _ _ _ _ _ _ _ _ _ _ _ _ _ (fun h => h0 ((isFirst_iff t).mp h)) (fun h => h1 ((isLast_iff t).mp h)) (iblk V c 0 t) (iblk V c 1 t) (iblk V c 2 t) (iblk V c 3 t) _ _ _ _).2.2.2.2 _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      isplitl [HS2]; · iexact HS2
      isplitl [HS3]; · iexact HS3
      iintro ⟨H0, H1, H2, H3, H4, ⟨%e0, HS0⟩, ⟨%e1, HS1⟩, ⟨%e2, HS2⟩, ⟨%e3, HS3⟩⟩
      isplitl [HS0 HS1 HS2 HS3 Hg]
      · isplitl [HS0 HS1 HS2 HS3]
        · isplitl [HS0]
          · unfold owns; iexists _; isplitr
            swap; · iexact HS0
            ipureintro; exact View.read_writes_of_cover _ _ _ _ _ (coverMiddle0 c _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (coverMiddle1 c _ _ _ _ _ _ _ _ _ _ _ _ _ _ _ _ _ _ _ _ _ _ _ _ _ _ _ _ _)
          isplitl [HS2]
          · unfold owns; iexists _; isplitr
            swap; · iexact HS2
            ipureintro; exact View.read_writes_of_cover _ _ _ _ _ (coverMiddle2 c _ _ _ _ _ _ _ _ _ _ _ _ _ _ _ _ _ _ _ _ _ _ _ _ _ _ _ _ _)
          · unfold owns; iexists _; isplitr
            swap; · iexact HS3
            ipureintro; exact View.read_writes_of_cover _ _ _ _ _ (coverMiddle3 c _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4

/-- The pipeline's body obligation, at every position. -/
theorem body_obligation (c : Dev nD) : BodyObligation (dat (F := F) V c) (defs₀ (F := F)) Variants.none () Set.univ := fun t => by
  rw [bigSep_W0, bigSep_W0]
  exact sound_body V c t

/-- What the launch hands the region is the invariant before the first position. -/
theorem hin (c : Dev nD) : Pipeline.ΦA spec0 c ⊢ (dat V c).Φ 0 := by
  rw [show (dat V c).Φ 0 = PhiS V c 0 (Nat.zero_le _) from rfl, PhiS_zero V c 0 _ rfl]
  try exact Idealize.SL.BI.Entails.refl _

/-- After the last position the invariant gives the scratch back, the accumulators' contents forgotten. -/
theorem hout (c : Dev nD) : (dat V c).Φ (Fin.last cfg0.N) ⊢ Pipeline.ΦA spec0 c := by
  rw [show (dat V c).Φ (Fin.last cfg0.N) = PhiS V c (Fin.last cfg0.N).val (Nat.le_of_lt_succ (Fin.last cfg0.N).isLt) from rfl,
    PhiS_pos V c _ _ (by rw [Fin.val_last]; have : cfg0.N = 64 := N_0; omega), PhiA_eq]
  unfold accsAt
  iintro ⟨⟨HS0, HS1, HS2, HS3⟩, Hg⟩
  isplitl [HS0 HS1 HS2 HS3]
  · isplitl [HS0]; · iexists _; iexact HS0
    isplitl [HS1]; · iexists _; iexact HS1
    isplitl [HS2]; · iexists _; iexact HS2
    iexists _; iexact HS3
  iexact Hg

/-- An input's array is never written: after the whole grid it holds what the region found. -/
theorem arrAt_input (c : Dev nD) (w : Fin cfg0.W) (hw : w ≠ 4) : (dat V c).arrAt w cfg0.N = (dat V c).A w := by
  have : (cfg0.win w).isOut = false := by
    fin_cases w <;> first | rfl | exact absurd rfl hw
  exact (dat V c).arrAt_in w this _

end Cert.KernelIdeal.Hand

end
-- ==== Proof.KPieces.lean ====
/-
  What each control case of the tiled loss kernel leaves, as values: every accumulator ends at the body's one
  arithmetic term for it (its last store covers the whole [512, 1] buffer), whose inputs are the tile's four blocks
  and the accumulator's previous contents — zero at a first column tile, where the reset comes first.
-/
import proofs.«115931_j57277683859994_1_alg».proof.Proof.KBody
import Idealize.ShloMosaic.Lib.Pipeline.Value
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

theorem hz : (![0, 0] : Fin 2 → Nat) = fun _ => 0 := funext fun a => by fin_cases a <;> rfl

/-- First column tile, accumulator `ps`: reset to zero, then the tile's row quantity added. -/
theorem first_ps (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : isFirst i) (hc1 : ¬isLast i) (x0 x1 : Vec F S512x512 .f32) (x2 : Vec F S512x1 .i32) (x3 : Vec F S1x512 .i32) :
    readBack (runFirst c i arg2 harg2 arg3 harg3 arg4 harg4 arg5 harg5 arg6 harg6 arg7 harg7 arg8 harg8 arg9 harg9 arg10 harg10 hc0 hc1 x0 x1 x2 x3).1 = k0_pay14 (k0_pay10 x0 x1 x2 x3) (k0_pay12 x0 x1) (k0_pay4 (F := F)) := by
  unfold readBack
  rw [View.read_writes_eq_canon _ _ _ (coverFirst0 c i arg2 harg2 arg3 harg3 arg4 harg4 arg5 harg5 arg6 harg6 arg7 harg7 arg8 harg8 arg9 harg9 arg10 harg10 hc0 hc1 x0 x1 x2 x3)]
  unfold runFirst
  dsimp only
  sl_unfold_words
  rw [View.canon_cons_unit_zero (S := S512x1) hz]
  simp only [View.readCov_unit_zero (S := S512x1) _ hz, View.readAt_eq_ld, harg2.read_unread, harg3.read_unread, harg4.read_unread, harg5.read_unread, harg6.read_unread, harg7.read_unread, harg8.read_unread, harg9.read_unread, harg10.read_unread, View.ld_unit_zero (S := S512x1) hz, View.ld_unit_zero (S := S512x512) hz, View.ld_unit_zero (S := S1x512) hz]
/-- Middle column tile, accumulator `ps`: the tile's row quantity added to what the tile before left. -/
theorem middle_ps (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : ¬isFirst i) (hc1 : ¬isLast i) (x0 x1 : Vec F S512x512 .f32) (x2 : Vec F S512x1 .i32) (x3 : Vec F S1x512 .i32) (xs0 xs1 xs2 xs3 : Vec F S512x1 .f32) :
    readBack (runMiddle c i arg2 harg2 arg3 harg3 arg4 harg4 arg5 harg5 arg6 harg6 arg7 harg7 arg8 harg8 arg9 harg9 arg10 harg10 hc0 hc1 x0 x1 x2 x3 xs0 xs1 xs2 xs3).1 = k0_pay14 (k0_pay10 x0 x1 x2 x3) (k0_pay12 x0 x1) xs0 := by
  unfold readBack
  rw [View.read_writes_eq_canon _ _ _ (coverMiddle0 c i arg2 harg2 arg3 harg3 arg4 harg4 arg5 harg5 arg6 harg6 arg7 harg7 arg8 harg8 arg9 harg9 arg10 harg10 hc0 hc1 x0 x1 x2 x3 xs0 xs1 xs2 xs3)]
  unfold runMiddle
  dsimp only
  sl_unfold_words
  rw [View.canon_unit_zero hz]
  simp only [View.readCov_unit_zero (S := S512x1) _ hz, View.readAt_eq_ld, harg2.read_unread, harg3.read_unread, harg4.read_unread, harg5.read_unread, harg6.read_unread, harg7.read_unread, harg8.read_unread, harg9.read_unread, harg10.read_unread, View.ld_unit_zero (S := S512x1) hz, View.ld_unit_zero (S := S512x512) hz, View.ld_unit_zero (S := S1x512) hz]
/-- Last column tile, accumulator `ps`: the same addition. -/
theorem last_ps (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : ¬isFirst i) (hc1 : isLast i) (x0 x1 : Vec F S512x512 .f32) (x2 : Vec F S512x1 .i32) (x3 : Vec F S1x512 .i32) (xs0 xs1 xs2 xs3 : Vec F S512x1 .f32) :
    readBack (runLast c i arg2 harg2 arg3 harg3 arg4 harg4 arg5 harg5 arg6 harg6 arg7 harg7 arg8 harg8 arg9 harg9 arg10 harg10 hc0 hc1 x0 x1 x2 x3 xs0 xs1 xs2 xs3).2.1 = k0_pay14 (k0_pay10 x0 x1 x2 x3) (k0_pay12 x0 x1) xs0 := by
  unfold readBack
  rw [View.read_writes_eq_canon _ _ _ (coverLast0 c i arg2 harg2 arg3 harg3 arg4 harg4 arg5 harg5 arg6 harg6 arg7 harg7 arg8 harg8 arg9 harg9 arg10 harg10 hc0 hc1 x0 x1 x2 x3 xs0 xs1 xs2 xs3)]
  unfold runLast
  dsimp only
  sl_unfold_words
  rw [View.canon_unit_zero hz]
  simp only [View.readCov_unit_zero (S := S512x1) _ hz, View.readAt_eq_ld, harg2.read_unread, harg3.read_unread, harg4.read_unread, harg5.read_unread, harg6.read_unread, harg7.read_unread, harg8.read_unread, harg9.read_unread, harg10.read_unread, View.ld_unit_zero (S := S512x1) hz, View.ld_unit_zero (S := S512x512) hz, View.ld_unit_zero (S := S1x512) hz]
/-- First column tile, accumulator `ns`: reset to zero, then the tile's row quantity added. -/
theorem first_ns (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : isFirst i) (hc1 : ¬isLast i) (x0 x1 : Vec F S512x512 .f32) (x2 : Vec F S512x1 .i32) (x3 : Vec F S1x512 .i32) :
    readBack (runFirst c i arg2 harg2 arg3 harg3 arg4 harg4 arg5 harg5 arg6 harg6 arg7 harg7 arg8 harg8 arg9 harg9 arg10 harg10 hc0 hc1 x0 x1 x2 x3).2.1 = k0_pay15 (k0_pay11 x2 x3) (k0_pay13 x0 x1) (k0_pay5 (F := F)) := by
  unfold readBack
  rw [View.read_writes_eq_canon _ _ _ (coverFirst1 c i arg2 harg2 arg3 harg3 arg4 harg4 arg5 harg5 arg6 harg6 arg7 harg7 arg8 harg8 arg9 harg9 arg10 harg10 hc0 hc1 x0 x1 x2 x3)]
  unfold runFirst
  dsimp only
  sl_unfold_words
  rw [View.canon_cons_unit_zero (S := S512x1) hz]
  simp only [View.readCov_unit_zero (S := S512x1) _ hz, View.readAt_eq_ld, harg2.read_unread, harg3.read_unread, harg4.read_unread, harg5.read_unread, harg6.read_unread, harg7.read_unread, harg8.read_unread, harg9.read_unread, harg10.read_unread, View.ld_unit_zero (S := S512x1) hz, View.ld_unit_zero (S := S512x512) hz, View.ld_unit_zero (S := S1x512) hz]
/-- Middle column tile, accumulator `ns`: the tile's row quantity added to what the tile before left. -/
theorem middle_ns (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : ¬isFirst i) (hc1 : ¬isLast i) (x0 x1 : Vec F S512x512 .f32) (x2 : Vec F S512x1 .i32) (x3 : Vec F S1x512 .i32) (xs0 xs1 xs2 xs3 : Vec F S512x1 .f32) :
    readBack (runMiddle c i arg2 harg2 arg3 harg3 arg4 harg4 arg5 harg5 arg6 harg6 arg7 harg7 arg8 harg8 arg9 harg9 arg10 harg10 hc0 hc1 x0 x1 x2 x3 xs0 xs1 xs2 xs3).2.1 = k0_pay15 (k0_pay11 x2 x3) (k0_pay13 x0 x1) xs1 := by
  unfold readBack
  rw [View.read_writes_eq_canon _ _ _ (coverMiddle1 c i arg2 harg2 arg3 harg3 arg4 harg4 arg5 harg5 arg6 harg6 arg7 harg7 arg8 harg8 arg9 harg9 arg10 harg10 hc0 hc1 x0 x1 x2 x3 xs0 xs1 xs2 xs3)]
  unfold runMiddle
  dsimp only
  sl_unfold_words
  rw [View.canon_unit_zero hz]
  simp only [View.readCov_unit_zero (S := S512x1) _ hz, View.readAt_eq_ld, harg2.read_unread, harg3.read_unread, harg4.read_unread, harg5.read_unread, harg6.read_unread, harg7.read_unread, harg8.read_unread, harg9.read_unread, harg10.read_unread, View.ld_unit_zero (S := S512x1) hz, View.ld_unit_zero (S := S512x512) hz, View.ld_unit_zero (S := S1x512) hz]
/-- Last column tile, accumulator `ns`: the same addition. -/
theorem last_ns (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : ¬isFirst i) (hc1 : isLast i) (x0 x1 : Vec F S512x512 .f32) (x2 : Vec F S512x1 .i32) (x3 : Vec F S1x512 .i32) (xs0 xs1 xs2 xs3 : Vec F S512x1 .f32) :
    readBack (runLast c i arg2 harg2 arg3 harg3 arg4 harg4 arg5 harg5 arg6 harg6 arg7 harg7 arg8 harg8 arg9 harg9 arg10 harg10 hc0 hc1 x0 x1 x2 x3 xs0 xs1 xs2 xs3).2.2.1 = k0_pay15 (k0_pay11 x2 x3) (k0_pay13 x0 x1) xs1 := by
  unfold readBack
  rw [View.read_writes_eq_canon _ _ _ (coverLast1 c i arg2 harg2 arg3 harg3 arg4 harg4 arg5 harg5 arg6 harg6 arg7 harg7 arg8 harg8 arg9 harg9 arg10 harg10 hc0 hc1 x0 x1 x2 x3 xs0 xs1 xs2 xs3)]
  unfold runLast
  dsimp only
  sl_unfold_words
  rw [View.canon_unit_zero hz]
  simp only [View.readCov_unit_zero (S := S512x1) _ hz, View.readAt_eq_ld, harg2.read_unread, harg3.read_unread, harg4.read_unread, harg5.read_unread, harg6.read_unread, harg7.read_unread, harg8.read_unread, harg9.read_unread, harg10.read_unread, View.ld_unit_zero (S := S512x1) hz, View.ld_unit_zero (S := S512x512) hz, View.ld_unit_zero (S := S1x512) hz]
/-- First column tile, accumulator `pc`: reset to zero, then the tile's row quantity added. -/
theorem first_pc (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : isFirst i) (hc1 : ¬isLast i) (x0 x1 : Vec F S512x512 .f32) (x2 : Vec F S512x1 .i32) (x3 : Vec F S1x512 .i32) :
    readBack (runFirst c i arg2 harg2 arg3 harg3 arg4 harg4 arg5 harg5 arg6 harg6 arg7 harg7 arg8 harg8 arg9 harg9 arg10 harg10 hc0 hc1 x0 x1 x2 x3).2.2.1 = k0_pay1 (k0_pay16 (k0_pay10 x0 x1 x2 x3) (k0_pay6 (F := F))) := by
  unfold readBack
  rw [View.read_writes_eq_canon _ _ _ (coverFirst2 c i arg2 harg2 arg3 harg3 arg4 harg4 arg5 harg5 arg6 harg6 arg7 harg7 arg8 harg8 arg9 harg9 arg10 harg10 hc0 hc1 x0 x1 x2 x3)]
  unfold runFirst
  dsimp only
  sl_unfold_words
  rw [View.canon_cons_unit_zero (S := S512x1) hz]
  simp only [View.readCov_unit_zero (S := S512x1) _ hz, View.readAt_eq_ld, harg2.read_unread, harg3.read_unread, harg4.read_unread, harg5.read_unread, harg6.read_unread, harg7.read_unread, harg8.read_unread, harg9.read_unread, harg10.read_unread, View.ld_unit_zero (S := S512x1) hz, View.ld_unit_zero (S := S512x512) hz, View.ld_unit_zero (S := S1x512) hz]
/-- Middle column tile, accumulator `pc`: the tile's row quantity added to what the tile before left. -/
theorem middle_pc (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : ¬isFirst i) (hc1 : ¬isLast i) (x0 x1 : Vec F S512x512 .f32) (x2 : Vec F S512x1 .i32) (x3 : Vec F S1x512 .i32) (xs0 xs1 xs2 xs3 : Vec F S512x1 .f32) :
    readBack (runMiddle c i arg2 harg2 arg3 harg3 arg4 harg4 arg5 harg5 arg6 harg6 arg7 harg7 arg8 harg8 arg9 harg9 arg10 harg10 hc0 hc1 x0 x1 x2 x3 xs0 xs1 xs2 xs3).2.2.1 = k0_pay1 (k0_pay16 (k0_pay10 x0 x1 x2 x3) xs2) := by
  unfold readBack
  rw [View.read_writes_eq_canon _ _ _ (coverMiddle2 c i arg2 harg2 arg3 harg3 arg4 harg4 arg5 harg5 arg6 harg6 arg7 harg7 arg8 harg8 arg9 harg9 arg10 harg10 hc0 hc1 x0 x1 x2 x3 xs0 xs1 xs2 xs3)]
  unfold runMiddle
  dsimp only
  sl_unfold_words
  rw [View.canon_unit_zero hz]
  simp only [View.readCov_unit_zero (S := S512x1) _ hz, View.readAt_eq_ld, harg2.read_unread, harg3.read_unread, harg4.read_unread, harg5.read_unread, harg6.read_unread, harg7.read_unread, harg8.read_unread, harg9.read_unread, harg10.read_unread, View.ld_unit_zero (S := S512x1) hz, View.ld_unit_zero (S := S512x512) hz, View.ld_unit_zero (S := S1x512) hz]
/-- Last column tile, accumulator `pc`: the same addition. -/
theorem last_pc (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : ¬isFirst i) (hc1 : isLast i) (x0 x1 : Vec F S512x512 .f32) (x2 : Vec F S512x1 .i32) (x3 : Vec F S1x512 .i32) (xs0 xs1 xs2 xs3 : Vec F S512x1 .f32) :
    readBack (runLast c i arg2 harg2 arg3 harg3 arg4 harg4 arg5 harg5 arg6 harg6 arg7 harg7 arg8 harg8 arg9 harg9 arg10 harg10 hc0 hc1 x0 x1 x2 x3 xs0 xs1 xs2 xs3).2.2.2.1 = k0_pay1 (k0_pay16 (k0_pay10 x0 x1 x2 x3) xs2) := by
  unfold readBack
  rw [View.read_writes_eq_canon _ _ _ (coverLast2 c i arg2 harg2 arg3 harg3 arg4 harg4 arg5 harg5 arg6 harg6 arg7 harg7 arg8 harg8 arg9 harg9 arg10 harg10 hc0 hc1 x0 x1 x2 x3 xs0 xs1 xs2 xs3)]
  unfold runLast
  dsimp only
  sl_unfold_words
  rw [View.canon_unit_zero hz]
  simp only [View.readCov_unit_zero (S := S512x1) _ hz, View.readAt_eq_ld, harg2.read_unread, harg3.read_unread, harg4.read_unread, harg5.read_unread, harg6.read_unread, harg7.read_unread, harg8.read_unread, harg9.read_unread, harg10.read_unread, View.ld_unit_zero (S := S512x1) hz, View.ld_unit_zero (S := S512x512) hz, View.ld_unit_zero (S := S1x512) hz]
/-- First column tile, accumulator `nc`: reset to zero, then the tile's row quantity added. -/
theorem first_nc (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : isFirst i) (hc1 : ¬isLast i) (x0 x1 : Vec F S512x512 .f32) (x2 : Vec F S512x1 .i32) (x3 : Vec F S1x512 .i32) :
    readBack (runFirst c i arg2 harg2 arg3 harg3 arg4 harg4 arg5 harg5 arg6 harg6 arg7 harg7 arg8 harg8 arg9 harg9 arg10 harg10 hc0 hc1 x0 x1 x2 x3).2.2.2.1 = k0_pay2 (k0_pay11 x2 x3) (k0_pay7 (F := F)) := by
  unfold readBack
  rw [View.read_writes_eq_canon _ _ _ (coverFirst3 c i arg2 harg2 arg3 harg3 arg4 harg4 arg5 harg5 arg6 harg6 arg7 harg7 arg8 harg8 arg9 harg9 arg10 harg10 hc0 hc1 x0 x1 x2 x3)]
  unfold runFirst
  dsimp only
  sl_unfold_words
  rw [View.canon_cons_unit_zero (S := S512x1) hz]
  simp only [View.readCov_unit_zero (S := S512x1) _ hz, View.readAt_eq_ld, harg2.read_unread, harg3.read_unread, harg4.read_unread, harg5.read_unread, harg6.read_unread, harg7.read_unread, harg8.read_unread, harg9.read_unread, harg10.read_unread, View.ld_unit_zero (S := S512x1) hz, View.ld_unit_zero (S := S512x512) hz, View.ld_unit_zero (S := S1x512) hz]
/-- Middle column tile, accumulator `nc`: the tile's row quantity added to what the tile before left. -/
theorem middle_nc (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : ¬isFirst i) (hc1 : ¬isLast i) (x0 x1 : Vec F S512x512 .f32) (x2 : Vec F S512x1 .i32) (x3 : Vec F S1x512 .i32) (xs0 xs1 xs2 xs3 : Vec F S512x1 .f32) :
    readBack (runMiddle c i arg2 harg2 arg3 harg3 arg4 harg4 arg5 harg5 arg6 harg6 arg7 harg7 arg8 harg8 arg9 harg9 arg10 harg10 hc0 hc1 x0 x1 x2 x3 xs0 xs1 xs2 xs3).2.2.2.1 = k0_pay2 (k0_pay11 x2 x3) xs3 := by
  unfold readBack
  rw [View.read_writes_eq_canon _ _ _ (coverMiddle3 c i arg2 harg2 arg3 harg3 arg4 harg4 arg5 harg5 arg6 harg6 arg7 harg7 arg8 harg8 arg9 harg9 arg10 harg10 hc0 hc1 x0 x1 x2 x3 xs0 xs1 xs2 xs3)]
  unfold runMiddle
  dsimp only
  sl_unfold_words
  rw [View.canon_unit_zero hz]
  simp only [View.readCov_unit_zero (S := S512x1) _ hz, View.readAt_eq_ld, harg2.read_unread, harg3.read_unread, harg4.read_unread, harg5.read_unread, harg6.read_unread, harg7.read_unread, harg8.read_unread, harg9.read_unread, harg10.read_unread, View.ld_unit_zero (S := S512x1) hz, View.ld_unit_zero (S := S512x512) hz, View.ld_unit_zero (S := S1x512) hz]
/-- Last column tile, accumulator `nc`: the same addition. -/
theorem last_nc (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : ¬isFirst i) (hc1 : isLast i) (x0 x1 : Vec F S512x512 .f32) (x2 : Vec F S512x1 .i32) (x3 : Vec F S1x512 .i32) (xs0 xs1 xs2 xs3 : Vec F S512x1 .f32) :
    readBack (runLast c i arg2 harg2 arg3 harg3 arg4 harg4 arg5 harg5 arg6 harg6 arg7 harg7 arg8 harg8 arg9 harg9 arg10 harg10 hc0 hc1 x0 x1 x2 x3 xs0 xs1 xs2 xs3).2.2.2.2.1 = k0_pay2 (k0_pay11 x2 x3) xs3 := by
  unfold readBack
  rw [View.read_writes_eq_canon _ _ _ (coverLast3 c i arg2 harg2 arg3 harg3 arg4 harg4 arg5 harg5 arg6 harg6 arg7 harg7 arg8 harg8 arg9 harg9 arg10 harg10 hc0 hc1 x0 x1 x2 x3 xs0 xs1 xs2 xs3)]
  unfold runLast
  dsimp only
  sl_unfold_words
  rw [View.canon_unit_zero hz]
  simp only [View.readCov_unit_zero (S := S512x1) _ hz, View.readAt_eq_ld, harg2.read_unread, harg3.read_unread, harg4.read_unread, harg5.read_unread, harg6.read_unread, harg7.read_unread, harg8.read_unread, harg9.read_unread, harg10.read_unread, View.ld_unit_zero (S := S512x1) hz, View.ld_unit_zero (S := S512x512) hz, View.ld_unit_zero (S := S1x512) hz]
/-- Last column tile, the output block: the row means formed from the four accumulators as just updated. -/
theorem last_out (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : ¬isFirst i) (hc1 : isLast i) (x0 x1 : Vec F S512x512 .f32) (x2 : Vec F S512x1 .i32) (x3 : Vec F S1x512 .i32) (xs0 xs1 xs2 xs3 : Vec F S512x1 .f32) :
    readBack (runLast c i arg2 harg2 arg3 harg3 arg4 harg4 arg5 harg5 arg6 harg6 arg7 harg7 arg8 harg8 arg9 harg9 arg10 harg10 hc0 hc1 x0 x1 x2 x3 xs0 xs1 xs2 xs3).1 = k0_pay3 (k0_pay1 (k0_pay16 (k0_pay10 x0 x1 x2 x3) xs2)) (k0_pay2 (k0_pay11 x2 x3) xs3) (k0_pay14 (k0_pay10 x0 x1 x2 x3) (k0_pay12 x0 x1) xs0) (k0_pay15 (k0_pay11 x2 x3) (k0_pay13 x0 x1) xs1) := by
  unfold readBack
  rw [View.read_writes_eq_canon _ _ _ (coverLastOut c i arg2 harg2 arg3 harg3 arg4 harg4 arg5 harg5 arg6 harg6 arg7 harg7 arg8 harg8 arg9 harg9 arg10 harg10 hc0 hc1 x0 x1 x2 x3 xs0 xs1 xs2 xs3)]
  unfold runLast
  dsimp only
  sl_unfold_words
  rw [View.canon_unit_zero hz]
  simp only [View.readCov_unit_zero (S := S512x1) _ hz, View.readAt_eq_ld, harg2.read_unread, harg3.read_unread, harg4.read_unread, harg5.read_unread, harg6.read_unread, harg7.read_unread, harg8.read_unread, harg9.read_unread, harg10.read_unread, View.ld_unit_zero (S := S512x1) hz, View.ld_unit_zero (S := S512x512) hz, View.ld_unit_zero (S := S1x512) hz]

end Cert.KernelIdeal.Hand

end
-- ==== Proof.LibColumn.lean ====
/-
  Column forms of the layout operations read at an index: a vector of `a` entries seen as an `a × 1` column,
  and such a column repeated along `b` columns. (The row forms, and the transpose, are the library's.)
-/
import Idealize.ShloMosaic.Lib.Pipeline.Value
import Idealize.ShloMosaic.Lib.ValueIdx
import Idealize.ShloMosaic.Lib.ValueLayout

namespace Idealize.ShloMosaic.ColumnForms

open Idealize.ShloMosaic Idealize.ShloMosaic.ValueIdx

variable {α : Type}

/-- An `[a]` array cast to the column `[a, 1]` reads, at `(i, u)`, the operand at `i`, whatever the unit
    coordinate `u`: both sit at row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, q)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ColumnForms
-- ==== Proof.KPay.lean ====
import proofs.«115931_j57277683859994_1_alg».proof.Proof.Gen.KernelIdeal.Skeleton
import proofs.«115931_j57277683859994_1_alg».proof.Proof.Spec
import proofs.«115931_j57277683859994_1_alg».proof.Proof.LibColumn
import Idealize.ShloMosaic.Lib.ValueIdx
import Idealize.ShloMosaic.Lib.Pipeline.Value
import Idealize.ShloMosaic.Lib.ValueLayout
import Idealize.ShloMosaic.PureOps.Ideal.Laws

/-!
# The tile body's values, read at an index

Each value the tile body stores or carries is one pure term over vector operations.  Read at the ideal values and at an
explicit index `(p, q)` of a 512 × 512 tile (or `(p, 0)` of a 512 × 1 column), each is a closed expression in the
entries of the blocks it was computed from: the similarity tile is the inner product of row `p` of the row block with
row `q` of the column block; the masks and the two softplus terms are pointwise in it; and each of the four column
accumulators adds to its previous entry of row `p` the sum over the tile's 512 columns of the masked term.
-/

noncomputable section

namespace Cert.KernelIdeal.Pay

open Cert.KernelIdeal Cert.KernelIdeal.Gen Idealize.ShloMosaic Idealize.ShloMosaic.ValueIdx

/-! ## Indices of a column -/

/-- Every index of a 512 × 1 column is `(p, 0)` for its row `p`. -/
theorem eq_ix2_col (j : S512x1.Idx) : j = ix2 (j 0) (0 : Fin 1) := by
  have h1 : j 1 = (0 : Fin 1) := Fin.ext (by have := idx2_lt1 j; show (j 1).val = 0; omega)
  exact (eq_ix2 j).trans (congrArg (ix2 (j 0)) h1)

/-- Two 512 × 1 columns are equal when they agree at every `(p, 0)`. -/
theorem col_ext {α : Type} (u v : S512x1.Idx → α) (h : ∀ p : Fin 512, u (ix2 p (0 : Fin 1)) = v (ix2 p (0 : Fin 1))) : u = v := by
  funext j
  rw [eq_ix2_col j]
  exact h (j 0)

/-! ## The layout and reduction steps -/

/-- The sum of a 512 × 512 tile over its columns, read at row `p`: the sum of that row's entries. -/
theorem rowSum_apply (src : FVec Ideal S512x512 .f32) (h : S512x512.Reduces [1] S512) (hφ : FKind.Formats .f32)
    (hacc : (0x00000000#32 : BitVec 32) = FKind.add.neutral .f32 hφ) (p : Fin 512) :
    multiReduction (F := Ideal) .add [1] S512 src 0x00000000#32 h hφ hacc (ix1 p) = ∑ l : Fin 512, src (ix2 p l) := by
  refine (Ideal.multiReduction_add_single src 0x00000000#32 h hφ hacc (ix1 p)).trans ?_
  refine Finset.sum_congr rfl fun l _ => congrArg src ?_
  funext a
  match a with
  | ⟨0, _⟩ => rfl
  | ⟨1, _⟩ => rfl

/-- A column accumulator plus the tile's row sums cast to a column, read at row `p`: the accumulator's entry plus the
    row's sum over the tile's columns. -/
theorem colAdd_apply (src : FVec Ideal S512x512 .f32) (a : FVec Ideal S512x1 .f32) (h : S512x512.Reduces [1] S512)
    (hφ : FKind.Formats .f32) (hacc : (0x00000000#32 : BitVec 32) = FKind.add.neutral .f32 hφ)
    (hc : S512.ShapeCasts S512x1) (p : Fin 512) :
    addf a (shapeCast S512x1 (multiReduction (F := Ideal) .add [1] S512 src 0x00000000#32 h hφ hacc) hc) (ix2 p (0 : Fin 1))
      = a (ix2 p (0 : Fin 1)) + ∑ l : Fin 512, src (ix2 p l) := by
  show a (ix2 p (0 : Fin 1)) + shapeCast S512x1 (multiReduction (F := Ideal) .add [1] S512 src 0x00000000#32 h hφ hacc) hc (ix2 p (0 : Fin 1)) = _
  rw [ColumnForms.shapeCast_a_a1_apply, rowSum_apply]

/-- A column accumulator's update, read at row `p`: the previous entry plus the row's sum over the tile's columns
    (the row sums are cast to a column, added to the accumulator, and the result cast to its own shape). -/
theorem colAcc_apply (src : FVec Ideal S512x512 .f32) (a : FVec Ideal S512x1 .f32) (h : S512x512.Reduces [1] S512)
    (hφ : FKind.Formats .f32) (hacc : (0x00000000#32 : BitVec 32) = FKind.add.neutral .f32 hφ)
    (hc : S512.ShapeCasts S512x1) (hs : S512x1.ShapeCasts S512x1) (p : Fin 512) :
    shapeCast S512x1 (addf a (shapeCast S512x1 (multiReduction (F := Ideal) .add [1] S512 src 0x00000000#32 h hφ hacc) hc)) hs
        (ix2 p (0 : Fin 1))
      = a (ix2 p (0 : Fin 1)) + ∑ l : Fin 512, src (ix2 p l) := by
  rw [shapeCast_self]
  exact colAdd_apply src a h hφ hacc hc p

/-! ## The similarity tile -/

/-- The contraction of the tile product: axis 1 of both blocks. -/
abbrev DD := dot_S512x512_S512x512_S512x512_1_1_0_0_n_n

theorem lhs_DD_0 (i : S512x512.Idx) (k : DD.contr.Idx) : (DD.lhsIdx i k 0).val = (i 0).val := by
  unfold DotDims.lhsIdx
  rw [dif_neg (show ¬(0 : Fin S512x512.rank) ∈ DD.lhsBatch by decide),
    dif_pos (show (0 : Fin S512x512.rank) ∈ DD.lhsNonContracting by decide)]
  rfl

theorem lhs_DD_1 (i : S512x512.Idx) (k : DD.contr.Idx) : (DD.lhsIdx i k 1).val = (k ⟨0, by decide⟩).val :=
  DD.lhsIdx_val_of_single rfl i k

theorem rhs_DD_0 (i : S512x512.Idx) (k : DD.contr.Idx) : (DD.rhsIdx i k 0).val = (i 1).val := by
  unfold DotDims.rhsIdx
  rw [dif_neg (show ¬(0 : Fin S512x512.rank) ∈ DD.rhsBatch by decide),
    dif_pos (show (0 : Fin S512x512.rank) ∈ DD.rhsNonContracting by decide)]
  rfl

theorem rhs_DD_1 (i : S512x512.Idx) (k : DD.contr.Idx) : (DD.rhsIdx i k 1).val = (k ⟨0, by decide⟩).val :=
  DD.rhsIdx_val_of_single rfl i k

/-- **The similarity tile at `(p, q)`**: the inner product of row `p` of the row block and row `q` of the column block
    (the narrowing before the product is the identity on extended reals, and the product accumulates into zero). -/
theorem pay8_apply (x0 x1 : Vec Ideal S512x512 .f32) (p q : Fin 512) :
    k0_pay8 (F := Ideal) x0 x1 (ix2 p q) = ∑ d : Fin 512, x0 (ix2 p d) * x1 (ix2 q d) := by
  unfold k0_pay8
  simp only [matmul]
  rw [Ideal.matmul_constant_zero_apply, ← Equiv.sum_comp (contrEquiv1 DD 512 rfl rfl).symm]
  refine Finset.sum_congr rfl fun k _ => ?_
  have hk := contrEquiv1_symm_val DD 512 rfl rfl k
  have el : DD.lhsIdx (ix2 p q) ((contrEquiv1 DD 512 rfl rfl).symm k) = ix2 p k := funext fun a => Fin.ext (by
    match a with
    | ⟨0, _⟩ => exact lhs_DD_0 _ _
    | ⟨1, _⟩ => exact (lhs_DD_1 _ _).trans hk)
  have er : DD.rhsIdx (ix2 p q) ((contrEquiv1 DD 512 rfl rfl).symm k) = ix2 q k := funext fun a => Fin.ext (by
    match a with
    | ⟨0, _⟩ => exact rhs_DD_0 _ _
    | ⟨1, _⟩ => exact (rhs_DD_1 _ _).trans hk)
  rw [el, er]
  rfl

/-! ## The masks -/

/-- **The label mask at `(p, q)`**: whether the row block's label of row `p` equals the column block's label of
    column `q`. -/
theorem pay9_apply (x2 : Vec Ideal S512x1 .i32) (x3 : Vec Ideal S1x512 .i32) (p q : Fin 512) :
    k0_pay9 (F := Ideal) x2 x3 (ix2 p q) = IntOp.cmpi .eq (x2 (ix2 p (0 : Fin 1))) (x3 (ix2 (0 : Fin 1) q)) := by
  unfold k0_pay9
  simp only [shapeCast_self]
  show IntOp.cmpi .eq (broadcastTo S512x512 x2 _ (ix2 p q)) (broadcastTo S512x512 x3 _ (ix2 p q)) = _
  rw [ColumnForms.broadcastTo_a1_ab_apply, broadcastTo_1b_ab_apply]

/-- **The positive mask at `(p, q)`**: same label and similarity below one. -/
theorem pay10_apply (x0 x1 : Vec Ideal S512x512 .f32) (x2 : Vec Ideal S512x1 .i32) (x3 : Vec Ideal S1x512 .i32)
    (p q : Fin 512) :
    k0_pay10 (F := Ideal) x0 x1 x2 x3 (ix2 p q)
      = IntOp.andi (k0_pay9 (F := Ideal) x2 x3 (ix2 p q))
          (FloatOps.cmpf (F := Ideal) (φ := .f32) .olt (k0_pay8 (F := Ideal) x0 x1 (ix2 p q)) Cert.Spec.one) := rfl

/-- **The negative mask at `(p, q)`**: the label mask flipped. -/
theorem pay11_apply (x2 : Vec Ideal S512x1 .i32) (x3 : Vec Ideal S1x512 .i32) (p q : Fin 512) :
    k0_pay11 (F := Ideal) x2 x3 (ix2 p q) = IntOp.xori (k0_pay9 (F := Ideal) x2 x3 (ix2 p q)) 1#1 := rfl

/-! ## The two terms -/

/-- **The positive term at `(p, q)`**: the softplus of minus two times the shifted similarity. -/
theorem pay12_apply (x0 x1 : Vec Ideal S512x512 .f32) (p q : Fin 512) :
    k0_pay12 (F := Ideal) x0 x1 (ix2 p q)
      = Cert.Spec.softplus (Cert.Spec.negTwo * (k0_pay8 (F := Ideal) x0 x1 (ix2 p q) - Cert.Spec.half)) := rfl

/-- **The shifted similarity at `(p, q)`**: the similarity minus one half. -/
theorem pay13_apply (x0 x1 : Vec Ideal S512x512 .f32) (p q : Fin 512) :
    k0_pay13 (F := Ideal) x0 x1 (ix2 p q) = k0_pay8 (F := Ideal) x0 x1 (ix2 p q) - Cert.Spec.half := rfl

/-! ## The four column accumulators -/

/-- **The positive-sum accumulator at row `p`**: the previous entry plus the sum over the tile's columns of the
    positive term where the positive mask is set (zero elsewhere). -/
theorem pay14_apply (v17 : IVec S512x512 1) (v36 : FVec Ideal S512x512 .f32) (a : Vec Ideal S512x1 .f32) (p : Fin 512) :
    k0_pay14 (F := Ideal) v17 v36 a (ix2 p (0 : Fin 1))
      = a (ix2 p (0 : Fin 1)) + ∑ l : Fin 512, Scalar.select (v17 (ix2 p l)) (v36 (ix2 p l)) Cert.Spec.zero := by
  unfold k0_pay14
  exact colAcc_apply _ a _ _ _ _ _ p

/-- **The negative-sum accumulator at row `p`**: the previous entry plus the sum over the tile's columns of the
    softplus of twenty-five times the shifted similarity where the negative mask is set (zero elsewhere). -/
theorem pay15_apply (v18 : IVec S512x512 1) (v38 : FVec Ideal S512x512 .f32) (a : Vec Ideal S512x1 .f32) (p : Fin 512) :
    k0_pay15 (F := Ideal) v18 v38 a (ix2 p (0 : Fin 1))
      = a (ix2 p (0 : Fin 1))
        + ∑ l : Fin 512, Scalar.select (v18 (ix2 p l)) (Cert.Spec.softplus (Cert.Spec.c25 * v38 (ix2 p l))) Cert.Spec.zero := by
  unfold k0_pay15
  exact colAcc_apply _ a _ _ _ _ _ p

/-- **The positive-count accumulator at row `p`**: the previous entry plus the number of set positive-mask bits among
    the tile's columns, each bit converted to a float through its 32-bit zero extension. -/
theorem pay16_apply (v17 : IVec S512x512 1) (a : Vec Ideal S512x1 .f32) (p : Fin 512) :
    k0_pay16 (F := Ideal) v17 a (ix2 p (0 : Fin 1))
      = a (ix2 p (0 : Fin 1)) + ∑ l : Fin 512, FloatOps.sitofp (F := Ideal) .f32 ((v17 (ix2 p l)).setWidth 32) := by
  unfold k0_pay16
  exact colAdd_apply _ a _ _ _ _ p

/-- **The negative-count accumulator at row `p`**: likewise for the negative mask. -/
theorem pay2_apply (v18 : IVec S512x512 1) (a : Vec Ideal S512x1 .f32) (p : Fin 512) :
    k0_pay2 (F := Ideal) v18 a (ix2 p (0 : Fin 1))
      = a (ix2 p (0 : Fin 1)) + ∑ l : Fin 512, FloatOps.sitofp (F := Ideal) .f32 ((v18 (ix2 p l)).setWidth 32) := by
  unfold k0_pay2
  exact colAcc_apply _ a _ _ _ _ _ p

/-! ## The values stored unchanged, the initial zeros, and the finalization -/

/-- A cast to the same shape is the identity: the carried positive count is stored as it is. -/
theorem pay1_eq (v78 : FVec Ideal S512x1 .f32) : k0_pay1 (F := Ideal) v78 = v78 := by
  unfold k0_pay1
  exact shapeCast_self _ _

/-- At the first column tile each accumulator is set to zero. -/
theorem pay4_eq : k0_pay4 (F := Ideal) = fun _ => Cert.Spec.zero := by
  unfold k0_pay4
  exact shapeCast_self _ _

theorem pay5_eq : k0_pay5 (F := Ideal) = fun _ => Cert.Spec.zero := by
  unfold k0_pay5
  exact shapeCast_self _ _

theorem pay6_eq : k0_pay6 (F := Ideal) = fun _ => Cert.Spec.zero := by
  unfold k0_pay6
  exact shapeCast_self _ _

theorem pay7_eq : k0_pay7 (F := Ideal) = fun _ => Cert.Spec.zero := by
  unfold k0_pay7
  exact shapeCast_self _ _

/-- **The finalization at row `p`**: the mean of the positive sum over the positive count plus the mean of the negative
    sum over the negative count (a mean over an empty set of pairs is zero).  The arguments are, in order, the positive
    count, the negative count, the positive sum and the negative sum. -/
theorem pay3_apply (pc nc ps ns : Vec Ideal S512x1 .f32) (p : Fin 512) :
    k0_pay3 (F := Ideal) pc nc ps ns (ix2 p (0 : Fin 1))
      = Cert.Spec.mean (ps (ix2 p (0 : Fin 1))) (pc (ix2 p (0 : Fin 1)))
        + Cert.Spec.mean (ns (ix2 p (0 : Fin 1))) (nc (ix2 p (0 : Fin 1))) := rfl

end Cert.KernelIdeal.Pay
-- ==== Proof.LibAccBlocks.lean ====
import Mathlib
import Idealize.ShloMosaic.Lib.ValueIdx

/-!
# A running accumulator over column blocks is the flat sum

A row of `a * b` entries is visited in `a` consecutive blocks of `b` entries.  An accumulator starts at `z` and, at block
`j`, adds the sum of that block's entries, the entry `l` of block `j` sitting at position `j * b + l`.  After the last
block the accumulator holds `z` plus the sum of all `a * b` entries.  This holds in any commutative additive monoid
(the extended reals are one).
-/

noncomputable section

namespace Cert.LibAccBlocks

/-- Position `l` of block `j` lies inside the row: `j * b + l < a * b` when `j < a` and `l < b`. -/
theorem idx_lt {a b j l : ℕ} (hj : j < a) (hl : l < b) : j * b + l < a * b :=
  calc j * b + l < j * b + b := Nat.add_lt_add_left hl _
    _ = (j + 1) * b := (Nat.succ_mul j b).symm
    _ ≤ a * b := Nat.mul_le_mul_right b hj

/-- The sum over a row of `a * b` entries is the sum over the `a` blocks of each block's `b` entries. -/
theorem sum_eq_sum_blocks {M : Type*} [AddCommMonoid M] (a b : ℕ) (f : Fin (a * b) → M) :
    ∑ k : Fin (a * b), f k = ∑ j : Fin a, ∑ l : Fin b, f ⟨j.val * b + l.val, idx_lt j.isLt l.isLt⟩ := by
  rw [← (finProdFinEquiv (m := a) (n := b)).sum_comp, Fintype.sum_prod_type]
  refine Finset.sum_congr rfl fun j _ => Finset.sum_congr rfl fun l _ => ?_
  congr 1
  ext
  simp only [finProdFinEquiv_apply_val]
  rw [Nat.mul_comm, Nat.add_comm]

/-- **The accumulator lemma.**  If `acc 0 = z` and, for each block `j < a`, `acc (j + 1)` is `acc j` plus the sum of block
    `j`'s entries, then `acc a` is `z` plus the sum of the whole row. -/
theorem acc_blocks {M : Type*} [AddCommMonoid M] (a b : ℕ) (f : Fin (a * b) → M) (z : M) (acc : ℕ → M)
    (h0 : acc 0 = z)
    (hstep : ∀ (j : ℕ) (hj : j < a), acc (j + 1) = acc j + ∑ l : Fin b, f ⟨j * b + l.val, idx_lt hj l.isLt⟩) :
    acc a = z + ∑ k : Fin (a * b), f k := by
  -- the block sums as a function of a bare natural number (zero past the last block)
  let g : ℕ → M := fun j => if hj : j < a then ∑ l : Fin b, f ⟨j * b + l.val, idx_lt hj l.isLt⟩ else 0
  have hpre : ∀ m : ℕ, m ≤ a → acc m = z + ∑ j ∈ Finset.range m, g j := by
    intro m
    induction m with
    | zero => intro _; simp [h0]
    | succ m ih =>
      intro hm
      have hlt : m < a := hm
      rw [hstep m hlt, ih (Nat.le_of_lt hlt), Finset.sum_range_succ, add_assoc]
      congr 2
      simp only [g, dif_pos hlt]
  rw [hpre a le_rfl, sum_eq_sum_blocks, ← Fin.sum_univ_eq_sum_range]
  congr 1
  refine Finset.sum_congr rfl fun j _ => ?_
  simp only [g, dif_pos j.isLt]

/-- The accumulator lemma at the sizes of a 4096-entry row visited in 8 blocks of 512 entries. -/
theorem acc_blocks_8_512 {M : Type*} [AddCommMonoid M] (f : Fin 4096 → M) (z : M) (acc : ℕ → M)
    (h0 : acc 0 = z)
    (hstep : ∀ (j : ℕ) (hj : j < 8),
      acc (j + 1) = acc j + ∑ l : Fin 512, f ⟨j * 512 + l.val, idx_lt (a := 8) (b := 512) hj l.isLt⟩) :
    acc 8 = z + ∑ k : Fin 4096, f k :=
  acc_blocks 8 512 f z acc h0 hstep

end Cert.LibAccBlocks
-- ==== Proof.KValue.lean ====
/-
  The value of the tiled loss kernel's output block, at the exact-arithmetic instance. For the row r = 512·i + p of
  row tile i, the four accumulators after column tile j hold zero plus the sum, over the columns of tiles 0 … j, of
  the row's four per-entry quantities (an induction along the row of tiles); after the last tile these are the four
  whole-row sums, and the output entry is the sum of the two means: the row's term of the loss.
-/
import proofs.«115931_j57277683859994_1_alg».proof.Proof.KPieces
import proofs.«115931_j57277683859994_1_alg».proof.Proof.KPay
import proofs.«115931_j57277683859994_1_alg».proof.Proof.Spec
import proofs.«115931_j57277683859994_1_alg».proof.Proof.LibAccBlocks
import proofs.«115931_j57277683859994_1_alg».proof.Proof.LibCount

set_option maxRecDepth 16384

noncomputable section

namespace Cert.KernelIdeal.HandValue

open Idealize.ShloMosaic Idealize.ShloMosaic.TcCoe Idealize.ShloMosaic.ValueIdx
open Idealize.SL Idealize.SL.Sem
open Cert.KernelIdeal Cert.KernelIdeal.Gen Cert.KernelIdeal.Hand Cert.KernelIdeal.Pay
open scoped BigOperators

variable (V : (c : Dev nD) → (b : Ref sig .tc) → Buf (Elt Ideal) ((c : Thread nD τ).loc b)) (c : Dev nD)
variable (x : Cert.Spec.XArr) (tg : Cert.Spec.TArr)

theorem N64 : cfg0.N = 64 := N_0

/-- The row of the whole array that row p of position t's row tile is. -/
def rowIx (t : Fin cfg0.N) (p : Fin 512) : Fin 4096 := ⟨(t.val / 8) * 512 + p.val, by have := t.isLt; have := N64; omega⟩
/-- The column of the whole array that column l of position t's column tile is. -/
def colIx (t : Fin cfg0.N) (l : Fin 512) : Fin 4096 := ⟨(t.val % 8) * 512 + l.val, by omega⟩

/-- The four blocks at a position are the corresponding rows and columns of the inputs and their labels. -/
structure Reads : Prop where
  r0 : ∀ (t : Fin cfg0.N) (p d : Fin 512), (iblk V c 0 t : Vec Ideal S512x512 .f32) (ix2 p d) = x (ix2 (rowIx t p) d)
  r1 : ∀ (t : Fin cfg0.N) (q d : Fin 512), (iblk V c 1 t : Vec Ideal S512x512 .f32) (ix2 q d) = x (ix2 (colIx t q) d)
  r2 : ∀ (t : Fin cfg0.N) (p : Fin 512), (iblk V c 2 t : Vec Ideal S512x1 .i32) (ix2 p (0 : Fin 1)) = tg (ix1 (rowIx t p))
  r3 : ∀ (t : Fin cfg0.N) (q : Fin 512), (iblk V c 3 t : Vec Ideal S1x512 .i32) (ix2 (0 : Fin 1) q) = tg (ix1 (colIx t q))

variable {V c x tg} (h : Reads V c x tg)
include h

/-! ## One tile, entry by entry -/

theorem sim_tile (t : Fin cfg0.N) (p l : Fin 512) :
    k0_pay8 (F := Ideal) (iblk V c 0 t : Vec Ideal S512x512 .f32) (iblk V c 1 t : Vec Ideal S512x512 .f32) (ix2 p l) = Cert.Spec.sim x (rowIx t p) (colIx t l) := by
  rw [pay8_apply]; unfold Cert.Spec.sim
  exact Finset.sum_congr rfl fun d _ => by rw [h.r0, h.r1]

theorem same_tile (t : Fin cfg0.N) (p l : Fin 512) :
    k0_pay9 (F := Ideal) (iblk V c 2 t : Vec Ideal S512x1 .i32) (iblk V c 3 t : Vec Ideal S1x512 .i32) (ix2 p l) = Cert.Spec.same tg (rowIx t p) (colIx t l) := by
  rw [pay9_apply, h.r2, h.r3]; rfl

theorem posMask_tile (t : Fin cfg0.N) (p l : Fin 512) :
    k0_pay10 (F := Ideal) (iblk V c 0 t : Vec Ideal S512x512 .f32) (iblk V c 1 t : Vec Ideal S512x512 .f32) (iblk V c 2 t : Vec Ideal S512x1 .i32) (iblk V c 3 t : Vec Ideal S1x512 .i32) (ix2 p l) = Cert.Spec.posMask x tg (rowIx t p) (colIx t l) := by
  rw [pay10_apply, same_tile h, sim_tile h]; rfl

theorem negMask_tile (t : Fin cfg0.N) (p l : Fin 512) :
    k0_pay11 (F := Ideal) (iblk V c 2 t : Vec Ideal S512x1 .i32) (iblk V c 3 t : Vec Ideal S1x512 .i32) (ix2 p l) = Cert.Spec.negMask tg (rowIx t p) (colIx t l) := by
  rw [pay11_apply, same_tile h]; rfl

theorem posTerm_tile (t : Fin cfg0.N) (p l : Fin 512) :
    k0_pay12 (F := Ideal) (iblk V c 0 t : Vec Ideal S512x512 .f32) (iblk V c 1 t : Vec Ideal S512x512 .f32) (ix2 p l) = Cert.Spec.posTerm x (rowIx t p) (colIx t l) := by
  rw [pay12_apply, sim_tile h]; rfl

theorem negArg_tile (t : Fin cfg0.N) (p l : Fin 512) :
    k0_pay13 (F := Ideal) (iblk V c 0 t : Vec Ideal S512x512 .f32) (iblk V c 1 t : Vec Ideal S512x512 .f32) (ix2 p l) = Cert.Spec.sim x (rowIx t p) (colIx t l) - Cert.Spec.half := by
  rw [pay13_apply, sim_tile h]

omit h in
/-- The four per-entry quantities of a row: what the four whole-row sums of the specification add up. -/
def fps (x : Cert.Spec.XArr) (tg : Cert.Spec.TArr) (r k : Fin 4096) : EReal := Scalar.select (Cert.Spec.posMask x tg r k) (Cert.Spec.posTerm x r k) Cert.Spec.zero
omit h in
def fns (x : Cert.Spec.XArr) (tg : Cert.Spec.TArr) (r k : Fin 4096) : EReal := Scalar.select (Cert.Spec.negMask tg r k) (Cert.Spec.negTerm x r k) Cert.Spec.zero
omit h in
def fpc (x : Cert.Spec.XArr) (tg : Cert.Spec.TArr) (r k : Fin 4096) : EReal := FloatOps.sitofp (F := Ideal) .f32 ((Cert.Spec.posMask x tg r k).setWidth 32)
omit h in
def fnc (tg : Cert.Spec.TArr) (r k : Fin 4096) : EReal := FloatOps.sitofp (F := Ideal) .f32 ((Cert.Spec.negMask tg r k).setWidth 32)

/-- One tile's contribution to each accumulator, at row p. -/
theorem tile_ps (t : Fin cfg0.N) (p : Fin 512) (a : Vec Ideal S512x1 .f32) :
    k0_pay14 (F := Ideal) (k0_pay10 (iblk V c 0 t : Vec Ideal S512x512 .f32) (iblk V c 1 t : Vec Ideal S512x512 .f32) (iblk V c 2 t : Vec Ideal S512x1 .i32) (iblk V c 3 t : Vec Ideal S1x512 .i32)) (k0_pay12 (iblk V c 0 t : Vec Ideal S512x512 .f32) (iblk V c 1 t : Vec Ideal S512x512 .f32)) a (ix2 p (0 : Fin 1))
      = a (ix2 p (0 : Fin 1)) + ∑ l : Fin 512, fps x tg (rowIx t p) (colIx t l) := by
  rw [pay14_apply]
  exact congrArg (a (ix2 p (0 : Fin 1)) + ·) (Finset.sum_congr rfl fun l _ => by rw [posMask_tile h, posTerm_tile h]; rfl)

theorem tile_ns (t : Fin cfg0.N) (p : Fin 512) (a : Vec Ideal S512x1 .f32) :
    k0_pay15 (F := Ideal) (k0_pay11 (iblk V c 2 t : Vec Ideal S512x1 .i32) (iblk V c 3 t : Vec Ideal S1x512 .i32)) (k0_pay13 (iblk V c 0 t : Vec Ideal S512x512 .f32) (iblk V c 1 t : Vec Ideal S512x512 .f32)) a (ix2 p (0 : Fin 1))
      = a (ix2 p (0 : Fin 1)) + ∑ l : Fin 512, fns x tg (rowIx t p) (colIx t l) := by
  rw [pay15_apply]
  exact congrArg (a (ix2 p (0 : Fin 1)) + ·) (Finset.sum_congr rfl fun l _ => by rw [negMask_tile h, negArg_tile h]; rfl)

theorem tile_pc (t : Fin cfg0.N) (p : Fin 512) (a : Vec Ideal S512x1 .f32) :
    k0_pay1 (F := Ideal) (k0_pay16 (k0_pay10 (iblk V c 0 t : Vec Ideal S512x512 .f32) (iblk V c 1 t : Vec Ideal S512x512 .f32) (iblk V c 2 t : Vec Ideal S512x1 .i32) (iblk V c 3 t : Vec Ideal S1x512 .i32)) a) (ix2 p (0 : Fin 1))
      = a (ix2 p (0 : Fin 1)) + ∑ l : Fin 512, fpc x tg (rowIx t p) (colIx t l) := by
  rw [pay1_eq, pay16_apply]
  exact congrArg (a (ix2 p (0 : Fin 1)) + ·) (Finset.sum_congr rfl fun l _ => by rw [posMask_tile h]; rfl)

theorem tile_nc (t : Fin cfg0.N) (p : Fin 512) (a : Vec Ideal S512x1 .f32) :
    k0_pay2 (F := Ideal) (k0_pay11 (iblk V c 2 t : Vec Ideal S512x1 .i32) (iblk V c 3 t : Vec Ideal S1x512 .i32)) a (ix2 p (0 : Fin 1))
      = a (ix2 p (0 : Fin 1)) + ∑ l : Fin 512, fnc tg (rowIx t p) (colIx t l) := by
  rw [pay2_apply]
  exact congrArg (a (ix2 p (0 : Fin 1)) + ·) (Finset.sum_congr rfl fun l _ => by rw [negMask_tile h]; rfl)

/-! ## Along a row of tiles -/

omit h in
/-- A row quantity extended by zero past the last column. -/
def ext0 (f : Fin 4096 → EReal) (k : ℕ) : EReal := if hk : k < 4096 then f ⟨k, hk⟩ else 0
omit h in
theorem ext0_of_lt (f : Fin 4096 → EReal) (k : ℕ) (hk : k < 4096) : ext0 f k = f ⟨k, hk⟩ := dif_pos hk

omit h in
/-- Zero, plus the first n column tiles' sums of a row quantity f. -/
def accB (f : Fin 4096 → EReal) : ℕ → EReal
  | 0 => Cert.Spec.zero
  | n + 1 => accB f n + ∑ l : Fin 512, ext0 f (n * 512 + l.val)
omit h in
theorem accB_zero (f : Fin 4096 → EReal) : accB f 0 = Cert.Spec.zero := rfl
omit h in
theorem accB_step (f : Fin 4096 → EReal) (n : ℕ) : accB f (n + 1) = accB f n + ∑ l : Fin 512, ext0 f (n * 512 + l.val) := rfl

omit h in
/-- After all eight tiles: zero plus the whole row's sum. -/
theorem accB_eight (f : Fin 4096 → EReal) : accB f 8 = Cert.Spec.zero + ∑ k : Fin 4096, f k :=
  Cert.LibAccBlocks.acc_blocks_8_512 f Cert.Spec.zero (accB f) (accB_zero f) fun j hj => by
    rw [accB_step]
    exact congrArg (accB f j + ·) (Finset.sum_congr rfl fun l _ => ext0_of_lt f _ _)

omit h in
theorem accB_succ (f : Fin 4096 → EReal) (t : Fin cfg0.N) (n : ℕ) (hn : t.val % 8 = n) :
    accB f n + ∑ l : Fin 512, f (colIx t l) = accB f (n + 1) := by
  rw [accB_step]
  refine congrArg (accB f n + ·) (Finset.sum_congr rfl fun l _ => ?_)
  have hk : n * 512 + l.val < 4096 := by have := l.isLt; omega
  rw [ext0_of_lt f _ hk]
  refine congrArg f (Fin.ext ?_)
  simp only [colIx, hn]

/-! ## Each case, at a row -/

theorem stFirst_ps (t : Fin cfg0.N) (h0 : t.val % 8 = 0) (h1 : ¬t.val % 8 = 7) (p : Fin 512) :
    (stFirst V c t h0 h1).ps (ix2 p (0 : Fin 1)) = Cert.Spec.zero + ∑ l : Fin 512, fps x tg (rowIx t p) (colIx t l) := by
  unfold stFirst; dsimp only
  rw [first_ps (F := Ideal) c (grid0.coords t) (ms0 t) (hs0 t) (ms1 t) (hs1 t) (ms2 t) (hs2 t) (ms3 t) (hs3 t) (ms4 t) (hs4 t) accPS (Memref.isWhole_whole _) accNS (Memref.isWhole_whole _) accPC (Memref.isWhole_whole _) accNC (Memref.isWhole_whole _) ((isFirst_iff t).mpr h0) (fun hh => h1 ((isLast_iff t).mp hh)) (iblk V c 0 t) (iblk V c 1 t) (iblk V c 2 t) (iblk V c 3 t)]
  rw [tile_ps h t p, pay4_eq]
theorem stMiddle_ps (t : Fin cfg0.N) (h0 : ¬t.val % 8 = 0) (h1 : ¬t.val % 8 = 7) (s : St Ideal) (p : Fin 512) :
    (stMiddle V c t h0 h1 s).ps (ix2 p (0 : Fin 1)) = s.ps (ix2 p (0 : Fin 1)) + ∑ l : Fin 512, fps x tg (rowIx t p) (colIx t l) := by
  unfold stMiddle; dsimp only
  rw [middle_ps (F := Ideal) c (grid0.coords t) (ms0 t) (hs0 t) (ms1 t) (hs1 t) (ms2 t) (hs2 t) (ms3 t) (hs3 t) (ms4 t) (hs4 t) accPS (Memref.isWhole_whole _) accNS (Memref.isWhole_whole _) accPC (Memref.isWhole_whole _) accNC (Memref.isWhole_whole _) (fun hh => h0 ((isFirst_iff t).mp hh)) (fun hh => h1 ((isLast_iff t).mp hh)) (iblk V c 0 t) (iblk V c 1 t) (iblk V c 2 t) (iblk V c 3 t) s.ps s.ns s.pc s.nc]
  rw [tile_ps h t p]
theorem stLast_ps (t : Fin cfg0.N) (h0 : ¬t.val % 8 = 0) (h1 : t.val % 8 = 7) (s : St Ideal) (p : Fin 512) :
    (stLast V c t h0 h1 s).ps (ix2 p (0 : Fin 1)) = s.ps (ix2 p (0 : Fin 1)) + ∑ l : Fin 512, fps x tg (rowIx t p) (colIx t l) := by
  unfold stLast; dsimp only
  rw [last_ps (F := Ideal) c (grid0.coords t) (ms0 t) (hs0 t) (ms1 t) (hs1 t) (ms2 t) (hs2 t) (ms3 t) (hs3 t) (ms4 t) (hs4 t) accPS (Memref.isWhole_whole _) accNS (Memref.isWhole_whole _) accPC (Memref.isWhole_whole _) accNC (Memref.isWhole_whole _) (fun hh => h0 ((isFirst_iff t).mp hh)) ((isLast_iff t).mpr h1) (iblk V c 0 t) (iblk V c 1 t) (iblk V c 2 t) (iblk V c 3 t) s.ps s.ns s.pc s.nc]
  rw [tile_ps h t p]
theorem stFirst_ns (t : Fin cfg0.N) (h0 : t.val % 8 = 0) (h1 : ¬t.val % 8 = 7) (p : Fin 512) :
    (stFirst V c t h0 h1).ns (ix2 p (0 : Fin 1)) = Cert.Spec.zero + ∑ l : Fin 512, fns x tg (rowIx t p) (colIx t l) := by
  unfold stFirst; dsimp only
  rw [first_ns (F := Ideal) c (grid0.coords t) (ms0 t) (hs0 t) (ms1 t) (hs1 t) (ms2 t) (hs2 t) (ms3 t) (hs3 t) (ms4 t) (hs4 t) accPS (Memref.isWhole_whole _) accNS (Memref.isWhole_whole _) accPC (Memref.isWhole_whole _) accNC (Memref.isWhole_whole _) ((isFirst_iff t).mpr h0) (fun hh => h1 ((isLast_iff t).mp hh)) (iblk V c 0 t) (iblk V c 1 t) (iblk V c 2 t) (iblk V c 3 t)]
  rw [tile_ns h t p, pay5_eq]
theorem stMiddle_ns (t : Fin cfg0.N) (h0 : ¬t.val % 8 = 0) (h1 : ¬t.val % 8 = 7) (s : St Ideal) (p : Fin 512) :
    (stMiddle V c t h0 h1 s).ns (ix2 p (0 : Fin 1)) = s.ns (ix2 p (0 : Fin 1)) + ∑ l : Fin 512, fns x tg (rowIx t p) (colIx t l) := by
  unfold stMiddle; dsimp only
  rw [middle_ns (F := Ideal) c (grid0.coords t) (ms0 t) (hs0 t) (ms1 t) (hs1 t) (ms2 t) (hs2 t) (ms3 t) (hs3 t) (ms4 t) (hs4 t) accPS (Memref.isWhole_whole _) accNS (Memref.isWhole_whole _) accPC (Memref.isWhole_whole _) accNC (Memref.isWhole_whole _) (fun hh => h0 ((isFirst_iff t).mp hh)) (fun hh => h1 ((isLast_iff t).mp hh)) (iblk V c 0 t) (iblk V c 1 t) (iblk V c 2 t) (iblk V c 3 t) s.ps s.ns s.pc s.nc]
  rw [tile_ns h t p]
theorem stLast_ns (t : Fin cfg0.N) (h0 : ¬t.val % 8 = 0) (h1 : t.val % 8 = 7) (s : St Ideal) (p : Fin 512) :
    (stLast V c t h0 h1 s).ns (ix2 p (0 : Fin 1)) = s.ns (ix2 p (0 : Fin 1)) + ∑ l : Fin 512, fns x tg (rowIx t p) (colIx t l) := by
  unfold stLast; dsimp only
  rw [last_ns (F := Ideal) c (grid0.coords t) (ms0 t) (hs0 t) (ms1 t) (hs1 t) (ms2 t) (hs2 t) (ms3 t) (hs3 t) (ms4 t) (hs4 t) accPS (Memref.isWhole_whole _) accNS (Memref.isWhole_whole _) accPC (Memref.isWhole_whole _) accNC (Memref.isWhole_whole _) (fun hh => h0 ((isFirst_iff t).mp hh)) ((isLast_iff t).mpr h1) (iblk V c 0 t) (iblk V c 1 t) (iblk V c 2 t) (iblk V c 3 t) s.ps s.ns s.pc s.nc]
  rw [tile_ns h t p]
theorem stFirst_pc (t : Fin cfg0.N) (h0 : t.val % 8 = 0) (h1 : ¬t.val % 8 = 7) (p : Fin 512) :
    (stFirst V c t h0 h1).pc (ix2 p (0 : Fin 1)) = Cert.Spec.zero + ∑ l : Fin 512, fpc x tg (rowIx t p) (colIx t l) := by
  unfold stFirst; dsimp only
  rw [first_pc (F := Ideal) c (grid0.coords t) (ms0 t) (hs0 t) (ms1 t) (hs1 t) (ms2 t) (hs2 t) (ms3 t) (hs3 t) (ms4 t) (hs4 t) accPS (Memref.isWhole_whole _) accNS (Memref.isWhole_whole _) accPC (Memref.isWhole_whole _) accNC (Memref.isWhole_whole _) ((isFirst_iff t).mpr h0) (fun hh => h1 ((isLast_iff t).mp hh)) (iblk V c 0 t) (iblk V c 1 t) (iblk V c 2 t) (iblk V c 3 t)]
  rw [tile_pc h t p, pay6_eq]
theorem stMiddle_pc (t : Fin cfg0.N) (h0 : ¬t.val % 8 = 0) (h1 : ¬t.val % 8 = 7) (s : St Ideal) (p : Fin 512) :
    (stMiddle V c t h0 h1 s).pc (ix2 p (0 : Fin 1)) = s.pc (ix2 p (0 : Fin 1)) + ∑ l : Fin 512, fpc x tg (rowIx t p) (colIx t l) := by
  unfold stMiddle; dsimp only
  rw [middle_pc (F := Ideal) c (grid0.coords t) (ms0 t) (hs0 t) (ms1 t) (hs1 t) (ms2 t) (hs2 t) (ms3 t) (hs3 t) (ms4 t) (hs4 t) accPS (Memref.isWhole_whole _) accNS (Memref.isWhole_whole _) accPC (Memref.isWhole_whole _) accNC (Memref.isWhole_whole _) (fun hh => h0 ((isFirst_iff t).mp hh)) (fun hh => h1 ((isLast_iff t).mp hh)) (iblk V c 0 t) (iblk V c 1 t) (iblk V c 2 t) (iblk V c 3 t) s.ps s.ns s.pc s.nc]
  rw [tile_pc h t p]
theorem stLast_pc (t : Fin cfg0.N) (h0 : ¬t.val % 8 = 0) (h1 : t.val % 8 = 7) (s : St Ideal) (p : Fin 512) :
    (stLast V c t h0 h1 s).pc (ix2 p (0 : Fin 1)) = s.pc (ix2 p (0 : Fin 1)) + ∑ l : Fin 512, fpc x tg (rowIx t p) (colIx t l) := by
  unfold stLast; dsimp only
  rw [last_pc (F := Ideal) c (grid0.coords t) (ms0 t) (hs0 t) (ms1 t) (hs1 t) (ms2 t) (hs2 t) (ms3 t) (hs3 t) (ms4 t) (hs4 t) accPS (Memref.isWhole_whole _) accNS (Memref.isWhole_whole _) accPC (Memref.isWhole_whole _) accNC (Memref.isWhole_whole _) (fun hh => h0 ((isFirst_iff t).mp hh)) ((isLast_iff t).mpr h1) (iblk V c 0 t) (iblk V c 1 t) (iblk V c 2 t) (iblk V c 3 t) s.ps s.ns s.pc s.nc]
  rw [tile_pc h t p]
theorem stFirst_nc (t : Fin cfg0.N) (h0 : t.val % 8 = 0) (h1 : ¬t.val % 8 = 7) (p : Fin 512) :
    (stFirst V c t h0 h1).nc (ix2 p (0 : Fin 1)) = Cert.Spec.zero + ∑ l : Fin 512, fnc tg (rowIx t p) (colIx t l) := by
  unfold stFirst; dsimp only
  rw [first_nc (F := Ideal) c (grid0.coords t) (ms0 t) (hs0 t) (ms1 t) (hs1 t) (ms2 t) (hs2 t) (ms3 t) (hs3 t) (ms4 t) (hs4 t) accPS (Memref.isWhole_whole _) accNS (Memref.isWhole_whole _) accPC (Memref.isWhole_whole _) accNC (Memref.isWhole_whole _) ((isFirst_iff t).mpr h0) (fun hh => h1 ((isLast_iff t).mp hh)) (iblk V c 0 t) (iblk V c 1 t) (iblk V c 2 t) (iblk V c 3 t)]
  rw [tile_nc h t p, pay7_eq]
theorem stMiddle_nc (t : Fin cfg0.N) (h0 : ¬t.val % 8 = 0) (h1 : ¬t.val % 8 = 7) (s : St Ideal) (p : Fin 512) :
    (stMiddle V c t h0 h1 s).nc (ix2 p (0 : Fin 1)) = s.nc (ix2 p (0 : Fin 1)) + ∑ l : Fin 512, fnc tg (rowIx t p) (colIx t l) := by
  unfold stMiddle; dsimp only
  rw [middle_nc (F := Ideal) c (grid0.coords t) (ms0 t) (hs0 t) (ms1 t) (hs1 t) (ms2 t) (hs2 t) (ms3 t) (hs3 t) (ms4 t) (hs4 t) accPS (Memref.isWhole_whole _) accNS (Memref.isWhole_whole _) accPC (Memref.isWhole_whole _) accNC (Memref.isWhole_whole _) (fun hh => h0 ((isFirst_iff t).mp hh)) (fun hh => h1 ((isLast_iff t).mp hh)) (iblk V c 0 t) (iblk V c 1 t) (iblk V c 2 t) (iblk V c 3 t) s.ps s.ns s.pc s.nc]
  rw [tile_nc h t p]
theorem stLast_nc (t : Fin cfg0.N) (h0 : ¬t.val % 8 = 0) (h1 : t.val % 8 = 7) (s : St Ideal) (p : Fin 512) :
    (stLast V c t h0 h1 s).nc (ix2 p (0 : Fin 1)) = s.nc (ix2 p (0 : Fin 1)) + ∑ l : Fin 512, fnc tg (rowIx t p) (colIx t l) := by
  unfold stLast; dsimp only
  rw [last_nc (F := Ideal) c (grid0.coords t) (ms0 t) (hs0 t) (ms1 t) (hs1 t) (ms2 t) (hs2 t) (ms3 t) (hs3 t) (ms4 t) (hs4 t) accPS (Memref.isWhole_whole _) accNS (Memref.isWhole_whole _) accPC (Memref.isWhole_whole _) accNC (Memref.isWhole_whole _) (fun hh => h0 ((isFirst_iff t).mp hh)) ((isLast_iff t).mpr h1) (iblk V c 0 t) (iblk V c 1 t) (iblk V c 2 t) (iblk V c 3 t) s.ps s.ns s.pc s.nc]
  rw [tile_nc h t p]
theorem stLast_out (t : Fin cfg0.N) (h0 : ¬t.val % 8 = 0) (h1 : t.val % 8 = 7) (s : St Ideal) (p : Fin 512) :
    (stLast V c t h0 h1 s).out (ix2 p (0 : Fin 1))
      = Cert.Spec.mean (s.ps (ix2 p (0 : Fin 1)) + ∑ l : Fin 512, fps x tg (rowIx t p) (colIx t l)) (s.pc (ix2 p (0 : Fin 1)) + ∑ l : Fin 512, fpc x tg (rowIx t p) (colIx t l))
        + Cert.Spec.mean (s.ns (ix2 p (0 : Fin 1)) + ∑ l : Fin 512, fns x tg (rowIx t p) (colIx t l)) (s.nc (ix2 p (0 : Fin 1)) + ∑ l : Fin 512, fnc tg (rowIx t p) (colIx t l)) := by
  unfold stLast; dsimp only
  rw [last_out (F := Ideal) c (grid0.coords t) (ms0 t) (hs0 t) (ms1 t) (hs1 t) (ms2 t) (hs2 t) (ms3 t) (hs3 t) (ms4 t) (hs4 t) accPS (Memref.isWhole_whole _) accNS (Memref.isWhole_whole _) accPC (Memref.isWhole_whole _) accNC (Memref.isWhole_whole _) (fun hh => h0 ((isFirst_iff t).mp hh)) ((isLast_iff t).mpr h1) (iblk V c 0 t) (iblk V c 1 t) (iblk V c 2 t) (iblk V c 3 t) s.ps s.ns s.pc s.nc]
  rw [pay3_apply, tile_ps h t p, tile_ns h t p, tile_pc h t p, tile_nc h t p]

/-- THE INVARIANT along a row of tiles: after the position n, every accumulator's row p holds zero plus the sums over
    the column tiles up to and including n's. By induction on the position. -/
theorem acc_inv : ∀ (n : ℕ) (hn : n < cfg0.N) (p : Fin 512),
    (stAt V c n hn).ps (ix2 p (0 : Fin 1)) = accB (fps x tg (rowIx ⟨n, hn⟩ p)) (n % 8 + 1)
    ∧ (stAt V c n hn).ns (ix2 p (0 : Fin 1)) = accB (fns x tg (rowIx ⟨n, hn⟩ p)) (n % 8 + 1)
    ∧ (stAt V c n hn).pc (ix2 p (0 : Fin 1)) = accB (fpc x tg (rowIx ⟨n, hn⟩ p)) (n % 8 + 1)
    ∧ (stAt V c n hn).nc (ix2 p (0 : Fin 1)) = accB (fnc tg (rowIx ⟨n, hn⟩ p)) (n % 8 + 1) := by
  intro n
  induction n with
  | zero =>
    intro hn p
    have h0 : (⟨0, hn⟩ : Fin cfg0.N).val % 8 = 0 := Nat.zero_mod _
    have h1 : ¬(⟨0, hn⟩ : Fin cfg0.N).val % 8 = 7 := by show ¬(0 % 8 = 7); omega
    have e : stAt V c 0 hn = stFirst V c ⟨0, hn⟩ h0 h1 := stAt_first V c ⟨0, hn⟩ h0 h1
    rw [e, stFirst_ps h, stFirst_ns h, stFirst_pc h, stFirst_nc h]
    exact ⟨accB_succ _ ⟨0, hn⟩ 0 rfl, accB_succ _ ⟨0, hn⟩ 0 rfl, accB_succ _ ⟨0, hn⟩ 0 rfl, accB_succ _ ⟨0, hn⟩ 0 rfl⟩
  | succ n ih =>
    intro hn p
    obtain ⟨i0, i1, i2, i3⟩ := ih (Nat.lt_of_succ_lt hn) p
    by_cases h0 : (n + 1) % 8 = 0
    · have h0' : (⟨n + 1, hn⟩ : Fin cfg0.N).val % 8 = 0 := h0
      have h1' : ¬(⟨n + 1, hn⟩ : Fin cfg0.N).val % 8 = 7 := by show ¬((n + 1) % 8 = 7); omega
      have e : stAt V c (n + 1) hn = stFirst V c ⟨n + 1, hn⟩ h0' h1' := stAt_first V c ⟨n + 1, hn⟩ h0' h1'
      rw [e, stFirst_ps h, stFirst_ns h, stFirst_pc h, stFirst_nc h, h0]
      exact ⟨accB_succ _ ⟨n + 1, hn⟩ 0 h0, accB_succ _ ⟨n + 1, hn⟩ 0 h0, accB_succ _ ⟨n + 1, hn⟩ 0 h0, accB_succ _ ⟨n + 1, hn⟩ 0 h0⟩
    · have hm : (n + 1) % 8 = n % 8 + 1 := by omega
      have hrow : rowIx ⟨n, Nat.lt_of_succ_lt hn⟩ p = rowIx ⟨n + 1, hn⟩ p :=
        Fin.ext (by show n / 8 * 512 + p.val = (n + 1) / 8 * 512 + p.val; omega)
      rw [hrow] at i0 i1 i2 i3
      have h0' : ¬(⟨n + 1, hn⟩ : Fin cfg0.N).val % 8 = 0 := h0
      by_cases h1 : (n + 1) % 8 = 7
      · have h1' : (⟨n + 1, hn⟩ : Fin cfg0.N).val % 8 = 7 := h1
        have e : stAt V c (n + 1) hn = stLast V c ⟨n + 1, hn⟩ h0' h1' (stAt V c n (Nat.lt_of_succ_lt hn)) := stAt_last V c ⟨n + 1, hn⟩ h0' h1'
        rw [e, stLast_ps h, stLast_ns h, stLast_pc h, stLast_nc h, i0, i1, i2, i3, hm]
        exact ⟨accB_succ _ ⟨n + 1, hn⟩ _ hm, accB_succ _ ⟨n + 1, hn⟩ _ hm, accB_succ _ ⟨n + 1, hn⟩ _ hm, accB_succ _ ⟨n + 1, hn⟩ _ hm⟩
      · have h1' : ¬(⟨n + 1, hn⟩ : Fin cfg0.N).val % 8 = 7 := h1
        have e : stAt V c (n + 1) hn = stMiddle V c ⟨n + 1, hn⟩ h0' h1' (stAt V c n (Nat.lt_of_succ_lt hn)) := stAt_middle V c ⟨n + 1, hn⟩ h0' h1'
        rw [e, stMiddle_ps h, stMiddle_ns h, stMiddle_pc h, stMiddle_nc h, i0, i1, i2, i3, hm]
        exact ⟨accB_succ _ ⟨n + 1, hn⟩ _ hm, accB_succ _ ⟨n + 1, hn⟩ _ hm, accB_succ _ ⟨n + 1, hn⟩ _ hm, accB_succ _ ⟨n + 1, hn⟩ _ hm⟩

omit h in
theorem zero_add' (s : EReal) : Cert.Spec.zero + s = s := by
  unfold Cert.Spec.zero; rw [Cert.LibCount.ofBits_zero_f32, zero_add]

/-- THE OUTPUT BLOCK at a last column tile: row p holds the loss's term of its row. -/
theorem out_val (t : Fin cfg0.N) (h7 : t.val % 8 = 7) (p : Fin 512) :
    (stAt V c t.val t.isLt).out (ix2 p (0 : Fin 1)) = Cert.Spec.perRow x tg (rowIx t p) := by
  obtain ⟨n, hn⟩ := t
  cases n with
  | zero => exact absurd h7 (by show ¬(0 % 8 = 7); omega)
  | succ n =>
    have h7' : (n + 1) % 8 = 7 := h7
    have h0' : ¬(⟨n + 1, hn⟩ : Fin cfg0.N).val % 8 = 0 := by show ¬((n + 1) % 8 = 0); omega
    obtain ⟨i0, i1, i2, i3⟩ := acc_inv h n (Nat.lt_of_succ_lt hn) p
    have hrow : rowIx ⟨n, Nat.lt_of_succ_lt hn⟩ p = rowIx ⟨n + 1, hn⟩ p :=
      Fin.ext (by show n / 8 * 512 + p.val = (n + 1) / 8 * 512 + p.val; omega)
    rw [hrow] at i0 i1 i2 i3
    have hm : (n + 1) % 8 = n % 8 + 1 := by omega
    have e : stAt V c (n + 1) hn = stLast V c ⟨n + 1, hn⟩ h0' h7 (stAt V c n (Nat.lt_of_succ_lt hn)) := stAt_last V c ⟨n + 1, hn⟩ h0' h7
    show (stAt V c (n + 1) hn).out (ix2 p (0 : Fin 1)) = _
    rw [e, stLast_out h, i0, i1, i2, i3,
      accB_succ _ ⟨n + 1, hn⟩ _ hm, accB_succ _ ⟨n + 1, hn⟩ _ hm, accB_succ _ ⟨n + 1, hn⟩ _ hm, accB_succ _ ⟨n + 1, hn⟩ _ hm]
    have h8 : n % 8 + 1 + 1 = 8 := by omega
    rw [h8, accB_eight, accB_eight, accB_eight, accB_eight, zero_add', zero_add', zero_add', zero_add']
    rfl

end Cert.KernelIdeal.HandValue

end
-- ==== Proof.KLaunch.lean ====
/- The launch of the kernel program's one pipelined region between its two stretches of host operations, for any
   proof data with the properties stated as parameters below. Two of the region's five windows read the same array
   (the first argument), so the buffers behind the arrays are four, not five: at the region's entry that array's
   points-to is split along the two halves of the full share, one half per window, and at the exit the halves are
   joined back. Everything else follows the uniform road of a region between host stretches: the buffer contents
   at each boundary, the region's record, the host segments, and the run. -/
import proofs.«115931_j57277683859994_1_alg».proof.Proof.Gen.KernelIdeal.Launch
import Idealize.ShloMosaic.Lib.Pipeline.FrameBody
import Idealize.ShloMosaic.Lib.Pipeline.RegionsLoop
import Idealize.ShloMosaic.Lib.Pipeline.FrameSuffix
import Idealize.ShloMosaic.Lib.Tactic

noncomputable section

namespace Cert.KernelIdeal.KLaunch

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen
open PCS

variable {F : FTy → Type} [FloatOps F]

local notation "𝕄" => MT nD τ sig Unit (Elt F) ℕ (UR sig nD τ) ℕ

/-- The two halves of the full share. -/
abbrev qL : PosShare TreeShare := fullShare.left
abbrev qR : PosShare TreeShare := fullShare.right
theorem full_mem : fullShare ∈ qL ·? qR := PosShare.mem_left_op_right fullShare

theorem arrImage : Finset.univ.image (Pipeline.arrRef spec0) = [main_arg0, main_v0, main_v1, main_v2].toFinset := by decide

section A
variable (c : Dev nD) (V : (b : Ref sig .tc) → Buf (Elt F) ((c : Thread nD τ).loc b))
  (dat : Dat τ (Elt F) Unit ℕ (UR sig nD τ) ℕ cfg0 c)

/-- The distinct buffers behind the five windows' arrays, one by one: the first argument (which two windows
    read), the two reshaped targets and the output. -/
theorem arrBufs0_eq : (Pipeline.arrBufs spec0 c V : sProp 𝕄)
    = iprop((((c : Thread nD τ).loc main_arg0) ↦{fullShare} V main_arg0) ∗ (((c : Thread nD τ).loc main_v0) ↦{fullShare} V main_v0)
        ∗ (((c : Thread nD τ).loc main_v1) ↦{fullShare} V main_v1) ∗ (((c : Thread nD τ).loc main_v2) ↦{fullShare} V main_v2)) := by
  unfold Pipeline.arrBufs
  exact bigSep_eq_bigSepL_of_eq [main_arg0, main_v0, main_v1, main_v2] arrImage (by decide) _

/-- The pipeline's arrays at contents G, window by window, for proof data whose first two windows hold the
    two halves of the full share and whose other inputs hold the full share. -/
theorem arrays0_eq (hq : dat.q 0 = qL ∧ dat.q 1 = qR ∧ dat.q 2 = fullShare ∧ dat.q 3 = fullShare)
    (G : (w : Fin cfg0.W) → Buf (Elt F) ((cfg0.win w).arr.view.loc (c : Thread nD τ))) :
    (dat.arrays G : sProp 𝕄)
    = iprop((((c : Thread nD τ).loc main_arg0) ↦{qL} G 0) ∗ (((c : Thread nD τ).loc main_arg0) ↦{qR} G 1)
        ∗ (((c : Thread nD τ).loc main_v0) ↦{fullShare} G 2) ∗ (((c : Thread nD τ).loc main_v1) ↦{fullShare} G 3)
        ∗ (((c : Thread nD τ).loc main_v2) ↦{fullShare} G 4)) := by
  unfold Pipeline.Dat.arrays
  rw [bigSep_W0]
  have s0 : dat.share 0 = qL := (show dat.share 0 = dat.q 0 from rfl).trans hq.1
  have s1 : dat.share 1 = qR := (show dat.share 1 = dat.q 1 from rfl).trans hq.2.1
  have s2 : dat.share 2 = fullShare := (show dat.share 2 = dat.q 2 from rfl).trans hq.2.2.1
  have s3 : dat.share 3 = fullShare := (show dat.share 3 = dat.q 3 from rfl).trans hq.2.2.2
  have s4 : dat.share 4 = fullShare := rfl
  rw [s0, s1, s2, s3, s4]
  simp only [View.set_whole]

/-- ENTRY: the buffers behind the arrays, each whole at the full share at contents V, are the pipeline's arrays
    at the proof data's entry contents: the first argument's points-to splits along the two halves of the full
    share, one for each of the two windows that read it. -/
theorem entry_arrays (hA : ∀ w, dat.A w = V (Pipeline.arrRef spec0 w))
    (hq : dat.q 0 = qL ∧ dat.q 1 = qR ∧ dat.q 2 = fullShare ∧ dat.q 3 = fullShare) :
    (Pipeline.arrBufs spec0 c V : sProp 𝕄) ⊢ dat.arrays (dat.arrAt · 0) := by
  rw [arrBufs0_eq, arrays0_eq c dat hq]
  have a0 : dat.arrAt 0 0 = V main_arg0 := hA 0
  have a1 : dat.arrAt 1 0 = V main_arg0 := hA 1
  have a2 : dat.arrAt 2 0 = V main_v0 := hA 2
  have a3 : dat.arrAt 3 0 = V main_v1 := hA 3
  have a4 : dat.arrAt 4 0 = V main_v2 := hA 4
  rw [a0, a1, a2, a3, a4]
  iintro ⟨H0, H2, H3, H4⟩
  icases (pointsTo_share full_mem).1 $$ H0 with ⟨HL, HR⟩
  isplitl [HL]; · iexact HL
  isplitl [HR]; · iexact HR
  isplitl [H2]; · iexact H2
  isplitl [H3]; · iexact H3
  iexact H4

/-- EXIT: the pipeline's arrays at contents G, where every window's contents are what V' holds at the window's
    array, are the buffers behind the arrays whole at the full share at V': the two halves of the first
    argument's points-to join back along the full share. -/
theorem exit_arrays (V' : (b : Ref sig .tc) → Buf (Elt F) ((c : Thread nD τ).loc b))
    (hq : dat.q 0 = qL ∧ dat.q 1 = qR ∧ dat.q 2 = fullShare ∧ dat.q 3 = fullShare)
    (G : (w : Fin cfg0.W) → Buf (Elt F) ((cfg0.win w).arr.view.loc (c : Thread nD τ)))
    (hG : ∀ w, G w = V' (Pipeline.arrRef spec0 w)) :
    (dat.arrays G : sProp 𝕄) ⊢ Pipeline.arrBufs spec0 c V' := by
  rw [arrBufs0_eq, arrays0_eq c dat hq]
  have a0 : G 0 = V' main_arg0 := hG 0
  have a1 : G 1 = V' main_arg0 := hG 1
  have a2 : G 2 = V' main_v0 := hG 2
  have a3 : G 3 = V' main_v1 := hG 3
  have a4 : G 4 = V' main_v2 := hG 4
  rw [a0, a1, a2, a3, a4]
  iintro ⟨HL, HR, H2, H3, H4⟩
  isplitl [HL HR]
  · iapply (pointsTo_share full_mem).2
    isplitl [HL]; · iexact HL
    iexact HR
  isplitl [H2]; · iexact H2
  isplitl [H3]; · iexact H3
  iexact H4

end A

/-! # The run: the buffer contents at each boundary of the program's three segments -/

variable (m : (ℓ : Loc nD τ sig) → Buf (Elt F) ℓ) (ρ : Dev nD → PrngReg)

/-- Core c's buffers at launch. -/
abbrev W0 : Dev nD → Valuation τ sig (Elt F) := fun c b => (s₀ m ρ).mem ((c : Dev nD), b)
/-- After the two reshapes (the region's entry). -/
abbrev W1 : Dev nD → Valuation τ sig (Elt F) := fun c => StableHlo.after hostOps0 (W0 m ρ c)
/-- The same read at the TensorCore's references (what the region's proof data take). -/
abbrev V1 : (c : Dev nD) → (b : Ref sig .tc) → Buf (Elt F) ((c : Thread nD τ).loc b) := fun c b => W1 m ρ c b

section Run

variable (dat : (c : Dev nD) → Dat τ (Elt F) Unit ℕ (UR sig nD τ) ℕ cfg0 c)

/-- What the run asks of the proof data: the arrays are read off the entry contents; the two windows on the first
    argument hold the two halves of the full share and the other inputs the full share; the body owes nothing; the
    body obligation; the invariant starts from and ends in the scoped rest beside the generator register; and an
    input's array is at the end what it was at the start. -/
structure LaunchData : Prop where
  hA : ∀ c w, (dat c).A w = V1 m ρ c (Pipeline.arrRef spec0 w)
  hq : ∀ c, (dat c).q 0 = qL ∧ (dat c).q 1 = qR ∧ (dat c).q 2 = fullShare ∧ (dat c).q 3 = fullShare
  howed : ∀ c t, (dat c).owed t = 0
  hbody : ∀ c, BodyObligation (dat c) (defs₀ (F := F)) Variants.none () Set.univ
  hinΦ : ∀ c, (Pipeline.ΦA spec0 c : sProp 𝕄) ⊢ (dat c).Φ 0
  houtΦ : ∀ c, (dat c).Φ (Fin.last cfg0.N) ⊢ (Pipeline.ΦA spec0 c : sProp 𝕄)
  hin_arr : ∀ c (w : Fin cfg0.W), w ≠ 4 → (dat c).arrAt w cfg0.N = (dat c).A w

/-- At the region's exit: the output array at what the write-backs leave, every other buffer as entered. -/
def W2 (c : Dev nD) : Valuation τ sig (Elt F) :=
  Function.update (W1 m ρ c) (Proc.devRef .tc main_v2) ((dat c).arrAt 4 cfg0.N)
theorem W2_v2 (c : Dev nD) : W2 m ρ dat c (Proc.devRef .tc main_v2) = (dat c).arrAt 4 cfg0.N := by
  unfold W2; exact Function.update_self _ _ _
theorem W2_of_ne (c : Dev nD) (b : Ref sig .tc) (hb : b ≠ main_v2) :
    W2 m ρ dat c (Proc.devRef .tc b) = W1 m ρ c (Proc.devRef .tc b) := by
  unfold W2; exact Function.update_of_ne (StableHlo.devRef_ne_of_ne hb) _ _
/-- The same read at the TensorCore's references (the region's exit contents). -/
abbrev V2 : (c : Dev nD) → (b : Ref sig .tc) → Buf (Elt F) ((c : Thread nD τ).loc b) := fun c b => W2 m ρ dat c b
/-- After the four closing host operations (the program's end). -/
abbrev W3 : Dev nD → Valuation τ sig (Elt F) := fun c => StableHlo.after hostOps1 (W2 m ρ dat c)

variable {m ρ dat}

/-- At the exit every window's array holds what the exit contents say: an input what it held at entry, the output
    its write-backs. -/
theorem LaunchData.hF (h : LaunchData m ρ dat) (c : Dev nD) :
    ∀ w : Fin 5, (dat c).arrAt w cfg0.N = V2 m ρ dat c (Pipeline.arrRef spec0 w)
  | 0 => (h.hin_arr c 0 (by decide)).trans ((h.hA c 0).trans (W2_of_ne m ρ dat c main_arg0 (by decide)).symm)
  | 1 => (h.hin_arr c 1 (by decide)).trans ((h.hA c 1).trans (W2_of_ne m ρ dat c main_arg0 (by decide)).symm)
  | 2 => (h.hin_arr c 2 (by decide)).trans ((h.hA c 2).trans (W2_of_ne m ρ dat c main_v0 (by decide)).symm)
  | 3 => (h.hin_arr c 3 (by decide)).trans ((h.hA c 3).trans (W2_of_ne m ρ dat c main_v1 (by decide)).symm)
  | 4 => (W2_v2 m ρ dat c).symm
  | ⟨_ + 5, h⟩ => absurd h (Nat.not_lt.2 (Nat.le_add_left _ _))

variable (m ρ dat) in
/-- The buffers that are no window's array hold at the exit what they held at entry. -/
theorem unscopedRest_V2 (c : Dev nD) :
    (Pipeline.unscopedRest (Ix := Unit) (Name := ℕ) (U := UR sig nD τ) (Lvl := ℕ) spec0 c (V2 m ρ dat c) : sProp 𝕄)
      = Pipeline.unscopedRest spec0 c (V1 m ρ c) := by
  unfold Pipeline.unscopedRest
  exact bigSep_congr fun b hb => by
    rw [show V2 m ρ dat c b = V1 m ρ c b from W2_of_ne m ρ dat c b fun e =>
      (Finset.mem_sdiff.mp hb).2 (e ▸ Finset.mem_image.mpr ⟨4, Finset.mem_univ _, rfl⟩)]

/-! ## The proof data family and the thread state -/

/-- The prefetched tables' admissible contents: the pipeline has no table. -/
abbrev adm : (p : Fin 1) → (pcfgs (F := F) p).Adm := fun p => (cfgs p).toPCfg_adm
variable (dat) in
/-- The one pipeline's proof data. -/
def pdats : (p : Fin 1) → (c : Dev nD) → Dat τ (Elt F) Unit ℕ (UR sig nD τ) ℕ (Pipeline.pin (pcfgs (F := F)) adm p) c
  | ⟨0, _⟩ => fun c => dat c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its
    owed tallies, at nothing. -/
abbrev R (c : Dev nD) : sProp 𝕄 := iprop((∃ r, prngReg c r) ∗ ∃ W, owes (c : Thread nD τ) (0 : CellTallies nD τ sig Unit) W)
/-- The same before the region, where no wait has been recorded yet. -/
abbrev R₀ (c : Dev nD) : sProp 𝕄 := iprop((∃ r, prngReg c r) ∗ owes (c : Thread nD τ) (0 : CellTallies nD τ sig Unit) ∅)
/-- A host stretch as a segment: over the unscoped references from the contents W, R riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) (R : Dev nD → sProp 𝕄) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No operation of the opening stretch allocates a buffer. -/
theorem hostOps0_fresh : (hostOps0 : List (HloOp τ sig (Elt F))).Forall fun op => op.fresh = ∅ := by
  simp only [List.Forall]; repeat' constructor
/-- No operation of the closing stretch allocates a buffer. -/
theorem hostOps1_fresh : (hostOps1 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The region as a segment -/

set_option backward.isDefEq.respectTransparency.types false in
/-- The region over the thread state: entered from every unscoped buffer at W1, left at W2. The buffers behind its
    arrays split out of the unscoped buffers and, the first argument's along the two half shares, into the five
    windows' arrays; at the exit they are joined back at the exit contents. The generator register goes into the
    invariant and comes out; nothing is owed; the kernel has no semaphore of its own. -/
def reg0 (h : LaunchData m ρ dat) : Pipeline.RegionSeg (pcfgs (F := F)) adm (pdats dat) () defs₀ 𝒱₀ L lv 0 where
  win := winFacts₀0
  block_pos := block_pos0
  stage_whole := stage_whole0
  K := PEmpty
  osem k := k.elim
  ho := Pipeline.OwnSemFacts.none _
  hbody c := (h.hbody c).loose
  hwaits := Pipeline.hwaits_of_owed_zero _ _ _ _ L lv 0 fun c t => h.howed c t
  pre c := iprop(StableHlo.held (c : Thread nD τ) (Pipeline.ucRefs τ sig) (W1 m ρ c) ∗ R₀ c)
  post c := iprop(StableHlo.held (c : Thread nD τ) (Pipeline.ucRefs τ sig) (W2 m ρ dat c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit : (unscopedBufs c (V1 m ρ c) : sProp 𝕄)
        ⊢ iprop((pdats dat 0 c).arrays ((pdats dat 0 c).arrAt · 0) ∗ Pipeline.unscopedRest spec0 c (V1 m ρ c)) := by
      rw [Pipeline.unscopedBufs_split₀ cfgs 0 winFacts₀0.arr_unscoped c (V1 m ρ c)]
      exact sep_mono (entry_arrays c (V1 m ρ c) (dat c) (h.hA c) (h.hq c)) .rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      iexists ∅; isplitr; · ipureintro; simp
      rw [show (pdats dat 0 c).owed 0 = 0 from h.howed c 0]
      iexact HO
    isplitl [Hp]; · iexact Hp
    iexact Hrest
  hin c := by
    refine BIBase.Entails.trans ?_ (h.hinΦ c)
    unfold Pipeline.ΦA
    iintro ⟨Hp, -, Hr⟩
    isplitl [Hr]; · iexact Hr
    iexact Hp
  hout c := by
    rw [Pipeline.ownSems0_none]
    refine BIBase.Entails.trans (h.houtΦ c) ?_
    unfold Pipeline.ΦA
    iintro ⟨Hr, Hp⟩
    isplitl [Hp]; · iexact Hp
    isplitr; · iempintro
    iexact Hr
  hexit c := by
    have hjoin : iprop((pdats dat 0 c).arrays ((pdats dat 0 c).arrAt · cfg0.N) ∗ Pipeline.unscopedRest spec0 c (V1 m ρ c))
        ⊢ (unscopedBufs c (V2 m ρ dat c) : sProp 𝕄) := by
      rw [Pipeline.unscopedBufs_split₀ cfgs 0 winFacts₀0.arr_unscoped c (V2 m ρ dat c), unscopedRest_V2 m ρ dat c]
      exact sep_mono (exit_arrays c (dat c) (V2 m ρ dat c) (h.hq c) _ (h.hF c)) .rfl
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W
    rw [show (pdats dat 0 c).owed (Fin.last _) = 0 from h.howed c (Fin.last _)]
    iexact HO

/-! ## The program as segments, and the launch -/

variable (m ρ dat) in
/-- The program's three segments in order: the two reshapes from the launch contents, the region, the four closing
    operations from the region's exit contents. -/
abbrev segs (h : LaunchData m ρ dat) : List (Pipeline.Seg (pcfgs (F := F)) adm (pdats dat) () defs₀ 𝒱₀ L lv) :=
  [ .host (hseg hostOps0 hostOps0_sub hostOps0_fresh (W0 m ρ) R₀),
    .region (reg0 h),
    .host (hseg hostOps1 hostOps1_sub hostOps1_fresh (W2 m ρ dat) R) ]
/-- The program is the run of the segments. -/
theorem main_run (h : LaunchData m ρ dat) (c : Dev nD) : main (F := F) c = Pipeline.Seg.run (segs m ρ dat h) :=
  (main_chain c).trans (by chain_rfl)

/-- The last thread state without the owed tallies: every unscoped buffer at the last boundary's contents, the
    generator register at some state. -/
abbrev Tₙ (c : Dev nD) : sProp 𝕄 := iprop(StableHlo.held (c : Thread nD τ) (Pipeline.ucRefs τ sig) (W3 m ρ dat c) ∗ ∃ r, prngReg c r)

set_option backward.isDefEq.respectTransparency.types false in
/-- THE RUN, for any postcondition that follows from every unscoped buffer holding the last boundary's contents:
    from any memory with zero counters every weakly fair execution of the program terminates, nothing faulting,
    and the final state satisfies it. -/
theorem run_main_of (h : LaunchData m ρ dat) {Q : PUnit × MemSt nD τ sig (Elt F) → Prop}
    (hQ : ∀ s : MemSt nD τ sig (Elt F),
      (∀ c : Dev nD, ∀ b ∈ Pipeline.ucRefs τ sig, s.mem (((c : Thread nD τ)).1, b) = W3 m ρ dat c b) → Q (⟨⟩, s)) :
    θ_run defs (onTc (τ := τ) (main (F := F))) ⟨m, fun _ => 0, ρ⟩ Q :=
  Pipeline.θ_run_regions_kit (pcfgs (F := F)) adm (pdats dat) () cellOf_inj emb₁ defs₀ 𝒱₀ L lv m ρ main (segs m ρ dat h)
    (fun c Q => by rw [main_run h c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R₀ c)) (Tₙ := Tₙ (m := m) (ρ := ρ) (dat := dat))
    (hch := ⟨fun _ => .rfl, fun _ => .rfl, fun _ => .rfl, fun c => by
      show iprop(StableHlo.held (c : Thread nD τ) (Pipeline.ucRefs τ sig) (W3 m ρ dat c) ∗ R c)
        ⊢ iprop(Tₙ (m := m) (ρ := ρ) (dat := dat) c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexact HO)
    (QY := fun c s => ∀ b ∈ Pipeline.ucRefs τ sig, s.mem (((c : Thread nD τ)).1, b) = W3 m ρ dat c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ dat c) s')
      isplitl [Hh] <;> iassumption)
    (hQ := hQ)

/-- THE RUN with every unscoped buffer read at the end. -/
theorem run_main (h : LaunchData m ρ dat) :
    θ_run defs (onTc (τ := τ) (main (F := F))) ⟨m, fun _ => 0, ρ⟩
      (fun r => ∀ c : Dev nD, ∀ b ∈ Pipeline.ucRefs τ sig, r.2.mem (((c : Thread nD τ)).1, b) = W3 m ρ dat c b) :=
  run_main_of h fun _ hs => hs

/-! ## The arguments end as launched: no host operation writes one and the region only reads the first -/

variable (m ρ dat) in
theorem W3_main_arg0 (c : Dev nD) : W3 m ρ dat c (Proc.devRef .tc main_arg0) = m ((c : Thread nD τ).loc main_arg0) :=
  calc W3 m ρ dat c (Proc.devRef .tc main_arg0)
    _ = W2 m ρ dat c (Proc.devRef .tc main_arg0) := StableHlo.after_of_forall_not_mem (b := Proc.devRef .tc main_arg0) _ _ (List.forall_iff_forall_mem.mp (by
          simp only [hostOps1, List.Forall, StableHlo.nullary_writes, StableHlo.binary_writes, Finset.mem_singleton]
          repeat' apply And.intro
          all_goals exact StableHlo.devRef_ne_of_ne (by decide)))
    _ = W1 m ρ c (Proc.devRef .tc main_arg0) := W2_of_ne m ρ dat c main_arg0 (by decide)
    _ = W0 m ρ c (Proc.devRef .tc main_arg0) := StableHlo.after_of_forall_not_mem (b := Proc.devRef .tc main_arg0) _ _ (List.forall_iff_forall_mem.mp (by
          simp only [hostOps0, List.Forall, StableHlo.reshape_writes, Finset.mem_singleton]
          repeat' apply And.intro
          all_goals exact StableHlo.devRef_ne_of_ne (by decide)))
    _ = m ((c : Thread nD τ).loc main_arg0) := rfl

variable (m ρ dat) in
theorem W3_main_arg1 (c : Dev nD) : W3 m ρ dat c (Proc.devRef .tc main_arg1) = m ((c : Thread nD τ).loc main_arg1) :=
  calc W3 m ρ dat c (Proc.devRef .tc main_arg1)
    _ = W2 m ρ dat c (Proc.devRef .tc main_arg1) := StableHlo.after_of_forall_not_mem (b := Proc.devRef .tc main_arg1) _ _ (List.forall_iff_forall_mem.mp (by
          simp only [hostOps1, List.Forall, StableHlo.nullary_writes, StableHlo.binary_writes, Finset.mem_singleton]
          repeat' apply And.intro
          all_goals exact StableHlo.devRef_ne_of_ne (by decide)))
    _ = W1 m ρ c (Proc.devRef .tc main_arg1) := W2_of_ne m ρ dat c main_arg1 (by decide)
    _ = W0 m ρ c (Proc.devRef .tc main_arg1) := StableHlo.after_of_forall_not_mem (b := Proc.devRef .tc main_arg1) _ _ (List.forall_iff_forall_mem.mp (by
          simp only [hostOps0, List.Forall, StableHlo.reshape_writes, Finset.mem_singleton]
          repeat' apply And.intro
          all_goals exact StableHlo.devRef_ne_of_ne (by decide)))
    _ = m ((c : Thread nD τ).loc main_arg1) := rfl

/-- THE RUN as the equivalence claim reads it: the result buffer holds what the closing operations compute from the
    region's exit contents, and the two arguments end as launched. -/
theorem run_main_result (h : LaunchData m ρ dat) :
    θ_run defs (onTc (τ := τ) (main (F := F))) ⟨m, fun _ => 0, ρ⟩ (fun r => ∀ c : Dev nD,
      r.2.mem ((c : Thread nD τ).loc main_v4) = W3 m ρ dat c (Proc.devRef .tc main_v4)
      ∧ r.2.mem ((c : Thread nD τ).loc main_arg0) = m ((c : Thread nD τ).loc main_arg0)
      ∧ r.2.mem ((c : Thread nD τ).loc main_arg1) = m ((c : Thread nD τ).loc main_arg1)) :=
  run_main_of h fun s hs c =>
    ⟨hs c _ (mem_uc main_v4 (by decide)),
     (hs c _ (mem_uc main_arg0 (by decide))).trans (W3_main_arg0 m ρ dat c),
     (hs c _ (mem_uc main_arg1 (by decide))).trans (W3_main_arg1 m ρ dat c)⟩

end Run

end Cert.KernelIdeal.KLaunch
end
-- ==== Proof.KBlocks.lean ====
import proofs.«115931_j57277683859994_1_alg».proof.Proof.KBody
import proofs.«115931_j57277683859994_1_alg».proof.Proof.KLaunch
import proofs.«115931_j57277683859994_1_alg».proof.Proof.LibColumn
import Idealize.ShloMosaic.Lib.ValueIdx
import Idealize.ShloMosaic.Lib.Pipeline.Value
import Idealize.ShloMosaic.Lib.ValueLayout
import Idealize.ShloMosaic.Lib.StableHlo.Run

/-!
# The windows' blocks, read at an index

The 8 × 8 grid is walked in row-major order: the linear position `t` handles row tile `t / 8` against column tile
`t % 8`.  The row-tile window reads rows `(t / 8) * 512 + p` of the embedding array, the column-tile window rows
`(t % 8) * 512 + q` of the same array, the row-label window the same rows of the labels seen as a column, and the
column-label window the entries `(t % 8) * 512 + q` of the labels seen as a row.  The labels' column and row are
reshapes of the one label vector, so both read the label vector at the entry's row or column number.
-/

set_option maxRecDepth 16384

noncomputable section

namespace Cert.KernelIdeal.Blocks

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Hand

variable {F : FTy → Type} [FloatOps F]

/-- The index maps over the grid: the row-tile, row-label and output windows sit at block `(t / 8, 0)`, the column-tile
    window at block `(t % 8, 0)` and the column-label window at block `(0, t % 8)`. -/
theorem idx_facts : ∀ t : Fin cfg0.N,
    win0_0.index t (0 : Fin 2) = t.val / 8 ∧ win0_0.index t (1 : Fin 2) = 0
    ∧ win0_1.index t (0 : Fin 2) = t.val % 8 ∧ win0_1.index t (1 : Fin 2) = 0
    ∧ win0_2.index t (0 : Fin 2) = t.val / 8 ∧ win0_2.index t (1 : Fin 2) = 0
    ∧ win0_3.index t (0 : Fin 2) = 0 ∧ win0_3.index t (1 : Fin 2) = t.val % 8
    ∧ win0_4.index t (0 : Fin 2) = t.val / 8 ∧ win0_4.index t (1 : Fin 2) = 0 :=
  (by decide +kernel : ∀ t : Fin grid0.N, _)

/-- A row of a tile lies inside the array: `b * 512 + p < 4096` for a block number `b < 8` and `p < 512`. -/
theorem row_lt {b p : ℕ} (hb : b < 8) (hp : p < 512) : b * 512 + p < 4096 := by omega

/-- The row tile of position `t` is below 8. -/
theorem div_lt (t : Fin cfg0.N) : t.val / 8 < 8 := by
  have : t.val < 64 := t.isLt
  omega

/-- The column tile of position `t` is below 8. -/
theorem mod_lt (t : Fin cfg0.N) : t.val % 8 < 8 := Nat.mod_lt _ (by norm_num)

/-! ## The four input blocks -/

section Blocks

variable (V : (c : Dev nD) → (b : Ref sig .tc) → Buf (Elt F) ((c : Thread nD τ).loc b))

/-- **The row-tile block** at `(p, d)`: row `(t / 8) * 512 + p` of the embedding array, feature `d`. -/
theorem iblk0_apply (c : Dev nD) (t : Fin cfg0.N) (p d : Fin 512) :
    iblk V c 0 t (ix2 p d) = V c main_arg0 (ix2 (⟨(t.val / 8) * 512 + p.val, row_lt (div_lt t) p.isLt⟩ : Fin 4096) d) := by
  obtain ⟨e00, e01, -⟩ := idx_facts t
  unfold iblk
  show V c main_arg0 (((cfg0.win 0).blk t).view.emb (ix2 p d)) = _
  refine congrArg (V c main_arg0) ?_
  funext a; apply Fin.ext
  match a with
  | ⟨0, _⟩ => show win0_0.index t (0 : Fin 2) * 512 + 1 * p.val = t.val / 8 * 512 + p.val; omega
  | ⟨1, _⟩ => show win0_0.index t (1 : Fin 2) * 512 + 1 * d.val = d.val; omega

/-- **The column-tile block** at `(q, d)`: row `(t % 8) * 512 + q` of the embedding array, feature `d`. -/
theorem iblk1_apply (c : Dev nD) (t : Fin cfg0.N) (q d : Fin 512) :
    iblk V c 1 t (ix2 q d) = V c main_arg0 (ix2 (⟨(t.val % 8) * 512 + q.val, row_lt (mod_lt t) q.isLt⟩ : Fin 4096) d) := by
  obtain ⟨-, -, e10, e11, -⟩ := idx_facts t
  unfold iblk
  show V c main_arg0 (((cfg0.win 1).blk t).view.emb (ix2 q d)) = _
  refine congrArg (V c main_arg0) ?_
  funext a; apply Fin.ext
  match a with
  | ⟨0, _⟩ => show win0_1.index t (0 : Fin 2) * 512 + 1 * q.val = t.val % 8 * 512 + q.val; omega
  | ⟨1, _⟩ => show win0_1.index t (1 : Fin 2) * 512 + 1 * d.val = d.val; omega

/-- **The row-label block** at `(p, 0)`: entry `(t / 8) * 512 + p` of the labels' column. -/
theorem iblk2_apply (c : Dev nD) (t : Fin cfg0.N) (p : Fin 512) :
    iblk V c 2 t (ix2 p (0 : Fin 1))
      = V c main_v0 (ix2 (⟨(t.val / 8) * 512 + p.val, row_lt (div_lt t) p.isLt⟩ : Fin 4096) (0 : Fin 1)) := by
  obtain ⟨-, -, -, -, e20, e21, -⟩ := idx_facts t
  unfold iblk
  show V c main_v0 (((cfg0.win 2).blk t).view.emb (ix2 p (0 : Fin 1))) = _
  refine congrArg (V c main_v0) ?_
  funext a; apply Fin.ext
  match a with
  | ⟨0, _⟩ => show win0_2.index t (0 : Fin 2) * 512 + 1 * p.val = t.val / 8 * 512 + p.val; omega
  | ⟨1, _⟩ => show win0_2.index t (1 : Fin 2) * 1 + 1 * 0 = 0; omega

/-- **The column-label block** at `(0, q)`: entry `(t % 8) * 512 + q` of the labels' row. -/
theorem iblk3_apply (c : Dev nD) (t : Fin cfg0.N) (q : Fin 512) :
    iblk V c 3 t (ix2 (0 : Fin 1) q)
      = V c main_v1 (ix2 (0 : Fin 1) (⟨(t.val % 8) * 512 + q.val, row_lt (mod_lt t) q.isLt⟩ : Fin 4096)) := by
  obtain ⟨-, -, -, -, -, -, e30, e31, -⟩ := idx_facts t
  unfold iblk
  show V c main_v1 (((cfg0.win 3).blk t).view.emb (ix2 (0 : Fin 1) q)) = _
  refine congrArg (V c main_v1) ?_
  funext a; apply Fin.ext
  match a with
  | ⟨0, _⟩ => show win0_3.index t (0 : Fin 2) * 1 + 1 * 0 = 0; omega
  | ⟨1, _⟩ => show win0_3.index t (1 : Fin 2) * 512 + 1 * q.val = t.val % 8 * 512 + q.val; omega

end Blocks

/-! ## The arrays at the region's entry -/

section Entry

open Cert.KernelIdeal.KLaunch

variable (m : (ℓ : Loc nD τ sig) → Buf (Elt F) ℓ) (ρ : Dev nD → PrngReg)

/-- At the region's entry the embedding array is as launched: neither reshape writes it. -/
theorem V1_main_arg0 (c : Dev nD) : V1 m ρ c main_arg0 = m ((c : Thread nD τ).loc main_arg0) :=
  (StableHlo.after_of_forall_not_mem (b := Proc.devRef .tc main_arg0) _ _ (List.forall_iff_forall_mem.mp (by
      simp only [hostOps0, List.Forall, StableHlo.reshape_writes, Finset.mem_singleton]
      repeat' apply And.intro
      all_goals exact StableHlo.devRef_ne_of_ne (by decide)))).trans rfl

/-- At the region's entry the labels' column is the launched label vector cast to `[4096, 1]`. -/
theorem V1_main_v0 (c : Dev nD) :
    (V1 m ρ c main_v0 : S4096x1.Idx → Elt F .i32)
      = shapeCast S4096x1 (m ((c : Thread nD τ).loc main_arg1) : S4096.Idx → Elt F .i32) shapeCasts_S4096_S4096x1 := by
  show StableHlo.after hostOps0 (W0 m ρ c) (Proc.devRef .tc main_v0) = _
  after_results
  rfl

/-- At the region's entry the labels' row is the launched label vector cast to `[1, 4096]`. -/
theorem V1_main_v1 (c : Dev nD) :
    (V1 m ρ c main_v1 : S1x4096.Idx → Elt F .i32)
      = shapeCast S1x4096 (m ((c : Thread nD τ).loc main_arg1) : S4096.Idx → Elt F .i32) shapeCasts_S4096_S1x4096 := by
  show StableHlo.after hostOps0 (W0 m ρ c) (Proc.devRef .tc main_v1) = _
  after_results
  rfl

/-- **The labels' column at `(r, 0)`** is the label of row `r`. -/
theorem V1_main_v0_apply (c : Dev nD) (r : Fin 4096) :
    V1 m ρ c main_v0 (ix2 r (0 : Fin 1)) = m ((c : Thread nD τ).loc main_arg1) (ix1 r) :=
  (congrFun (V1_main_v0 m ρ c) (ix2 r (0 : Fin 1))).trans (ColumnForms.shapeCast_a_a1_apply _ _ r 0)

/-- **The labels' row at `(0, k)`** is the label of row `k`. -/
theorem V1_main_v1_apply (c : Dev nD) (k : Fin 4096) :
    V1 m ρ c main_v1 (ix2 (0 : Fin 1) k) = m ((c : Thread nD τ).loc main_arg1) (ix1 k) :=
  (congrFun (V1_main_v1 m ρ c) (ix2 (0 : Fin 1) k)).trans (shapeCast_a_1a_apply _ _ 0 k)

end Entry

end Cert.KernelIdeal.Blocks
-- ==== Proof.KArray.lean ====
import proofs.«115931_j57277683859994_1_alg».proof.Proof.KBody
import proofs.«115931_j57277683859994_1_alg».proof.Proof.KBlocks
import Idealize.ShloMosaic.Lib.Pipeline.Value

/-!
# From the output blocks to the output array

The output array has one entry per row of the 4096.  Its block of 512 rows for row tile `i` is stored once, at the
last column tile of that row of tiles (linear position `t` with `t % 8 = 7`, row tile `t / 8`).  The eight stored
blocks tile the array, so if every stored block holds, at its row `p`, the value `g` of the array's row
`(t / 8) * 512 + p`, then the array ends holding `g` at every row.
-/

set_option maxRecDepth 16384

noncomputable section

namespace Cert.KernelIdeal.Blocks

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Hand

variable {F : FTy → Type} [FloatOps F]

variable (V : (c : Dev nD) → (b : Ref sig .tc) → Buf (Elt F) ((c : Thread nD τ).loc b))

/-- An index of the output array is in position `t`'s block iff each coordinate is in the block's range on its axis. -/
theorem mem_blk4 (t : Fin cfg0.N) (i : S4096x1.Idx) :
    i ∈ ((cfg0.win 4).blk t).view.set
      ↔ ∀ a : Fin 2, win0_4.index t a * S512x1.size a ≤ (i a).val ∧ (i a).val < win0_4.index t a * S512x1.size a + S512x1.size a := by
  show i ∈ ((View.whole main_v2).slice (win0_4.rect t)).set ↔ _
  rw [View.set_slice_whole, Rect.mem_set_unit]
  exact Iff.rfl

/-- What a last column tile writes back is its block of the array `i ↦ g (i 0)`, when the body's output there holds
    `g` at the block's rows. -/
theorem flushed4_eq (c : Dev nD) (g : Fin 4096 → Elt F .f32)
    (hout : ∀ (t : Fin cfg0.N), t.val % 8 = 7 → ∀ p : Fin 512,
      (stAt V c t.val t.isLt).out (ix2 p (0 : Fin 1)) = g ⟨(t.val / 8) * 512 + p.val, row_lt (div_lt t) p.isLt⟩)
    (t : Fin cfg0.N) (hf : (cfg0.win 4).flush t = true) :
    (dat V c).flushed 4 t = ((cfg0.win 4).blk t).view.read (Elt F) (fun i : S4096x1.Idx => g (i 0)) := by
  show (dat V c).after 4 t = _
  rw [after4]
  have h7 : t.val % 8 = 7 := (flush0_4 t).mp hf
  obtain ⟨-, -, -, -, -, -, -, -, e40, e41⟩ := idx_facts t
  refine funext fun (y : S512x1.Idx) => ?_
  have hy1 : y 1 = (0 : Fin 1) := Fin.ext (by have := idx2_lt1 y; show (y 1).val = 0; omega)
  obtain ⟨p, rfl⟩ : ∃ p : Fin 512, y = ix2 p (0 : Fin 1) := ⟨y 0, (eq_ix2 y).trans (congrArg (ix2 (y 0)) hy1)⟩
  refine (hout t h7 p).trans ?_
  show g _ = g ((((cfg0.win 4).blk t).view.emb (ix2 p (0 : Fin 1))) 0)
  refine congrArg g (Fin.ext ?_)
  show t.val / 8 * 512 + p.val = win0_4.index t (0 : Fin 2) * 512 + 1 * p.val
  omega

/-- Every row of the output array is in the block some last column tile writes back. -/
theorem cover4 (i : S4096x1.Idx) : ∃ t : Fin cfg0.N, (cfg0.win 4).flush t = true ∧ i ∈ ((cfg0.win 4).blk t).view.set := by
  have hi0 : (i 0).val < 4096 := idx2_lt0 i
  have hi1 : (i 1).val < 1 := idx2_lt1 i
  have ht : 8 * ((i 0).val / 512) + 7 < 64 := by omega
  let t : Fin cfg0.N := ⟨8 * ((i 0).val / 512) + 7, ht⟩
  have htv : t.val = 8 * ((i 0).val / 512) + 7 := rfl
  refine ⟨t, (flush0_4 t).mpr (by rw [htv]; omega), ?_⟩
  obtain ⟨-, -, -, -, -, -, -, -, e40, e41⟩ := idx_facts t
  rw [mem_blk4]
  intro a
  match a with
  | ⟨0, _⟩ =>
    show win0_4.index t (0 : Fin 2) * 512 ≤ (i 0).val ∧ (i 0).val < win0_4.index t (0 : Fin 2) * 512 + 512
    rw [e40, htv]; omega
  | ⟨1, _⟩ =>
    show win0_4.index t (1 : Fin 2) * 1 ≤ (i 1).val ∧ (i 1).val < win0_4.index t (1 : Fin 2) * 1 + 1
    rw [e41]; omega

/-- **The output array after the run**: `g` at every row, when each last column tile's output block holds `g` at its
    rows. -/
theorem final_out (c : Dev nD) (g : Fin 4096 → Elt F .f32)
    (hout : ∀ (t : Fin cfg0.N), t.val % 8 = 7 → ∀ p : Fin 512,
      (stAt V c t.val t.isLt).out (ix2 p (0 : Fin 1)) = g ⟨(t.val / 8) * 512 + p.val, row_lt (div_lt t) p.isLt⟩) :
    (dat V c).arrAt 4 cfg0.N = (fun i : S4096x1.Idx => g (i 0)) :=
  (dat V c).arrAt_eq_of_cover 4 (fun i : S4096x1.Idx => g (i 0)) (fun t hf => flushed4_eq V c g hout t hf) cover4

end Cert.KernelIdeal.Blocks
-- ==== Proof.KRun.lean ====
/- The kernel program's run: the launch of its one pipelined region between the two
   stretches of host operations, instantiated at the proof data whose body obligation is proved beside it. -/
import proofs.«115931_j57277683859994_1_alg».proof.Proof.KLaunch
import proofs.«115931_j57277683859994_1_alg».proof.Proof.KBody

noncomputable section

namespace Cert.KernelIdeal.KRun

open Idealize.ShloMosaic Idealize.ShloMosaic.TcCoe
open Idealize.SL Idealize.SL.RA Idealize.SL.BI
open scoped Idealize.SL.BI
open Idealize.SL.BI.BIBase Idealize.SL.Sem
open Cert.KernelIdeal.Gen Cert.KernelIdeal.KLaunch

variable {F : FTy → Type} [FloatOps F]
variable (m : (ℓ : Loc nD τ sig) → Buf (Elt F) ℓ) (ρ : Dev nD → PrngReg)

/-- The region's proof data on every core, at the contents the two reshapes leave. -/
abbrev kdat : (c : Dev nD) → Pipeline.Dat τ (Elt F) Unit ℕ (UR sig nD τ) ℕ cfg0 c := fun c => Hand.dat (V1 m ρ) c

/-- The proof data have everything the launch asks. -/
theorem launchData : LaunchData m ρ (kdat m ρ) where
  hA c w := Hand.A_eq (V1 m ρ) c w
  hq c := ⟨rfl, rfl, rfl, rfl⟩
  howed c t := rfl
  hbody c := Hand.body_obligation (V1 m ρ) c
  hinΦ c := Hand.hin (V1 m ρ) c
  houtΦ c := Hand.hout (V1 m ρ) c
  hin_arr c w hw := Hand.arrAt_input (V1 m ρ) c w hw

/-- The contents of every unscoped buffer at the program's end. -/
abbrev Wend : Dev nD → Valuation τ sig (Elt F) := W3 m ρ (kdat m ρ)

/-- The run: the program terminates without fault from any memory with zero counters; at the end the result buffer
    holds what the closing host operations compute from the region's exit contents, and both arguments are as launched. -/
theorem run : θ_run defs (onTc (τ := τ) (main (F := F))) ⟨m, fun _ => 0, ρ⟩ (fun r => ∀ c : Dev nD,
      r.2.mem ((c : Thread nD τ).loc main_v4) = Wend m ρ c (Proc.devRef .tc main_v4)
      ∧ r.2.mem ((c : Thread nD τ).loc main_arg0) = m ((c : Thread nD τ).loc main_arg0)
      ∧ r.2.mem ((c : Thread nD τ).loc main_arg1) = m ((c : Thread nD τ).loc main_arg1)) :=
  run_main_result (launchData m ρ)

/-- The region's exit contents at the output array are the write-backs' fold. -/
theorem W2_out (c : Dev nD) : W2 m ρ (kdat m ρ) c (Proc.devRef .tc main_v2) = (kdat m ρ c).arrAt 4 cfg0.N :=
  W2_v2 m ρ (kdat m ρ) c

end Cert.KernelIdeal.KRun

end
-- ==== Proof.KTail.lean ====
/- What the program's result buffer holds at the end, read through the four closing host operations: the sum of the
   region's output array divided by the constant 4096. -/
import proofs.«115931_j57277683859994_1_alg».proof.Proof.KRun

noncomputable section

namespace Cert.KernelIdeal.KRun

open Idealize.ShloMosaic Idealize.ShloMosaic.TcCoe
open Idealize.SL Idealize.SL.Sem
open Cert.KernelIdeal.Gen Cert.KernelIdeal.KLaunch

variable {F : FTy → Type} [FloatOps F]
variable (m : (ℓ : Loc nD τ sig) → Buf (Elt F) ℓ) (ρ : Dev nD → PrngReg)

/-- The result: the closing operations write a zero, reduce the output array by addition from it, write the constant
    4096 and divide the sum by it; none of them writes the output array, which holds the region's write-backs. -/
theorem Wend_result (c : Dev nD) : Wend m ρ c (Proc.devRef .tc main_v4)
    = Host.divf (Host.reduceAdd ((kdat m ρ c).arrAt 4 cfg0.N) (constant S_ .f32 0x00000000#32) reducesTo_S4096x1_S_d0_1 h_S_)
        (constant S_ .f32 0x45800000#32) := by
  show StableHlo.after hostOps1 _ (Proc.devRef .tc main_v4) = _
  after_results
  rw [W2_out]

end Cert.KernelIdeal.KRun

end
-- ==== Proof.LibTail.lean ====
import Mathlib
import Idealize.ShloMosaic.PureOps.Ideal
import Idealize.ShloMosaic.PureOps.Ideal.Laws
import Idealize.ShloMosaic.Lib.ValueIdx

/-!
# A total sum of a one-column array

A host reduction with an add body over BOTH axes of an `[n, 1]` array into a scalar is, at the ideal values, the
initial value plus the sum over the `n` rows of the array's entry in its single column: the column axis has one
coordinate, so the sum over all index pairs collapses to the sum over the rows.
-/

noncomputable section

namespace Cert.LibTail

open Idealize.ShloMosaic Idealize.ShloMosaic.ValueIdx

/-- A sum over the index set of an `[n, 1]` array is the sum over its rows of the entry in column zero. -/
theorem sum_idx_col {M : Type*} [AddCommMonoid M] {n : ℕ} (f : (⟨2, ![n, 1]⟩ : Shape).Idx → M) :
    ∑ i, f i = ∑ r : Fin n, f (ix2 r 0) := by
  rw [sum_idx2]
  refine Finset.sum_congr rfl fun r _ => ?_
  rw [Fin.sum_univ_one]

/-- **The host's total sum of an `[n, 1]` array.**  The float reduction with an add body over both axes, read at the
    scalar result's one index, is the initial scalar plus the sum over the rows. -/
theorem hostReduceAdd_col {n : ℕ} (y : FVec Ideal (⟨2, ![n, 1]⟩ : Shape) .f32)
    (init : (⟨0, ![]⟩ : Shape).Idx → Ideal .f32)
    (h1 : (⟨2, ![n, 1]⟩ : Shape).ReducesTo [0, 1] (⟨0, ![]⟩ : Shape)) (h2 : 0 < (⟨0, ![]⟩ : Shape).numel)
    (j : (⟨0, ![]⟩ : Shape).Idx) :
    Host.reduceAdd y init h1 h2 j = init ix0 + ∑ r : Fin n, y (ix2 r 0) := by
  show Ideal.hostReduceAdd h1 y (init (Shape.Idx.first h2)) j = _
  rw [Ideal.hostReduceAdd_total h1 (fun b => b.elim0), sum_idx_col, eq_ix0 (Shape.Idx.first h2)]

/-- The same at 4096 rows. -/
theorem hostReduceAdd_col_4096 (y : FVec Ideal (⟨2, ![4096, 1]⟩ : Shape) .f32)
    (init : (⟨0, ![]⟩ : Shape).Idx → Ideal .f32)
    (h1 : (⟨2, ![4096, 1]⟩ : Shape).ReducesTo [0, 1] (⟨0, ![]⟩ : Shape)) (h2 : 0 < (⟨0, ![]⟩ : Shape).numel)
    (j : (⟨0, ![]⟩ : Shape).Idx) :
    Host.reduceAdd y init h1 h2 j = init ix0 + ∑ r : Fin 4096, y (ix2 r 0) :=
  hostReduceAdd_col y init h1 h2 j

end Cert.LibTail
-- ==== Proof.KTailValue.lean ====
import proofs.«115931_j57277683859994_1_alg».proof.KernelIdeal
import proofs.«115931_j57277683859994_1_alg».proof.Proof.Spec
import proofs.«115931_j57277683859994_1_alg».proof.Proof.LibTail

/-!
# The closing host operations, read at the ideal values

After the tiled region the output array holds the per-row value of every row in its single column.  The two closing
operations sum that column from zero over both axes and divide the total by 4096: the mean over the rows of the
per-row value, which is the loss.
-/

noncomputable section

namespace Cert.KernelIdeal.TailValue

open Idealize.ShloMosaic Idealize.ShloMosaic.ValueIdx

/-- **The closing operations on the per-row column give the loss**: the total of the column `i ↦ perRow (i 0)` from the
    zero scalar, divided by the scalar 4096, is the loss at the scalar's one index. -/
theorem tail_value (x : Cert.Spec.XArr) (tg : Cert.Spec.TArr)
    (h1 : Cert.KernelIdeal.S4096x1.ReducesTo [0, 1] Cert.KernelIdeal.S_) (h2 : 0 < Cert.KernelIdeal.S_.numel) :
    Host.divf (F := Ideal)
        (Host.reduceAdd (F := Ideal) (fun i : Cert.KernelIdeal.S4096x1.Idx => Cert.Spec.perRow x tg (i 0))
          (constant (F := Ideal) Cert.KernelIdeal.S_ .f32 0x00000000#32) h1 h2)
        (constant (F := Ideal) Cert.KernelIdeal.S_ .f32 0x45800000#32)
      = fun _ => Cert.Spec.loss x tg := by
  funext j
  show Ideal.div
      (Host.reduceAdd (F := Ideal) (fun i : Cert.KernelIdeal.S4096x1.Idx => Cert.Spec.perRow x tg (i 0))
        (constant (F := Ideal) Cert.KernelIdeal.S_ .f32 0x00000000#32) h1 h2 j)
      (Ideal.ofBits .f32 0x45800000#32) = _
  rw [Cert.LibTail.hostReduceAdd_col_4096]
  rfl

end Cert.KernelIdeal.TailValue
-- ==== Proof.KFinal.lean ====
/-
  The tiled loss kernel's result, at the exact-arithmetic instance, is the specification's loss of the argument
  arrays. The four blocks at a position are rows and columns of the inputs and their labels; so every row's entry of
  the output array is that row's term; the program's last two host operations sum the 4096 terms and divide by 4096.
-/
import proofs.«115931_j57277683859994_1_alg».proof.Proof.KValue
import proofs.«115931_j57277683859994_1_alg».proof.Proof.KBlocks
import proofs.«115931_j57277683859994_1_alg».proof.Proof.KArray
import proofs.«115931_j57277683859994_1_alg».proof.Proof.KRun
import proofs.«115931_j57277683859994_1_alg».proof.Proof.KTail
import proofs.«115931_j57277683859994_1_alg».proof.Proof.KTailValue

set_option maxRecDepth 16384

noncomputable section

namespace Cert.KernelIdeal.Final

open Idealize.ShloMosaic Idealize.ShloMosaic.TcCoe Idealize.ShloMosaic.ValueIdx
open Idealize.SL Idealize.SL.Sem
open Cert.KernelIdeal Cert.KernelIdeal.Gen Cert.KernelIdeal.Hand

variable (m : (ℓ : Loc nD τ sig) → Buf (Elt Ideal) ℓ) (ρ : Dev nD → PrngReg) (c : Dev nD)

/-- At the region's entry the four windows read the argument arrays: the inputs directly, the labels through the
    two reshapes that come before the region. -/
theorem reads : HandValue.Reads (KLaunch.V1 m ρ) c (m ((c : Thread nD τ).loc main_arg0)) (m ((c : Thread nD τ).loc main_arg1)) where
  r0 t p d := (Blocks.iblk0_apply (KLaunch.V1 m ρ) c t p d).trans (congrFun (Blocks.V1_main_arg0 m ρ c) _)
  r1 t q d := (Blocks.iblk1_apply (KLaunch.V1 m ρ) c t q d).trans (congrFun (Blocks.V1_main_arg0 m ρ c) _)
  r2 t p := (Blocks.iblk2_apply (KLaunch.V1 m ρ) c t p).trans (Blocks.V1_main_v0_apply m ρ c _)
  r3 t q := (Blocks.iblk3_apply (KLaunch.V1 m ρ) c t q).trans (Blocks.V1_main_v1_apply m ρ c _)

/-- The output array after the region: row r holds the loss's term of row r. -/
theorem out_array : (KRun.kdat m ρ c).arrAt 4 cfg0.N
    = fun i : S4096x1.Idx => Cert.Spec.perRow (m ((c : Thread nD τ).loc main_arg0)) (m ((c : Thread nD τ).loc main_arg1)) (i 0) :=
  Blocks.final_out (KLaunch.V1 m ρ) c (fun r => Cert.Spec.perRow (m ((c : Thread nD τ).loc main_arg0)) (m ((c : Thread nD τ).loc main_arg1)) r)
    (fun t h7 p => HandValue.out_val (reads m ρ c) t h7 p)

/-- The program's result: the loss. -/
theorem result : KRun.Wend m ρ c (Proc.devRef .tc main_v4)
    = fun _ => Cert.Spec.loss (m ((c : Thread nD τ).loc main_arg0)) (m ((c : Thread nD τ).loc main_arg1)) := by
  rw [KRun.Wend_result, out_array]
  exact TailValue.tail_value _ _ _ _

/-- THE KERNEL PROGRAM'S RUN at the exact-arithmetic instance: it terminates with the loss of its arguments in its
    result and its arguments unchanged. -/
theorem kernel_run (g : Dev nD → PrngReg) :
    θ_run (defs (F := Ideal)) (onTc (τ := τ) (main (F := Ideal))) ⟨m, fun _ => 0, g⟩ (fun r => ∀ c : Dev nD,
      r.2.mem ((c.tc : Thread nD τ).loc main_v4) = (fun _ => Cert.Spec.loss (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run (defs (F := Ideal)) _ _).mono (fun r h c => ⟨(h c).1.trans (result m g c), (h c).2⟩) (KRun.run (F := Ideal) m g)

end Cert.KernelIdeal.Final

end
-- ==== Proof.BLaunch.lean ====
/- The launch of the kernel program's one pipelined region between its two stretches of host operations, for any
   proof data with the properties stated as parameters below. Two of the region's five windows read the same array
   (the first argument), so the buffers behind the arrays are four, not five: at the region's entry that array's
   points-to is split along the two halves of the full share, one half per window, and at the exit the halves are
   joined back. Everything else follows the uniform road of a region between host stretches: the buffer contents
   at each boundary, the region's record, the host segments, and the run. -/
import proofs.«115931_j57277683859994_1_alg».proof.Proof.Gen.Kernel.Launch
import Idealize.ShloMosaic.Lib.Pipeline.FrameBody
import Idealize.ShloMosaic.Lib.Pipeline.RegionsLoop
import Idealize.ShloMosaic.Lib.Pipeline.FrameSuffix
import Idealize.ShloMosaic.Lib.Tactic

noncomputable section

namespace Cert.Kernel.KLaunch

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen
open PCS

variable {F : FTy → Type} [FloatOps F]

local notation "𝕄" => MT nD τ sig Unit (Elt F) ℕ (UR sig nD τ) ℕ

/-- The two halves of the full share. -/
abbrev qL : PosShare TreeShare := fullShare.left
abbrev qR : PosShare TreeShare := fullShare.right
theorem full_mem : fullShare ∈ qL ·? qR := PosShare.mem_left_op_right fullShare

theorem arrImage : Finset.univ.image (Pipeline.arrRef spec0) = [main_arg0, main_v0, main_v1, main_v2].toFinset := by decide

section A
variable (c : Dev nD) (V : (b : Ref sig .tc) → Buf (Elt F) ((c : Thread nD τ).loc b))
  (dat : Dat τ (Elt F) Unit ℕ (UR sig nD τ) ℕ cfg0 c)

/-- The distinct buffers behind the five windows' arrays, one by one: the first argument (which two windows
    read), the two reshaped targets and the output. -/
theorem arrBufs0_eq : (Pipeline.arrBufs spec0 c V : sProp 𝕄)
    = iprop((((c : Thread nD τ).loc main_arg0) ↦{fullShare} V main_arg0) ∗ (((c : Thread nD τ).loc main_v0) ↦{fullShare} V main_v0)
        ∗ (((c : Thread nD τ).loc main_v1) ↦{fullShare} V main_v1) ∗ (((c : Thread nD τ).loc main_v2) ↦{fullShare} V main_v2)) := by
  unfold Pipeline.arrBufs
  exact bigSep_eq_bigSepL_of_eq [main_arg0, main_v0, main_v1, main_v2] arrImage (by decide) _

/-- The pipeline's arrays at contents G, window by window, for proof data whose first two windows hold the
    two halves of the full share and whose other inputs hold the full share. -/
theorem arrays0_eq (hq : dat.q 0 = qL ∧ dat.q 1 = qR ∧ dat.q 2 = fullShare ∧ dat.q 3 = fullShare)
    (G : (w : Fin cfg0.W) → Buf (Elt F) ((cfg0.win w).arr.view.loc (c : Thread nD τ))) :
    (dat.arrays G : sProp 𝕄)
    = iprop((((c : Thread nD τ).loc main_arg0) ↦{qL} G 0) ∗ (((c : Thread nD τ).loc main_arg0) ↦{qR} G 1)
        ∗ (((c : Thread nD τ).loc main_v0) ↦{fullShare} G 2) ∗ (((c : Thread nD τ).loc main_v1) ↦{fullShare} G 3)
        ∗ (((c : Thread nD τ).loc main_v2) ↦{fullShare} G 4)) := by
  unfold Pipeline.Dat.arrays
  rw [bigSep_W0]
  have s0 : dat.share 0 = qL := (show dat.share 0 = dat.q 0 from rfl).trans hq.1
  have s1 : dat.share 1 = qR := (show dat.share 1 = dat.q 1 from rfl).trans hq.2.1
  have s2 : dat.share 2 = fullShare := (show dat.share 2 = dat.q 2 from rfl).trans hq.2.2.1
  have s3 : dat.share 3 = fullShare := (show dat.share 3 = dat.q 3 from rfl).trans hq.2.2.2
  have s4 : dat.share 4 = fullShare := rfl
  rw [s0, s1, s2, s3, s4]
  simp only [View.set_whole]

/-- ENTRY: the buffers behind the arrays, each whole at the full share at contents V, are the pipeline's arrays
    at the proof data's entry contents: the first argument's points-to splits along the two halves of the full
    share, one for each of the two windows that read it. -/
theorem entry_arrays (hA : ∀ w, dat.A w = V (Pipeline.arrRef spec0 w))
    (hq : dat.q 0 = qL ∧ dat.q 1 = qR ∧ dat.q 2 = fullShare ∧ dat.q 3 = fullShare) :
    (Pipeline.arrBufs spec0 c V : sProp 𝕄) ⊢ dat.arrays (dat.arrAt · 0) := by
  rw [arrBufs0_eq, arrays0_eq c dat hq]
  have a0 : dat.arrAt 0 0 = V main_arg0 := hA 0
  have a1 : dat.arrAt 1 0 = V main_arg0 := hA 1
  have a2 : dat.arrAt 2 0 = V main_v0 := hA 2
  have a3 : dat.arrAt 3 0 = V main_v1 := hA 3
  have a4 : dat.arrAt 4 0 = V main_v2 := hA 4
  rw [a0, a1, a2, a3, a4]
  iintro ⟨H0, H2, H3, H4⟩
  icases (pointsTo_share full_mem).1 $$ H0 with ⟨HL, HR⟩
  isplitl [HL]; · iexact HL
  isplitl [HR]; · iexact HR
  isplitl [H2]; · iexact H2
  isplitl [H3]; · iexact H3
  iexact H4

/-- EXIT: the pipeline's arrays at contents G, where every window's contents are what V' holds at the window's
    array, are the buffers behind the arrays whole at the full share at V': the two halves of the first
    argument's points-to join back along the full share. -/
theorem exit_arrays (V' : (b : Ref sig .tc) → Buf (Elt F) ((c : Thread nD τ).loc b))
    (hq : dat.q 0 = qL ∧ dat.q 1 = qR ∧ dat.q 2 = fullShare ∧ dat.q 3 = fullShare)
    (G : (w : Fin cfg0.W) → Buf (Elt F) ((cfg0.win w).arr.view.loc (c : Thread nD τ)))
    (hG : ∀ w, G w = V' (Pipeline.arrRef spec0 w)) :
    (dat.arrays G : sProp 𝕄) ⊢ Pipeline.arrBufs spec0 c V' := by
  rw [arrBufs0_eq, arrays0_eq c dat hq]
  have a0 : G 0 = V' main_arg0 := hG 0
  have a1 : G 1 = V' main_arg0 := hG 1
  have a2 : G 2 = V' main_v0 := hG 2
  have a3 : G 3 = V' main_v1 := hG 3
  have a4 : G 4 = V' main_v2 := hG 4
  rw [a0, a1, a2, a3, a4]
  iintro ⟨HL, HR, H2, H3, H4⟩
  isplitl [HL HR]
  · iapply (pointsTo_share full_mem).2
    isplitl [HL]; · iexact HL
    iexact HR
  isplitl [H2]; · iexact H2
  isplitl [H3]; · iexact H3
  iexact H4

end A

/-! # The run: the buffer contents at each boundary of the program's three segments -/

variable (m : (ℓ : Loc nD τ sig) → Buf (Elt F) ℓ) (ρ : Dev nD → PrngReg)

/-- Core c's buffers at launch. -/
abbrev W0 : Dev nD → Valuation τ sig (Elt F) := fun c b => (s₀ m ρ).mem ((c : Dev nD), b)
/-- After the two reshapes (the region's entry). -/
abbrev W1 : Dev nD → Valuation τ sig (Elt F) := fun c => StableHlo.after hostOps0 (W0 m ρ c)
/-- The same read at the TensorCore's references (what the region's proof data take). -/
abbrev V1 : (c : Dev nD) → (b : Ref sig .tc) → Buf (Elt F) ((c : Thread nD τ).loc b) := fun c b => W1 m ρ c b

section Run

variable (dat : (c : Dev nD) → Dat τ (Elt F) Unit ℕ (UR sig nD τ) ℕ cfg0 c)

/-- What the run asks of the proof data: the arrays are read off the entry contents; the two windows on the first
    argument hold the two halves of the full share and the other inputs the full share; the body owes nothing; the
    body obligation; the invariant starts from and ends in the scoped rest beside the generator register; and an
    input's array is at the end what it was at the start. -/
structure LaunchData : Prop where
  hA : ∀ c w, (dat c).A w = V1 m ρ c (Pipeline.arrRef spec0 w)
  hq : ∀ c, (dat c).q 0 = qL ∧ (dat c).q 1 = qR ∧ (dat c).q 2 = fullShare ∧ (dat c).q 3 = fullShare
  howed : ∀ c t, (dat c).owed t = 0
  hbody : ∀ c, BodyObligation (dat c) (defs₀ (F := F)) Variants.none () Set.univ
  hinΦ : ∀ c, (Pipeline.ΦA spec0 c : sProp 𝕄) ⊢ (dat c).Φ 0
  houtΦ : ∀ c, (dat c).Φ (Fin.last cfg0.N) ⊢ (Pipeline.ΦA spec0 c : sProp 𝕄)
  hin_arr : ∀ c (w : Fin cfg0.W), w ≠ 4 → (dat c).arrAt w cfg0.N = (dat c).A w

/-- At the region's exit: the output array at what the write-backs leave, every other buffer as entered. -/
def W2 (c : Dev nD) : Valuation τ sig (Elt F) :=
  Function.update (W1 m ρ c) (Proc.devRef .tc main_v2) ((dat c).arrAt 4 cfg0.N)
theorem W2_v2 (c : Dev nD) : W2 m ρ dat c (Proc.devRef .tc main_v2) = (dat c).arrAt 4 cfg0.N := by
  unfold W2; exact Function.update_self _ _ _
theorem W2_of_ne (c : Dev nD) (b : Ref sig .tc) (hb : b ≠ main_v2) :
    W2 m ρ dat c (Proc.devRef .tc b) = W1 m ρ c (Proc.devRef .tc b) := by
  unfold W2; exact Function.update_of_ne (StableHlo.devRef_ne_of_ne hb) _ _
/-- The same read at the TensorCore's references (the region's exit contents). -/
abbrev V2 : (c : Dev nD) → (b : Ref sig .tc) → Buf (Elt F) ((c : Thread nD τ).loc b) := fun c b => W2 m ρ dat c b
/-- After the four closing host operations (the program's end). -/
abbrev W3 : Dev nD → Valuation τ sig (Elt F) := fun c => StableHlo.after hostOps1 (W2 m ρ dat c)

variable {m ρ dat}

/-- At the exit every window's array holds what the exit contents say: an input what it held at entry, the output
    its write-backs. -/
theorem LaunchData.hF (h : LaunchData m ρ dat) (c : Dev nD) :
    ∀ w : Fin 5, (dat c).arrAt w cfg0.N = V2 m ρ dat c (Pipeline.arrRef spec0 w)
  | 0 => (h.hin_arr c 0 (by decide)).trans ((h.hA c 0).trans (W2_of_ne m ρ dat c main_arg0 (by decide)).symm)
  | 1 => (h.hin_arr c 1 (by decide)).trans ((h.hA c 1).trans (W2_of_ne m ρ dat c main_arg0 (by decide)).symm)
  | 2 => (h.hin_arr c 2 (by decide)).trans ((h.hA c 2).trans (W2_of_ne m ρ dat c main_v0 (by decide)).symm)
  | 3 => (h.hin_arr c 3 (by decide)).trans ((h.hA c 3).trans (W2_of_ne m ρ dat c main_v1 (by decide)).symm)
  | 4 => (W2_v2 m ρ dat c).symm
  | ⟨_ + 5, h⟩ => absurd h (Nat.not_lt.2 (Nat.le_add_left _ _))

variable (m ρ dat) in
/-- The buffers that are no window's array hold at the exit what they held at entry. -/
theorem unscopedRest_V2 (c : Dev nD) :
    (Pipeline.unscopedRest (Ix := Unit) (Name := ℕ) (U := UR sig nD τ) (Lvl := ℕ) spec0 c (V2 m ρ dat c) : sProp 𝕄)
      = Pipeline.unscopedRest spec0 c (V1 m ρ c) := by
  unfold Pipeline.unscopedRest
  exact bigSep_congr fun b hb => by
    rw [show V2 m ρ dat c b = V1 m ρ c b from W2_of_ne m ρ dat c b fun e =>
      (Finset.mem_sdiff.mp hb).2 (e ▸ Finset.mem_image.mpr ⟨4, Finset.mem_univ _, rfl⟩)]

/-! ## The proof data family and the thread state -/

/-- The prefetched tables' admissible contents: the pipeline has no table. -/
abbrev adm : (p : Fin 1) → (pcfgs (F := F) p).Adm := fun p => (cfgs p).toPCfg_adm
variable (dat) in
/-- The one pipeline's proof data. -/
def pdats : (p : Fin 1) → (c : Dev nD) → Dat τ (Elt F) Unit ℕ (UR sig nD τ) ℕ (Pipeline.pin (pcfgs (F := F)) adm p) c
  | ⟨0, _⟩ => fun c => dat c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its
    owed tallies, at nothing. -/
abbrev R (c : Dev nD) : sProp 𝕄 := iprop((∃ r, prngReg c r) ∗ ∃ W, owes (c : Thread nD τ) (0 : CellTallies nD τ sig Unit) W)
/-- The same before the region, where no wait has been recorded yet. -/
abbrev R₀ (c : Dev nD) : sProp 𝕄 := iprop((∃ r, prngReg c r) ∗ owes (c : Thread nD τ) (0 : CellTallies nD τ sig Unit) ∅)
/-- A host stretch as a segment: over the unscoped references from the contents W, R riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) (R : Dev nD → sProp 𝕄) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No operation of the opening stretch allocates a buffer. -/
theorem hostOps0_fresh : (hostOps0 : List (HloOp τ sig (Elt F))).Forall fun op => op.fresh = ∅ := by
  simp only [List.Forall]; repeat' constructor
/-- No operation of the closing stretch allocates a buffer. -/
theorem hostOps1_fresh : (hostOps1 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The region as a segment -/

set_option backward.isDefEq.respectTransparency.types false in
/-- The region over the thread state: entered from every unscoped buffer at W1, left at W2. The buffers behind its
    arrays split out of the unscoped buffers and, the first argument's along the two half shares, into the five
    windows' arrays; at the exit they are joined back at the exit contents. The generator register goes into the
    invariant and comes out; nothing is owed; the kernel has no semaphore of its own. -/
def reg0 (h : LaunchData m ρ dat) : Pipeline.RegionSeg (pcfgs (F := F)) adm (pdats dat) () defs₀ 𝒱₀ L lv 0 where
  win := winFacts₀0
  block_pos := block_pos0
  stage_whole := stage_whole0
  K := PEmpty
  osem k := k.elim
  ho := Pipeline.OwnSemFacts.none _
  hbody c := (h.hbody c).loose
  hwaits := Pipeline.hwaits_of_owed_zero _ _ _ _ L lv 0 fun c t => h.howed c t
  pre c := iprop(StableHlo.held (c : Thread nD τ) (Pipeline.ucRefs τ sig) (W1 m ρ c) ∗ R₀ c)
  post c := iprop(StableHlo.held (c : Thread nD τ) (Pipeline.ucRefs τ sig) (W2 m ρ dat c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit : (unscopedBufs c (V1 m ρ c) : sProp 𝕄)
        ⊢ iprop((pdats dat 0 c).arrays ((pdats dat 0 c).arrAt · 0) ∗ Pipeline.unscopedRest spec0 c (V1 m ρ c)) := by
      rw [Pipeline.unscopedBufs_split₀ cfgs 0 winFacts₀0.arr_unscoped c (V1 m ρ c)]
      exact sep_mono (entry_arrays c (V1 m ρ c) (dat c) (h.hA c) (h.hq c)) .rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      iexists ∅; isplitr; · ipureintro; simp
      rw [show (pdats dat 0 c).owed 0 = 0 from h.howed c 0]
      iexact HO
    isplitl [Hp]; · iexact Hp
    iexact Hrest
  hin c := by
    refine BIBase.Entails.trans ?_ (h.hinΦ c)
    unfold Pipeline.ΦA
    iintro ⟨Hp, -, Hr⟩
    isplitl [Hr]; · iexact Hr
    iexact Hp
  hout c := by
    rw [Pipeline.ownSems0_none]
    refine BIBase.Entails.trans (h.houtΦ c) ?_
    unfold Pipeline.ΦA
    iintro ⟨Hr, Hp⟩
    isplitl [Hp]; · iexact Hp
    isplitr; · iempintro
    iexact Hr
  hexit c := by
    have hjoin : iprop((pdats dat 0 c).arrays ((pdats dat 0 c).arrAt · cfg0.N) ∗ Pipeline.unscopedRest spec0 c (V1 m ρ c))
        ⊢ (unscopedBufs c (V2 m ρ dat c) : sProp 𝕄) := by
      rw [Pipeline.unscopedBufs_split₀ cfgs 0 winFacts₀0.arr_unscoped c (V2 m ρ dat c), unscopedRest_V2 m ρ dat c]
      exact sep_mono (exit_arrays c (dat c) (V2 m ρ dat c) (h.hq c) _ (h.hF c)) .rfl
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W
    rw [show (pdats dat 0 c).owed (Fin.last _) = 0 from h.howed c (Fin.last _)]
    iexact HO

/-! ## The program as segments, and the launch -/

variable (m ρ dat) in
/-- The program's three segments in order: the two reshapes from the launch contents, the region, the four closing
    operations from the region's exit contents. -/
abbrev segs (h : LaunchData m ρ dat) : List (Pipeline.Seg (pcfgs (F := F)) adm (pdats dat) () defs₀ 𝒱₀ L lv) :=
  [ .host (hseg hostOps0 hostOps0_sub hostOps0_fresh (W0 m ρ) R₀),
    .region (reg0 h),
    .host (hseg hostOps1 hostOps1_sub hostOps1_fresh (W2 m ρ dat) R) ]
/-- The program is the run of the segments. -/
theorem main_run (h : LaunchData m ρ dat) (c : Dev nD) : main (F := F) c = Pipeline.Seg.run (segs m ρ dat h) :=
  (main_chain c).trans (by chain_rfl)

/-- The last thread state without the owed tallies: every unscoped buffer at the last boundary's contents, the
    generator register at some state. -/
abbrev Tₙ (c : Dev nD) : sProp 𝕄 := iprop(StableHlo.held (c : Thread nD τ) (Pipeline.ucRefs τ sig) (W3 m ρ dat c) ∗ ∃ r, prngReg c r)

set_option backward.isDefEq.respectTransparency.types false in
/-- THE RUN, for any postcondition that follows from every unscoped buffer holding the last boundary's contents:
    from any memory with zero counters every weakly fair execution of the program terminates, nothing faulting,
    and the final state satisfies it. -/
theorem run_main_of (h : LaunchData m ρ dat) {Q : PUnit × MemSt nD τ sig (Elt F) → Prop}
    (hQ : ∀ s : MemSt nD τ sig (Elt F),
      (∀ c : Dev nD, ∀ b ∈ Pipeline.ucRefs τ sig, s.mem (((c : Thread nD τ)).1, b) = W3 m ρ dat c b) → Q (⟨⟩, s)) :
    θ_run defs (onTc (τ := τ) (main (F := F))) ⟨m, fun _ => 0, ρ⟩ Q :=
  Pipeline.θ_run_regions_kit (pcfgs (F := F)) adm (pdats dat) () cellOf_inj emb₁ defs₀ 𝒱₀ L lv m ρ main (segs m ρ dat h)
    (fun c Q => by rw [main_run h c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R₀ c)) (Tₙ := Tₙ (m := m) (ρ := ρ) (dat := dat))
    (hch := ⟨fun _ => .rfl, fun _ => .rfl, fun _ => .rfl, fun c => by
      show iprop(StableHlo.held (c : Thread nD τ) (Pipeline.ucRefs τ sig) (W3 m ρ dat c) ∗ R c)
        ⊢ iprop(Tₙ (m := m) (ρ := ρ) (dat := dat) c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexact HO)
    (QY := fun c s => ∀ b ∈ Pipeline.ucRefs τ sig, s.mem (((c : Thread nD τ)).1, b) = W3 m ρ dat c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ dat c) s')
      isplitl [Hh] <;> iassumption)
    (hQ := hQ)

/-- THE RUN with every unscoped buffer read at the end. -/
theorem run_main (h : LaunchData m ρ dat) :
    θ_run defs (onTc (τ := τ) (main (F := F))) ⟨m, fun _ => 0, ρ⟩
      (fun r => ∀ c : Dev nD, ∀ b ∈ Pipeline.ucRefs τ sig, r.2.mem (((c : Thread nD τ)).1, b) = W3 m ρ dat c b) :=
  run_main_of h fun _ hs => hs

/-! ## The arguments end as launched: no host operation writes one and the region only reads the first -/

variable (m ρ dat) in
theorem W3_main_arg0 (c : Dev nD) : W3 m ρ dat c (Proc.devRef .tc main_arg0) = m ((c : Thread nD τ).loc main_arg0) :=
  calc W3 m ρ dat c (Proc.devRef .tc main_arg0)
    _ = W2 m ρ dat c (Proc.devRef .tc main_arg0) := StableHlo.after_of_forall_not_mem (b := Proc.devRef .tc main_arg0) _ _ (List.forall_iff_forall_mem.mp (by
          simp only [hostOps1, List.Forall, StableHlo.nullary_writes, StableHlo.binary_writes, Finset.mem_singleton]
          repeat' apply And.intro
          all_goals exact StableHlo.devRef_ne_of_ne (by decide)))
    _ = W1 m ρ c (Proc.devRef .tc main_arg0) := W2_of_ne m ρ dat c main_arg0 (by decide)
    _ = W0 m ρ c (Proc.devRef .tc main_arg0) := StableHlo.after_of_forall_not_mem (b := Proc.devRef .tc main_arg0) _ _ (List.forall_iff_forall_mem.mp (by
          simp only [hostOps0, List.Forall, StableHlo.reshape_writes, Finset.mem_singleton]
          repeat' apply And.intro
          all_goals exact StableHlo.devRef_ne_of_ne (by decide)))
    _ = m ((c : Thread nD τ).loc main_arg0) := rfl

variable (m ρ dat) in
theorem W3_main_arg1 (c : Dev nD) : W3 m ρ dat c (Proc.devRef .tc main_arg1) = m ((c : Thread nD τ).loc main_arg1) :=
  calc W3 m ρ dat c (Proc.devRef .tc main_arg1)
    _ = W2 m ρ dat c (Proc.devRef .tc main_arg1) := StableHlo.after_of_forall_not_mem (b := Proc.devRef .tc main_arg1) _ _ (List.forall_iff_forall_mem.mp (by
          simp only [hostOps1, List.Forall, StableHlo.nullary_writes, StableHlo.binary_writes, Finset.mem_singleton]
          repeat' apply And.intro
          all_goals exact StableHlo.devRef_ne_of_ne (by decide)))
    _ = W1 m ρ c (Proc.devRef .tc main_arg1) := W2_of_ne m ρ dat c main_arg1 (by decide)
    _ = W0 m ρ c (Proc.devRef .tc main_arg1) := StableHlo.after_of_forall_not_mem (b := Proc.devRef .tc main_arg1) _ _ (List.forall_iff_forall_mem.mp (by
          simp only [hostOps0, List.Forall, StableHlo.reshape_writes, Finset.mem_singleton]
          repeat' apply And.intro
          all_goals exact StableHlo.devRef_ne_of_ne (by decide)))
    _ = m ((c : Thread nD τ).loc main_arg1) := rfl

/-- THE RUN as the equivalence claim reads it: the result buffer holds what the closing operations compute from the
    region's exit contents, and the two arguments end as launched. -/
theorem run_main_result (h : LaunchData m ρ dat) :
    θ_run defs (onTc (τ := τ) (main (F := F))) ⟨m, fun _ => 0, ρ⟩ (fun r => ∀ c : Dev nD,
      r.2.mem ((c : Thread nD τ).loc main_v4) = W3 m ρ dat c (Proc.devRef .tc main_v4)
      ∧ r.2.mem ((c : Thread nD τ).loc main_arg0) = m ((c : Thread nD τ).loc main_arg0)
      ∧ r.2.mem ((c : Thread nD τ).loc main_arg1) = m ((c : Thread nD τ).loc main_arg1)) :=
  run_main_of h fun s hs c =>
    ⟨hs c _ (mem_uc main_v4 (by decide)),
     (hs c _ (mem_uc main_arg0 (by decide))).trans (W3_main_arg0 m ρ dat c),
     (hs c _ (mem_uc main_arg1 (by decide))).trans (W3_main_arg1 m ρ dat c)⟩

end Run

end Cert.Kernel.KLaunch
end
-- ==== Proof.BRuns.lean ====
/-
  The tiled loss kernel, what its control cases share. One grid point (i, j) handles row tile i against column
  tile j. The body has two conditionals on j: at j = 0 the four per-row accumulators (kept in scratch between
  points) are reset to zero; at j = 7 the per-row means are formed from them and stored to the output block.
  So a point is in one of three cases: FIRST (j = 0), MIDDLE (0 < j < 7), LAST (j = 7). Stated here: the blocks
  of the four input windows as read off the arrays the region finds, the two conditions in closed form over the
  linear position t (j = t mod 8), where the output window is idle, and the names of the staging and scratch
  memrefs the cases' runs are stated over.
-/
import proofs.«115931_j57277683859994_1_alg».proof.Proof.Gen.Kernel.Launch
import proofs.«115931_j57277683859994_1_alg».proof.Proof.Gen.Kernel.Skeleton
import proofs.«115931_j57277683859994_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the arrays as the region finds them, core by core
variable (V : (c : Dev nD) → (b : Ref sig .tc) → Buf (Elt F) ((c : Thread nD τ).loc b))

/-- Window `w`'s block at position `t`, read off its array at the region's entry. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every position, fetched there or not: when a position
    does not fetch, the block index has not moved since the one before. For the row tile (window 0). -/
theorem before0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The same for the column tile (window 1). -/
theorem before1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- The same for the row labels (window 2). -/
theorem before2_of {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- The same for the column labels (window 3). -/
theorem before3_of {c : Dev nD} (dat : Dat τ (Elt F) Unit ℕ (UR sig nD τ) ℕ cfg0 c) (hA : dat.A 3 = V c (Pipeline.arrRef spec0 3))
    (hafter : ∀ t, dat.after 3 t = iblk V c 3 t) (t : Fin cfg0.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The two conditions -/

/-- "This is the first column tile": j = 0, as the body computes it. -/
abbrev isFirst (i : grid0.Coords) : Prop := (Scalar.cmpi .ne (Scalar.extui (Scalar.cmpi .eq (BitVec.ofNat 32 (i 1).val) 0#32)) 0#32) = 1#1
/-- It holds exactly at the positions t with t mod 8 = 0. -/
theorem isFirst_iff : ∀ t : Fin cfg0.N, isFirst (grid0.coords t) ↔ t.val % 8 = 0 :=
  (by decide +kernel : ∀ t : Fin grid0.N, isFirst (grid0.coords t) ↔ t.val % 8 = 0)
/-- "This is the last column tile": j = 7. -/
abbrev isLast (i : grid0.Coords) : Prop := k0_cond2 i = 1#1
/-- It holds exactly at the positions t with t mod 8 = 7. -/
theorem isLast_iff : ∀ t : Fin cfg0.N, isLast (grid0.coords t) ↔ t.val % 8 = 7 :=
  (by decide +kernel : ∀ t : Fin grid0.N, isLast (grid0.coords t) ↔ t.val % 8 = 7)

/-! ## Where the windows are idle -/

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
/-- Away from the last column tile the output block is not stored into, -/
theorem idle4 : ∀ t : Fin cfg0.N, ¬isLast (grid0.coords t) → cfg0.idle 4 (grid0.coords t) = true := by decide +kernel
/-- and not written back; -/
theorem noFlush4 : ∀ t : Fin cfg0.N, ¬isLast (grid0.coords t) → (cfg0.win 4).flush t = false := by decide +kernel
/-- at the last column tile it is stored. -/
theorem live4 : ∀ t : Fin cfg0.N, isLast (grid0.coords t) → cfg0.idle 4 (grid0.coords t) = false := by decide +kernel

/-! ## The memrefs the body is called with -/

abbrev ms0 (t : Fin cfg0.N) : Memref sig .tc .vmem S512x512 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S512x512 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S512x1 .i32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x512 .i32 := win0_3.stage (cfg0.slots t 3)
abbrev hs3 (t : Fin cfg0.N) : (ms3 t).IsWhole := hstage0_3 ((cfg0.slots t 3).cast nbuf0_3)
abbrev ms4 (t : Fin cfg0.N) : Memref sig .tc .vmem S512x1 .f32 := win0_4.stage (cfg0.slots t 4)
abbrev hs4 (t : Fin cfg0.N) : (ms4 t).IsWhole := hstage0_4 ((cfg0.slots t 4).cast nbuf0_4)
/-- The four accumulators: sum over positives, sum over negatives, count of positives, count of negatives. -/
abbrev accPS : Memref sig .tc .vmem S512x1 .f32 := Memref.whole cc0_scratch0
abbrev accNS : Memref sig .tc .vmem S512x1 .f32 := Memref.whole cc0_scratch1
abbrev accPC : Memref sig .tc .vmem S512x1 .f32 := Memref.whole cc0_scratch2
abbrev accNC : Memref sig .tc .vmem S512x1 .f32 := Memref.whole cc0_scratch3
/-- A view of a [512, 1] buffer through which contents are read back (any whole one serves). -/
abbrev VO : View sig .tc .vmem S512x1 .f32 := (Memref.whole cc0_stg4_0 : Memref sig .tc .vmem S512x1 .f32).view

/-- The region's invariant at entry and exit, with the four accumulators as memrefs at some contents. -/
theorem PhiA_eq (c : Dev nD) :
    (Pipeline.ΦA spec0 c : sProp 𝕄)
      = iprop(iprop((∃ d, owns (c : Thread nD τ) accPS fullShare d) ∗ (∃ d, owns (c : Thread nD τ) accNS fullShare d) ∗ (∃ d, owns (c : Thread nD τ) accPC fullShare d) ∗ (∃ d, owns (c : Thread nD τ) accNC fullShare d)) ∗ (∃ r, prngReg c r)) := by
  unfold Pipeline.ΦA; rw [scopedRest0_eq]; simp only [accPS, accNS, accPC, accNC, owns_whole]; try rfl

end Cert.Kernel.Hand

end
-- ==== Proof.BRunFirst.lean ====
/-
  The body at a FIRST column tile (j = 0): the four accumulators are reset to zero and the tile's four row
  quantities are added; the output block is not touched. Whatever the accumulators held before is irrelevant.
  The run is found by symbolic execution of the body over its named payloads; what each accumulator ends with is
  recorded as the list of its stores (last first).
-/
import proofs.«115931_j57277683859994_1_alg».proof.Proof.BRuns
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- On whole memrefs — the four inputs at their blocks, the output's buffer at contents handed back untouched, the
    accumulators at anything — the body at a first column tile runs to its end, leaving the inputs and the output's
    buffer as they were and each accumulator with its stores written. -/
noncomputable def runFirst (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : isFirst i) (hc1 : ¬isLast i)
    (x0 x1 : Vec F S512x512 .f32) (x2 : Vec F S512x1 .i32) (x3 : Vec F S1x512 .i32) :
    Σ' (LS0 : List (View.Piece (Elt F) S512x1 .f32)) (LS1 : List (View.Piece (Elt F) S512x1 .f32)) (LS2 : List (View.Piece (Elt F) S512x1 .f32)), { LS3 : List (View.Piece (Elt F) S512x1 .f32) //
      ∀ (xi4 : Vec F S512x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4
            ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2) ∗ (∃ f, arg10.view.loc (c : Thread nD τ) ↦[arg10.view.set]{fullShare} arg10.view.writes (Elt F) f LS3)) -∗ K ⟨⟩))
          ⊢ wp frame (wpE (defs₀ (F := F)) Variants.none c none) E (cc0__binomial_loss_kernel i arg2 harg2 arg3 harg3 arg4 harg4 arg5 harg5 arg6 harg6 arg7 harg7 arg8 harg8 arg9 harg9 arg10 harg10) K } := by
  refine ⟨?_, ?_, ?_, ?_, fun xi4 E K => ?run⟩
  case run =>
    simp only [cc0__binomial_loss_kernel_eq_skeleton]; unfold cc0__binomial_loss_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, ⟨%ds2, %fs2, -, HS2⟩, ⟨%ds3, %fs3, -, HS3⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    isplitl [HS1]; · iexists _; iexact HS1
    isplitl [HS2]; · iexists _; iexact HS2
    iexists _; iexact HS3

end Cert.Kernel.Hand

end
-- ==== Proof.BRunMiddle.lean ====
/-
  The body at a MIDDLE column tile (0 < j < 7): the tile's four row quantities are added to the accumulators as
  the tile before left them; the output block is not touched.
-/
import proofs.«115931_j57277683859994_1_alg».proof.Proof.BRunFirst
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- On whole memrefs — the four inputs at their blocks, the output's buffer at contents handed back untouched, the
    accumulators at what the tile before left — the body at a middle column tile runs to its end, leaving the inputs
    and the output's buffer as they were and each accumulator with its store written. -/
noncomputable def runMiddle (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : ¬isFirst i) (hc1 : ¬isLast i)
    (x0 x1 : Vec F S512x512 .f32) (x2 : Vec F S512x1 .i32) (x3 : Vec F S1x512 .i32) (xs0 xs1 xs2 xs3 : Vec F S512x1 .f32) :
    Σ' (LS0 : List (View.Piece (Elt F) S512x1 .f32)) (LS1 : List (View.Piece (Elt F) S512x1 .f32)) (LS2 : List (View.Piece (Elt F) S512x1 .f32)), { LS3 : List (View.Piece (Elt F) S512x1 .f32) //
      ∀ (xi4 : Vec F S512x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4
            ∗ owns (c : Thread nD τ) arg7 fullShare xs0 ∗ owns (c : Thread nD τ) arg8 fullShare xs1 ∗ owns (c : Thread nD τ) arg9 fullShare xs2 ∗ owns (c : Thread nD τ) arg10 fullShare xs3
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2) ∗ (∃ f, arg10.view.loc (c : Thread nD τ) ↦[arg10.view.set]{fullShare} arg10.view.writes (Elt F) f LS3)) -∗ K ⟨⟩))
          ⊢ wp frame (wpE (defs₀ (F := F)) Variants.none c none) E (cc0__binomial_loss_kernel i arg2 harg2 arg3 harg3 arg4 harg4 arg5 harg5 arg6 harg6 arg7 harg7 arg8 harg8 arg9 harg9 arg10 harg10) K } := by
  refine ⟨?_, ?_, ?_, ?_, fun xi4 E K => ?run⟩
  case run =>
    simp only [cc0__binomial_loss_kernel_eq_skeleton]; unfold cc0__binomial_loss_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, ⟨%fs2, %hfs2, HS2⟩, ⟨%fs3, %hfs3, HS3⟩, Hk⟩
    obtain rfl := harg2.eq_unread hf0; obtain rfl := harg3.eq_unread hf1; obtain rfl := harg4.eq_unread hf2; obtain rfl := harg5.eq_unread hf3; obtain rfl := harg6.eq_unread hf4
    obtain rfl := harg7.eq_unread hfs0; obtain rfl := harg8.eq_unread hfs1; obtain rfl := harg9.eq_unread hfs2; obtain rfl := harg10.eq_unread hfs3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    isplitl [HS1]; · iexists _; iexact HS1
    isplitl [HS2]; · iexists _; iexact HS2
    iexists _; iexact HS3

end Cert.Kernel.Hand

end
-- ==== Proof.BRunLast.lean ====
/-
  The body at a LAST column tile (j = 7): the tile's four row quantities are added to the accumulators as the tile
  before left them, and then the row means — each sum over its count where the count is positive, zero otherwise —
  are added and stored to the output block.
-/
import proofs.«115931_j57277683859994_1_alg».proof.Proof.BRunMiddle
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- On whole memrefs — the four inputs at their blocks, the output's buffer at anything, the accumulators at what
    the tile before left — the body at a last column tile runs to its end, leaving the inputs as they were, each
    accumulator with its store written, and the output's buffer with its store written. -/
noncomputable def runLast (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : ¬isFirst i) (hc1 : isLast i)
    (x0 x1 : Vec F S512x512 .f32) (x2 : Vec F S512x1 .i32) (x3 : Vec F S1x512 .i32) (xs0 xs1 xs2 xs3 : Vec F S512x1 .f32) :
    Σ' (L4 : List (View.Piece (Elt F) S512x1 .f32)) (LS0 : List (View.Piece (Elt F) S512x1 .f32)) (LS1 : List (View.Piece (Elt F) S512x1 .f32)) (LS2 : List (View.Piece (Elt F) S512x1 .f32)), { LS3 : List (View.Piece (Elt F) S512x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d)
            ∗ owns (c : Thread nD τ) arg7 fullShare xs0 ∗ owns (c : Thread nD τ) arg8 fullShare xs1 ∗ owns (c : Thread nD τ) arg9 fullShare xs2 ∗ owns (c : Thread nD τ) arg10 fullShare xs3
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2) ∗ (∃ f, arg10.view.loc (c : Thread nD τ) ↦[arg10.view.set]{fullShare} arg10.view.writes (Elt F) f LS3)) -∗ K ⟨⟩))
          ⊢ wp frame (wpE (defs₀ (F := F)) Variants.none c none) E (cc0__binomial_loss_kernel i arg2 harg2 arg3 harg3 arg4 harg4 arg5 harg5 arg6 harg6 arg7 harg7 arg8 harg8 arg9 harg9 arg10 harg10) K } := by
  refine ⟨?_, ?_, ?_, ?_, ?_, fun E K => ?run⟩
  case run =>
    simp only [cc0__binomial_loss_kernel_eq_skeleton]; unfold cc0__binomial_loss_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%fs1, %hfs1, HS1⟩, ⟨%fs2, %hfs2, HS2⟩, ⟨%fs3, %hfs3, HS3⟩, Hk⟩
    obtain rfl := harg2.eq_unread hf0; obtain rfl := harg3.eq_unread hf1; obtain rfl := harg4.eq_unread hf2; obtain rfl := harg5.eq_unread hf3
    obtain rfl := harg7.eq_unread hfs0; obtain rfl := harg8.eq_unread hfs1; obtain rfl := harg9.eq_unread hfs2; obtain rfl := harg10.eq_unread hfs3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [HS0]; · iexists _; iexact HS0
    isplitl [HS1]; · iexists _; iexact HS1
    isplitl [HS2]; · iexists _; iexact HS2
    iexists _; iexact HS3

end Cert.Kernel.Hand

end
-- ==== Proof.BBody.lean ====
/-
  The tiled loss kernel, position by position. What the four accumulators (and, at a last column tile, the output
  block) hold after the body at each position of the grid, by recursion on the position: a first column tile starts
  from nothing, a middle or last one from what the position before left. From these: the region's invariant (the
  accumulators at the contents the position before left), the proof data of the pipeline, and the body's obligation
  at every position, by cases on where in its row of tiles the position is.
-/
import proofs.«115931_j57277683859994_1_alg».proof.Proof.BRunLast
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Contents read back from a list of stores (last first) over a [512, 1] buffer. -/
def readBack (L : List (View.Piece (Elt F) S512x1 .f32)) : Vec F S512x1 .f32 := VO.read (Elt F) (VO.writes (Elt F) VO.junk L)

/-! ## Each case's stores tile the buffer they go to -/

theorem coverFirst0 (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : isFirst i) (hc1 : ¬isLast i) (x0 x1 : Vec F S512x512 .f32) (x2 : Vec F S512x1 .i32) (x3 : Vec F S1x512 .i32) (y : S512x1.Idx) : ∃ pc ∈ (runFirst c i arg2 harg2 arg3 harg3 arg4 harg4 arg5 harg5 arg6 harg6 arg7 harg7 arg8 harg8 arg9 harg9 arg10 harg10 hc0 hc1 x0 x1 x2 x3).1, y ∈ pc.1.set :=
  View.cover_of_tiledL _ S512x1.size (by sl_kernel_rfl) y
theorem coverMiddle0 (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : ¬isFirst i) (hc1 : ¬isLast i) (x0 x1 : Vec F S512x512 .f32) (x2 : Vec F S512x1 .i32) (x3 : Vec F S1x512 .i32) (xs0 xs1 xs2 xs3 : Vec F S512x1 .f32) (y : S512x1.Idx) : ∃ pc ∈ (runMiddle c i arg2 harg2 arg3 harg3 arg4 harg4 arg5 harg5 arg6 harg6 arg7 harg7 arg8 harg8 arg9 harg9 arg10 harg10 hc0 hc1 x0 x1 x2 x3 xs0 xs1 xs2 xs3).1, y ∈ pc.1.set :=
  View.cover_of_tiledL _ S512x1.size (by sl_kernel_rfl) y
theorem coverLast0 (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : ¬isFirst i) (hc1 : isLast i) (x0 x1 : Vec F S512x512 .f32) (x2 : Vec F S512x1 .i32) (x3 : Vec F S1x512 .i32) (xs0 xs1 xs2 xs3 : Vec F S512x1 .f32) (y : S512x1.Idx) : ∃ pc ∈ (runLast c i arg2 harg2 arg3 harg3 arg4 harg4 arg5 harg5 arg6 harg6 arg7 harg7 arg8 harg8 arg9 harg9 arg10 harg10 hc0 hc1 x0 x1 x2 x3 xs0 xs1 xs2 xs3).2.1, y ∈ pc.1.set :=
  View.cover_of_tiledL _ S512x1.size (by sl_kernel_rfl) y
theorem coverFirst1 (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : isFirst i) (hc1 : ¬isLast i) (x0 x1 : Vec F S512x512 .f32) (x2 : Vec F S512x1 .i32) (x3 : Vec F S1x512 .i32) (y : S512x1.Idx) : ∃ pc ∈ (runFirst c i arg2 harg2 arg3 harg3 arg4 harg4 arg5 harg5 arg6 harg6 arg7 harg7 arg8 harg8 arg9 harg9 arg10 harg10 hc0 hc1 x0 x1 x2 x3).2.1, y ∈ pc.1.set :=
  View.cover_of_tiledL _ S512x1.size (by sl_kernel_rfl) y
theorem coverMiddle1 (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : ¬isFirst i) (hc1 : ¬isLast i) (x0 x1 : Vec F S512x512 .f32) (x2 : Vec F S512x1 .i32) (x3 : Vec F S1x512 .i32) (xs0 xs1 xs2 xs3 : Vec F S512x1 .f32) (y : S512x1.Idx) : ∃ pc ∈ (runMiddle c i arg2 harg2 arg3 harg3 arg4 harg4 arg5 harg5 arg6 harg6 arg7 harg7 arg8 harg8 arg9 harg9 arg10 harg10 hc0 hc1 x0 x1 x2 x3 xs0 xs1 xs2 xs3).2.1, y ∈ pc.1.set :=
  View.cover_of_tiledL _ S512x1.size (by sl_kernel_rfl) y
theorem coverLast1 (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : ¬isFirst i) (hc1 : isLast i) (x0 x1 : Vec F S512x512 .f32) (x2 : Vec F S512x1 .i32) (x3 : Vec F S1x512 .i32) (xs0 xs1 xs2 xs3 : Vec F S512x1 .f32) (y : S512x1.Idx) : ∃ pc ∈ (runLast c i arg2 harg2 arg3 harg3 arg4 harg4 arg5 harg5 arg6 harg6 arg7 harg7 arg8 harg8 arg9 harg9 arg10 harg10 hc0 hc1 x0 x1 x2 x3 xs0 xs1 xs2 xs3).2.2.1, y ∈ pc.1.set :=
  View.cover_of_tiledL _ S512x1.size (by sl_kernel_rfl) y
theorem coverFirst2 (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : isFirst i) (hc1 : ¬isLast i) (x0 x1 : Vec F S512x512 .f32) (x2 : Vec F S512x1 .i32) (x3 : Vec F S1x512 .i32) (y : S512x1.Idx) : ∃ pc ∈ (runFirst c i arg2 harg2 arg3 harg3 arg4 harg4 arg5 harg5 arg6 harg6 arg7 harg7 arg8 harg8 arg9 harg9 arg10 harg10 hc0 hc1 x0 x1 x2 x3).2.2.1, y ∈ pc.1.set :=
  View.cover_of_tiledL _ S512x1.size (by sl_kernel_rfl) y
theorem coverMiddle2 (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : ¬isFirst i) (hc1 : ¬isLast i) (x0 x1 : Vec F S512x512 .f32) (x2 : Vec F S512x1 .i32) (x3 : Vec F S1x512 .i32) (xs0 xs1 xs2 xs3 : Vec F S512x1 .f32) (y : S512x1.Idx) : ∃ pc ∈ (runMiddle c i arg2 harg2 arg3 harg3 arg4 harg4 arg5 harg5 arg6 harg6 arg7 harg7 arg8 harg8 arg9 harg9 arg10 harg10 hc0 hc1 x0 x1 x2 x3 xs0 xs1 xs2 xs3).2.2.1, y ∈ pc.1.set :=
  View.cover_of_tiledL _ S512x1.size (by sl_kernel_rfl) y
theorem coverLast2 (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : ¬isFirst i) (hc1 : isLast i) (x0 x1 : Vec F S512x512 .f32) (x2 : Vec F S512x1 .i32) (x3 : Vec F S1x512 .i32) (xs0 xs1 xs2 xs3 : Vec F S512x1 .f32) (y : S512x1.Idx) : ∃ pc ∈ (runLast c i arg2 harg2 arg3 harg3 arg4 harg4 arg5 harg5 arg6 harg6 arg7 harg7 arg8 harg8 arg9 harg9 arg10 harg10 hc0 hc1 x0 x1 x2 x3 xs0 xs1 xs2 xs3).2.2.2.1, y ∈ pc.1.set :=
  View.cover_of_tiledL _ S512x1.size (by sl_kernel_rfl) y
theorem coverFirst3 (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : isFirst i) (hc1 : ¬isLast i) (x0 x1 : Vec F S512x512 .f32) (x2 : Vec F S512x1 .i32) (x3 : Vec F S1x512 .i32) (y : S512x1.Idx) : ∃ pc ∈ (runFirst c i arg2 harg2 arg3 harg3 arg4 harg4 arg5 harg5 arg6 harg6 arg7 harg7 arg8 harg8 arg9 harg9 arg10 harg10 hc0 hc1 x0 x1 x2 x3).2.2.2.1, y ∈ pc.1.set :=
  View.cover_of_tiledL _ S512x1.size (by sl_kernel_rfl) y
theorem coverMiddle3 (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : ¬isFirst i) (hc1 : ¬isLast i) (x0 x1 : Vec F S512x512 .f32) (x2 : Vec F S512x1 .i32) (x3 : Vec F S1x512 .i32) (xs0 xs1 xs2 xs3 : Vec F S512x1 .f32) (y : S512x1.Idx) : ∃ pc ∈ (runMiddle c i arg2 harg2 arg3 harg3 arg4 harg4 arg5 harg5 arg6 harg6 arg7 harg7 arg8 harg8 arg9 harg9 arg10 harg10 hc0 hc1 x0 x1 x2 x3 xs0 xs1 xs2 xs3).2.2.2.1, y ∈ pc.1.set :=
  View.cover_of_tiledL _ S512x1.size (by sl_kernel_rfl) y
theorem coverLast3 (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : ¬isFirst i) (hc1 : isLast i) (x0 x1 : Vec F S512x512 .f32) (x2 : Vec F S512x1 .i32) (x3 : Vec F S1x512 .i32) (xs0 xs1 xs2 xs3 : Vec F S512x1 .f32) (y : S512x1.Idx) : ∃ pc ∈ (runLast c i arg2 harg2 arg3 harg3 arg4 harg4 arg5 harg5 arg6 harg6 arg7 harg7 arg8 harg8 arg9 harg9 arg10 harg10 hc0 hc1 x0 x1 x2 x3 xs0 xs1 xs2 xs3).2.2.2.2.1, y ∈ pc.1.set :=
  View.cover_of_tiledL _ S512x1.size (by sl_kernel_rfl) y
theorem coverLastOut (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : ¬isFirst i) (hc1 : isLast i) (x0 x1 : Vec F S512x512 .f32) (x2 : Vec F S512x1 .i32) (x3 : Vec F S1x512 .i32) (xs0 xs1 xs2 xs3 : Vec F S512x1 .f32) (y : S512x1.Idx) : ∃ pc ∈ (runLast c i arg2 harg2 arg3 harg3 arg4 harg4 arg5 harg5 arg6 harg6 arg7 harg7 arg8 harg8 arg9 harg9 arg10 harg10 hc0 hc1 x0 x1 x2 x3 xs0 xs1 xs2 xs3).1, y ∈ pc.1.set :=
  View.cover_of_tiledL _ S512x1.size (by sl_kernel_rfl) y

/-- What the body leaves behind at a position: the output block's buffer and the four accumulators. -/
structure St (F : FTy → Type) [FloatOps F] where
  out : Vec F S512x1 .f32
  ps : Vec F S512x1 .f32
  ns : Vec F S512x1 .f32
  pc : Vec F S512x1 .f32
  nc : Vec F S512x1 .f32

/-- After a first column tile. (The output's buffer is not stored: a placeholder nothing consults.) -/
def stFirst (c : Dev nD) (t : Fin cfg0.N) (h0 : t.val % 8 = 0) (h1 : ¬t.val % 8 = 7) : St F :=
  let r := runFirst (F := F) c (grid0.coords t) (ms0 t) (hs0 t) (ms1 t) (hs1 t) (ms2 t) (hs2 t) (ms3 t) (hs3 t) (ms4 t) (hs4 t) accPS (Memref.isWhole_whole _) accNS (Memref.isWhole_whole _) accPC (Memref.isWhole_whole _) accNC (Memref.isWhole_whole _) ((isFirst_iff t).mpr h0) (fun h => h1 ((isLast_iff t).mp h)) (iblk V c 0 t) (iblk V c 1 t) (iblk V c 2 t) (iblk V c 3 t)
  ⟨readBack [], readBack r.1, readBack r.2.1, readBack r.2.2.1, readBack r.2.2.2.1⟩
/-- After a middle column tile, from what the position before left. -/
def stMiddle (c : Dev nD) (t : Fin cfg0.N) (h0 : ¬t.val % 8 = 0) (h1 : ¬t.val % 8 = 7) (p : St F) : St F :=
  let r := runMiddle (F := F) c (grid0.coords t) (ms0 t) (hs0 t) (ms1 t) (hs1 t) (ms2 t) (hs2 t) (ms3 t) (hs3 t) (ms4 t) (hs4 t) accPS (Memref.isWhole_whole _) accNS (Memref.isWhole_whole _) accPC (Memref.isWhole_whole _) accNC (Memref.isWhole_whole _) (fun h => h0 ((isFirst_iff t).mp h)) (fun h => h1 ((isLast_iff t).mp h)) (iblk V c 0 t) (iblk V c 1 t) (iblk V c 2 t) (iblk V c 3 t) p.ps p.ns p.pc p.nc
  ⟨readBack [], readBack r.1, readBack r.2.1, readBack r.2.2.1, readBack r.2.2.2.1⟩
/-- After a last column tile, from what the position before left. -/
def stLast (c : Dev nD) (t : Fin cfg0.N) (h0 : ¬t.val % 8 = 0) (h1 : t.val % 8 = 7) (p : St F) : St F :=
  let r := runLast (F := F) c (grid0.coords t) (ms0 t) (hs0 t) (ms1 t) (hs1 t) (ms2 t) (hs2 t) (ms3 t) (hs3 t) (ms4 t) (hs4 t) accPS (Memref.isWhole_whole _) accNS (Memref.isWhole_whole _) accPC (Memref.isWhole_whole _) accNC (Memref.isWhole_whole _) (fun h => h0 ((isFirst_iff t).mp h)) ((isLast_iff t).mpr h1) (iblk V c 0 t) (iblk V c 1 t) (iblk V c 2 t) (iblk V c 3 t) p.ps p.ns p.pc p.nc
  ⟨readBack r.1, readBack r.2.1, readBack r.2.2.1, readBack r.2.2.2.1, readBack r.2.2.2.2.1⟩

/-- THE ACCUMULATION: what is left after the body at position `n`. -/
def stAt (c : Dev nD) : (n : ℕ) → n < cfg0.N → St F
  | 0, hn => stFirst V c ⟨0, hn⟩ (Nat.zero_mod _) (by show ¬(0 % 8 = 7); omega)
  | n + 1, hn =>
    if h0 : (n + 1) % 8 = 0 then
      if h1 : (n + 1) % 8 = 7 then False.elim (by omega)
      else stFirst V c ⟨n + 1, hn⟩ h0 h1
    else
      if h1 : (n + 1) % 8 = 7 then stLast V c ⟨n + 1, hn⟩ h0 h1 (stAt c n (Nat.lt_of_succ_lt hn))
      else stMiddle V c ⟨n + 1, hn⟩ h0 h1 (stAt c n (Nat.lt_of_succ_lt hn))

theorem stAt_first (c : Dev nD) (t : Fin cfg0.N) (h0 : t.val % 8 = 0) (h1 : ¬t.val % 8 = 7) :
    stAt V c t.val t.isLt = stFirst V c t h0 h1 := by
  obtain ⟨n, hn⟩ := t
  cases n with
  | zero => rfl
  | succ n => exact (dif_pos h0).trans ((dif_neg h1).trans rfl)
theorem stAt_middle (c : Dev nD) (t : Fin cfg0.N) (h0 : ¬t.val % 8 = 0) (h1 : ¬t.val % 8 = 7) :
    stAt V c t.val t.isLt = stMiddle V c t h0 h1 (stAt V c (t.val - 1) (Nat.lt_of_le_of_lt (Nat.sub_le _ _) t.isLt)) := by
  obtain ⟨n, hn⟩ := t
  cases n with
  | zero => exact absurd (Nat.zero_mod _) h0
  | succ n => exact (dif_neg h0).trans ((dif_neg h1).trans rfl)
theorem stAt_last (c : Dev nD) (t : Fin cfg0.N) (h0 : ¬t.val % 8 = 0) (h1 : t.val % 8 = 7) :
    stAt V c t.val t.isLt = stLast V c t h0 h1 (stAt V c (t.val - 1) (Nat.lt_of_le_of_lt (Nat.sub_le _ _) t.isLt)) := by
  obtain ⟨n, hn⟩ := t
  cases n with
  | zero => exact absurd (Nat.zero_mod _) h0
  | succ n => exact (dif_neg h0).trans ((dif_pos h1).trans rfl)

/-- The accumulators at named contents, and the generator register at some state. -/
def accsAt (c : Dev nD) (s : St F) : sProp 𝕄 :=
  iprop(iprop(owns (c : Thread nD τ) accPS fullShare s.ps ∗ owns (c : Thread nD τ) accNS fullShare s.ns ∗ owns (c : Thread nD τ) accPC fullShare s.pc ∗ owns (c : Thread nD τ) accNC fullShare s.nc) ∗ (∃ r, prngReg c r))

/-- The region's invariant before position `n`: at the start every scratch at anything; afterwards the accumulators
    at what the position before left. -/
def PhiS (c : Dev nD) : (n : ℕ) → n ≤ cfg0.N → sProp 𝕄
  | 0, _ => Pipeline.ΦA spec0 c
  | n + 1, hn => accsAt c (stAt V c n hn)

theorem PhiS_zero (c : Dev nD) (n : ℕ) (h : n ≤ cfg0.N) (hz : n = 0) : PhiS V c n h = Pipeline.ΦA spec0 c := by
  subst hz; rfl
theorem PhiS_succ (c : Dev nD) (n : ℕ) (hn : n < cfg0.N) : PhiS V c (n + 1) hn = accsAt c (stAt V c n hn) := rfl
theorem PhiS_pos (c : Dev nD) (n : ℕ) (h : n ≤ cfg0.N) (hz : n ≠ 0) :
    PhiS V c n h = accsAt c (stAt V c (n - 1) (by omega)) := by
  cases n with
  | zero => exact absurd rfl hz
  | succ n => rfl

/-! ## The pipeline's proof data -/

/-- The arrays as the region finds them; after the body each input's buffer at its block, the output's at what the
    accumulation says; the invariant above; the array behind the row and column tiles held in two halves, one per
    window; nothing owed. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => (stAt V c t.val t.isLt).out
  Φ t := PhiS V c t.val (Nat.le_of_lt_succ t.isLt)
  q w := match w with
    | ⟨0, _⟩ => (fullShare : PosShare TreeShare).left
    | ⟨1, _⟩ => (fullShare : PosShare TreeShare).right
    | _ => fullShare
  owed _ := 0

theorem A_eq (c : Dev nD) (w : Fin cfg0.W) : (dat V c).A w = V c (Pipeline.arrRef spec0 w) := by dsimp only [dat]
theorem Phi_castSucc (c : Dev nD) (t : Fin cfg0.N) : (dat V c).Φ t.castSucc = PhiS V c t.val (Nat.le_of_lt t.isLt) := by
  dsimp only [dat]; simp only [Fin.coe_castSucc]
theorem after0 (c : Dev nD) (t : Fin cfg0.N) : (dat V c).after 0 t = iblk V c 0 t := by dsimp only [dat]
theorem after1 (c : Dev nD) (t : Fin cfg0.N) : (dat V c).after 1 t = iblk V c 1 t := by dsimp only [dat]
theorem after2 (c : Dev nD) (t : Fin cfg0.N) : (dat V c).after 2 t = iblk V c 2 t := by dsimp only [dat]
theorem after3 (c : Dev nD) (t : Fin cfg0.N) : (dat V c).after 3 t = iblk V c 3 t := by dsimp only [dat]
theorem after4 (c : Dev nD) (t : Fin cfg0.N) : (dat V c).after 4 t = (stAt V c t.val t.isLt).out := by dsimp only [dat]
theorem before0 (c : Dev nD) (t : Fin cfg0.N) (d) : (dat V c).before 0 t d = iblk V c 0 t := before0_of V (dat V c) (A_eq V c 0) (after0 V c) t d
theorem before1 (c : Dev nD) (t : Fin cfg0.N) (d) : (dat V c).before 1 t d = iblk V c 1 t := before1_of V (dat V c) (A_eq V c 1) (after1 V c) t d
theorem before2 (c : Dev nD) (t : Fin cfg0.N) (d) : (dat V c).before 2 t d = iblk V c 2 t := before2_of V (dat V c) (A_eq V c 2) (after2 V c) t d
theorem before3 (c : Dev nD) (t : Fin cfg0.N) (d) : (dat V c).before 3 t d = iblk V c 3 t := before3_of V (dat V c) (A_eq V c 3) (after3 V c) t d

/-! ## The body's obligation at a position -/

/-- What the body is called with at position `t`, the windows one by one, -/
def bodyPre (c : Dev nD) (t : Fin cfg0.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d))
    ∗ (∃ d, owns (c : Thread nD τ) (ms4 t) fullShare ((dat V c).before 4 t d)))

/-- and what it returns. -/
def bodyPost (c : Dev nD) (t : Fin cfg0.N) : sProp 𝕄 :=
  iprop((dat V c).Φ t.succ ∗ (dat V c).owesAt () t.succ
    ∗ (dat V c).leavesExact 0 t ∗ (dat V c).leavesExact 1 t ∗ (dat V c).leavesExact 2 t ∗ (dat V c).leavesExact 3 t ∗ (dat V c).leavesExact 4 t)

set_option maxHeartbeats 8000000 in
/-- The body at any position. The inputs' buffers hold their blocks; the position's place in its row of tiles says
    which case's run applies; the invariant hands over the accumulators (at anything before the very first position,
    else at what the position before left) and takes them back at this position's contents. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0, before1, before2, before3]
  rw [show (dat V c).owesAt () t.succ = (dat V c).owesAt () t.castSucc from rfl]
  rw [show (dat V c).Φ t.succ = PhiS V c (t.val + 1) t.isLt from rfl, PhiS_succ]
  rw [show (dat V c).leavesExact 0 t = owns (c : Thread nD τ) (ms0 t) fullShare ((dat V c).after 0 t) from by
    unfold Dat.leavesExact; rw [live0 t], after0]
  rw [show (dat V c).leavesExact 1 t = owns (c : Thread nD τ) (ms1 t) fullShare ((dat V c).after 1 t) from by
    unfold Dat.leavesExact; rw [live1 t], after1]
  rw [show (dat V c).leavesExact 2 t = owns (c : Thread nD τ) (ms2 t) fullShare ((dat V c).after 2 t) from by
    unfold Dat.leavesExact; rw [live2 t], after2]
  rw [show (dat V c).leavesExact 3 t = owns (c : Thread nD τ) (ms3 t) fullShare ((dat V c).after 3 t) from by
    unfold Dat.leavesExact; rw [live3 t], after3]
  by_cases h0 : t.val % 8 = 0
  · have h1 : ¬t.val % 8 = 7 := by omega
    rw [Dat.leavesExact_idle (dat V c) 4 t (idle4 t (fun h => h1 ((isLast_iff t).mp h))) (noFlush4 t (fun h => h1 ((isLast_iff t).mp h)))]
    rw [stAt_first V c t h0 h1]
    unfold stFirst accsAt readBack; dsimp only
    by_cases hz : t.val = 0
    · rw [Phi_castSucc V c t, PhiS_zero V c _ _ hz, PhiA_eq]
      iintro ⟨⟨⟨HS0, HS1, HS2, HS3⟩, Hg⟩, Ho, ⟨%d0, H0⟩, ⟨%d1, H1⟩, ⟨%d2, H2⟩, ⟨%d3, H3⟩, ⟨%d4, H4⟩⟩
      iapply ((runFirst c (grid0.coords t) _ _ _ _ _ _ _ _ _ _ _ _ _ _ _ _ _ _ ((isFirst_iff t).mpr h0) (fun h => h1 ((isLast_iff t).mp h)) (iblk V c 0 t) (iblk V c 1 t) (iblk V c 2 t) (iblk V c 3 t)).2.2.2.2 _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      isplitl [HS2]; · iexact HS2
      isplitl [HS3]; · iexact HS3
      iintro ⟨H0, H1, H2, H3, H4, ⟨%e0, HS0⟩, ⟨%e1, HS1⟩, ⟨%e2, HS2⟩, ⟨%e3, HS3⟩⟩
      isplitl [HS0 HS1 HS2 HS3 Hg]
      · isplitl [HS0 HS1 HS2 HS3]
        · isplitl [HS0]
          · unfold owns; iexists _; isplitr
            swap; · iexact HS0
            ipureintro; exact View.read_writes_of_cover _ _ _ _ _ (coverFirst0 c _ _ _ _ _ _ _ _ _ _ _ _ _ _ _ _ _ _ _ _ _ _ _ _ _)
          isplitl [HS1]
          · unfold owns; iexists _; isplitr
            swap; · iexact HS1
            ipureintro; exact View.read_writes_of_cover _ _ _ _ _ (coverFirst1 c _ _ _ _ _ _ _ _ _ _ _ _ _ _ _ _ _ _ _ _ _ _ _ _ _)
          isplitl [HS2]
          · unfold owns; iexists _; isplitr
            swap; · iexact HS2
            ipureintro; exact View.read_writes_of_cover _ _ _ _ _ (coverFirst2 c _ _ _ _ _ _ _ _ _ _ _ _ _ _ _ _ _ _ _ _ _ _ _ _ _)
          · unfold owns; iexists _; isplitr
            swap; · iexact HS3
            ipureintro; exact View.read_writes_of_cover _ _ _ _ _ (coverFirst3 c _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4
    · rw [Phi_castSucc V c t, PhiS_pos V c _ _ hz]
      unfold accsAt
      iintro ⟨⟨⟨HS0, HS1, HS2, HS3⟩, Hg⟩, Ho, ⟨%d0, H0⟩, ⟨%d1, H1⟩, ⟨%d2, H2⟩, ⟨%d3, H3⟩, ⟨%d4, H4⟩⟩
      iapply ((runFirst c (grid0.coords t) _ _ _ _ _ _ _ _ _ _ _ _ _ _ _ _ _ _ ((isFirst_iff t).mpr h0) (fun h => h1 ((isLast_iff t).mp h)) (iblk V c 0 t) (iblk V c 1 t) (iblk V c 2 t) (iblk V c 3 t)).2.2.2.2 _ Set.univ _)
      isplitl [H0]; · iexact H0
      isplitl [H1]; · iexact H1
      isplitl [H2]; · iexact H2
      isplitl [H3]; · iexact H3
      isplitl [H4]; · iexact H4
      isplitl [HS0]; · iexists _; iexact HS0
      isplitl [HS1]; · iexists _; iexact HS1
      isplitl [HS2]; · iexists _; iexact HS2
      isplitl [HS3]; · iexists _; iexact HS3
      iintro ⟨H0, H1, H2, H3, H4, ⟨%e0, HS0⟩, ⟨%e1, HS1⟩, ⟨%e2, HS2⟩, ⟨%e3, HS3⟩⟩
      isplitl [HS0 HS1 HS2 HS3 Hg]
      · isplitl [HS0 HS1 HS2 HS3]
        · isplitl [HS0]
          · unfold owns; iexists _; isplitr
            swap; · iexact HS0
            ipureintro; exact View.read_writes_of_cover _ _ _ _ _ (coverFirst0 c _ _ _ _ _ _ _ _ _ _ _ _ _ _ _ _ _ _ _ _ _ _ _ _ _)
          isplitl [HS1]
          · unfold owns; iexists _; isplitr
            swap; · iexact HS1
            ipureintro; exact View.read_writes_of_cover _ _ _ _ _ (coverFirst1 c _ _ _ _ _ _ _ _ _ _ _ _ _ _ _ _ _ _ _ _ _ _ _ _ _)
          isplitl [HS2]
          · unfold owns; iexists _; isplitr
            swap; · iexact HS2
            ipureintro; exact View.read_writes_of_cover _ _ _ _ _ (coverFirst2 c _ _ _ _ _ _ _ _ _ _ _ _ _ _ _ _ _ _ _ _ _ _ _ _ _)
          · unfold owns; iexists _; isplitr
            swap; · iexact HS3
            ipureintro; exact View.read_writes_of_cover _ _ _ _ _ (coverFirst3 c _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := fun e => h0 (by rw [e])
    by_cases h1 : t.val % 8 = 7
    · rw [show (dat V c).leavesExact 4 t = owns (c : Thread nD τ) (ms4 t) fullShare ((dat V c).after 4 t) from by
        unfold Dat.leavesExact; rw [live4 t ((isLast_iff t).mpr h1)], after4]
      rw [stAt_last V c t h0 h1]
      unfold stLast accsAt readBack; dsimp only
      rw [Phi_castSucc V c t, PhiS_pos V c _ _ hz]
      unfold accsAt
      iintro ⟨⟨⟨HS0, HS1, HS2, HS3⟩, Hg⟩, Ho, ⟨%d0, H0⟩, ⟨%d1, H1⟩, ⟨%d2, H2⟩, ⟨%d3, H3⟩, ⟨%d4, H4⟩⟩
      iapply ((runLast c (grid0.coords t) _ _ _ _ _ _ _ _ _ _ _ _ _ _ _ _ _ _ (fun h => h0 ((isFirst_iff t).mp h)) ((isLast_iff t).mpr h1) (iblk V c 0 t) (iblk V c 1 t) (iblk V c 2 t) (iblk V c 3 t) _ _ _ _).2.2.2.2.2 Set.univ _)
      isplitl [H0]; · iexact H0
      isplitl [H1]; · iexact H1
      isplitl [H2]; · iexact H2
      isplitl [H3]; · iexact H3
      isplitl [H4]; · iexists _; iexact H4
      isplitl [HS0]; · iexact HS0
      isplitl [HS1]; · iexact HS1
      isplitl [HS2]; · iexact HS2
      isplitl [HS3]; · iexact HS3
      iintro ⟨H0, H1, H2, H3, ⟨%e4, H4⟩, ⟨%e0, HS0⟩, ⟨%e1, HS1⟩, ⟨%e2, HS2⟩, ⟨%e3, HS3⟩⟩
      isplitl [HS0 HS1 HS2 HS3 Hg]
      · isplitl [HS0 HS1 HS2 HS3]
        · isplitl [HS0]
          · unfold owns; iexists _; isplitr
            swap; · iexact HS0
            ipureintro; exact View.read_writes_of_cover _ _ _ _ _ (coverLast0 c _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (coverLast1 c _ _ _ _ _ _ _ _ _ _ _ _ _ _ _ _ _ _ _ _ _ _ _ _ _ _ _ _ _)
          isplitl [HS2]
          · unfold owns; iexists _; isplitr
            swap; · iexact HS2
            ipureintro; exact View.read_writes_of_cover _ _ _ _ _ (coverLast2 c _ _ _ _ _ _ _ _ _ _ _ _ _ _ _ _ _ _ _ _ _ _ _ _ _ _ _ _ _)
          · unfold owns; iexists _; isplitr
            swap; · iexact HS3
            ipureintro; exact View.read_writes_of_cover _ _ _ _ _ (coverLast3 c _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (coverLastOut c _ _ _ _ _ _ _ _ _ _ _ _ _ _ _ _ _ _ _ _ _ _ _ _ _ _ _ _ _)
    · rw [Dat.leavesExact_idle (dat V c) 4 t (idle4 t (fun h => h1 ((isLast_iff t).mp h))) (noFlush4 t (fun h => h1 ((isLast_iff t).mp h)))]
      rw [stAt_middle V c t h0 h1]
      unfold stMiddle accsAt readBack; dsimp only
      rw [Phi_castSucc V c t, PhiS_pos V c _ _ hz]
      unfold accsAt
      iintro ⟨⟨⟨HS0, HS1, HS2, HS3⟩, Hg⟩, Ho, ⟨%d0, H0⟩, ⟨%d1, H1⟩, ⟨%d2, H2⟩, ⟨%d3, H3⟩, ⟨%d4, H4⟩⟩
      iapply ((runMiddle c (grid0.coords t) _ _ _ _ _ _ _ _ _ _ _ _ _ _ _ _ _ _ (fun h => h0 ((isFirst_iff t).mp h)) (fun h => h1 ((isLast_iff t).mp h)) (iblk V c 0 t) (iblk V c 1 t) (iblk V c 2 t) (iblk V c 3 t) _ _ _ _).2.2.2.2 _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      isplitl [HS2]; · iexact HS2
      isplitl [HS3]; · iexact HS3
      iintro ⟨H0, H1, H2, H3, H4, ⟨%e0, HS0⟩, ⟨%e1, HS1⟩, ⟨%e2, HS2⟩, ⟨%e3, HS3⟩⟩
      isplitl [HS0 HS1 HS2 HS3 Hg]
      · isplitl [HS0 HS1 HS2 HS3]
        · isplitl [HS0]
          · unfold owns; iexists _; isplitr
            swap; · iexact HS0
            ipureintro; exact View.read_writes_of_cover _ _ _ _ _ (coverMiddle0 c _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (coverMiddle1 c _ _ _ _ _ _ _ _ _ _ _ _ _ _ _ _ _ _ _ _ _ _ _ _ _ _ _ _ _)
          isplitl [HS2]
          · unfold owns; iexists _; isplitr
            swap; · iexact HS2
            ipureintro; exact View.read_writes_of_cover _ _ _ _ _ (coverMiddle2 c _ _ _ _ _ _ _ _ _ _ _ _ _ _ _ _ _ _ _ _ _ _ _ _ _ _ _ _ _)
          · unfold owns; iexists _; isplitr
            swap; · iexact HS3
            ipureintro; exact View.read_writes_of_cover _ _ _ _ _ (coverMiddle3 c _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4

/-- The pipeline's body obligation, at every position. -/
theorem body_obligation (c : Dev nD) : BodyObligation (dat (F := F) V c) (defs₀ (F := F)) Variants.none () Set.univ := fun t => by
  rw [bigSep_W0, bigSep_W0]
  exact sound_body V c t

/-- What the launch hands the region is the invariant before the first position. -/
theorem hin (c : Dev nD) : Pipeline.ΦA spec0 c ⊢ (dat V c).Φ 0 := by
  rw [show (dat V c).Φ 0 = PhiS V c 0 (Nat.zero_le _) from rfl, PhiS_zero V c 0 _ rfl]
  try exact Idealize.SL.BI.Entails.refl _

/-- After the last position the invariant gives the scratch back, the accumulators' contents forgotten. -/
theorem hout (c : Dev nD) : (dat V c).Φ (Fin.last cfg0.N) ⊢ Pipeline.ΦA spec0 c := by
  rw [show (dat V c).Φ (Fin.last cfg0.N) = PhiS V c (Fin.last cfg0.N).val (Nat.le_of_lt_succ (Fin.last cfg0.N).isLt) from rfl,
    PhiS_pos V c _ _ (by rw [Fin.val_last]; have : cfg0.N = 64 := N_0; omega), PhiA_eq]
  unfold accsAt
  iintro ⟨⟨HS0, HS1, HS2, HS3⟩, Hg⟩
  isplitl [HS0 HS1 HS2 HS3]
  · isplitl [HS0]; · iexists _; iexact HS0
    isplitl [HS1]; · iexists _; iexact HS1
    isplitl [HS2]; · iexists _; iexact HS2
    iexists _; iexact HS3
  iexact Hg

/-- An input's array is never written: after the whole grid it holds what the region found. -/
theorem arrAt_input (c : Dev nD) (w : Fin cfg0.W) (hw : w ≠ 4) : (dat V c).arrAt w cfg0.N = (dat V c).A w := by
  have : (cfg0.win w).isOut = false := by
    fin_cases w <;> first | rfl | exact absurd rfl hw
  exact (dat V c).arrAt_in w this _

end Cert.Kernel.Hand

end
-- ==== Proof.BRun.lean ====
/- The kernel program's run: the launch of its one pipelined region between the two
   stretches of host operations, instantiated at the proof data whose body obligation is proved beside it. -/
import proofs.«115931_j57277683859994_1_alg».proof.Proof.BLaunch
import proofs.«115931_j57277683859994_1_alg».proof.Proof.BBody

noncomputable section

namespace Cert.Kernel.KRun

open Idealize.ShloMosaic Idealize.ShloMosaic.TcCoe
open Idealize.SL Idealize.SL.RA Idealize.SL.BI
open scoped Idealize.SL.BI
open Idealize.SL.BI.BIBase Idealize.SL.Sem
open Cert.Kernel.Gen Cert.Kernel.KLaunch

variable {F : FTy → Type} [FloatOps F]
variable (m : (ℓ : Loc nD τ sig) → Buf (Elt F) ℓ) (ρ : Dev nD → PrngReg)

/-- The region's proof data on every core, at the contents the two reshapes leave. -/
abbrev kdat : (c : Dev nD) → Pipeline.Dat τ (Elt F) Unit ℕ (UR sig nD τ) ℕ cfg0 c := fun c => Hand.dat (V1 m ρ) c

/-- The proof data have everything the launch asks. -/
theorem launchData : LaunchData m ρ (kdat m ρ) where
  hA c w := Hand.A_eq (V1 m ρ) c w
  hq c := ⟨rfl, rfl, rfl, rfl⟩
  howed c t := rfl
  hbody c := Hand.body_obligation (V1 m ρ) c
  hinΦ c := Hand.hin (V1 m ρ) c
  houtΦ c := Hand.hout (V1 m ρ) c
  hin_arr c w hw := Hand.arrAt_input (V1 m ρ) c w hw

/-- The contents of every unscoped buffer at the program's end. -/
abbrev Wend : Dev nD → Valuation τ sig (Elt F) := W3 m ρ (kdat m ρ)

/-- The run: the program terminates without fault from any memory with zero counters; at the end the result buffer
    holds what the closing host operations compute from the region's exit contents, and both arguments are as launched. -/
theorem run : θ_run defs (onTc (τ := τ) (main (F := F))) ⟨m, fun _ => 0, ρ⟩ (fun r => ∀ c : Dev nD,
      r.2.mem ((c : Thread nD τ).loc main_v4) = Wend m ρ c (Proc.devRef .tc main_v4)
      ∧ r.2.mem ((c : Thread nD τ).loc main_arg0) = m ((c : Thread nD τ).loc main_arg0)
      ∧ r.2.mem ((c : Thread nD τ).loc main_arg1) = m ((c : Thread nD τ).loc main_arg1)) :=
  run_main_result (launchData m ρ)

/-- The region's exit contents at the output array are the write-backs' fold. -/
theorem W2_out (c : Dev nD) : W2 m ρ (kdat m ρ) c (Proc.devRef .tc main_v2) = (kdat m ρ c).arrAt 4 cfg0.N :=
  W2_v2 m ρ (kdat m ρ) c

end Cert.Kernel.KRun

end
-- ==== Proof.Frames.lean ====
/- The frame claims of the two kernel programs: each runs from any memory with zero counters, terminates without
   fault, and leaves its two argument arrays as launched. Both follow from the run of the program's region between
   its host stretches, whose postcondition states the arguments' contents beside the result's. -/
import proofs.«115931_j57277683859994_1_alg».proof.Defs
import proofs.«115931_j57277683859994_1_alg».proof.Proof.KRun
import proofs.«115931_j57277683859994_1_alg».proof.Proof.BRun
import proofs.«115931_j57277683859994_1_alg».proof.Proof.Gen.Pre_finite_inputs

noncomputable section

open Idealize.ShloMosaic Idealize.ShloMosaic.TcCoe Idealize.SL.Sem

namespace Cert.Frames

theorem frame_k : Cert.frame_Kernel := fun m ρ _ =>
  (θ_run Cert.Kernel.defs _ _).mono (fun _ h c => (h c).2) (Cert.Kernel.KRun.run (F := Bits) m ρ)

theorem frame_ki : Cert.frame_KernelIdeal := fun m ρ _ =>
  (θ_run Cert.KernelIdeal.defs _ _).mono (fun _ h c => (h c).2) (Cert.KernelIdeal.KRun.run (F := Ideal) m ρ)

end Cert.Frames

end
-- ==== Proof.lean ====
/- The five claims: the three programs run to their ends leaving their arguments unchanged; the idealized kernel is the
   kernel's sanctioned idealization; and the idealized kernel and the idealized reference end with equal results.

   The mathematics. For embeddings `x : [4096, 512]` and labels `tg : [4096]`, let `sim r k = ∑ d, x r d * x k d` be
   the similarity of rows `r` and `k` (the array `x · xᵀ`). Both programs compute

       (1 / 4096) · ∑ r, ( mean over the columns k with  tg k = tg r  and  sim r k < 1  of  softplus (-2 · (sim r k - 1/2))
                         + mean over the columns k with  tg k ≠ tg r                    of  softplus (25 · (sim r k - 1/2)) ),

   where a mean over an empty set of columns is zero: each mean is the sum of the selected terms divided by
   `max count 1`, kept only when the count is positive. `Proof/Spec.lean` states this value as one function
   `Cert.Spec.loss x tg` of the two argument arrays, index by index.

   The reference computes the whole 4096 × 4096 array of similarities at once, masks it, sums each row, and counts each
   row's selected columns as a 32-bit integer sum. Read one operation at a time at an index, every intermediate array is
   one of the specification's quantities (`Proof/RefSide.lean`).

   The kernel cuts the similarity array into 512 × 512 tiles over an 8 × 8 grid. For each block of 512 rows it visits the
   8 column tiles in turn and accumulates, per row, four running values: the two masked sums of softplus terms and the
   two counts, the counts as sums of floats (each selected column adding one). At the last column tile it forms the two
   means and writes their sum for each of the block's rows; the 4096 per-row values are then summed and divided by 4096.
   A row's sum over all 4096 columns is the sum over the 8 column tiles of the sums inside each tile: regrouping a finite
   sum in a commutative monoid, which the extended reals are under addition, so no finiteness of the entries is needed.

   Where the two differ is the count. A sum of 4096 zeros and ones, taken in 32-bit integers, never wraps, so it is the
   number of selected columns; the sum of the same zeros and ones as extended reals is that number too. On such a
   number the integer comparison with zero, the integer maximum with one and the conversion to a float agree with the
   extended-real comparison, maximum and the number itself (`Proof/LibCount.lean`). Hence both programs end with the
   result buffer at `Cert.Spec.loss` of their arguments, and from memories that agree on the arguments their results are
   equal.

   `preserves_Kernel_KernelIdeal` is `True`: the idealized kernel is the kernel's own text read at the extended reals.
   The three frame claims are the runs with the result dropped. -/
import proofs.«115931_j57277683859994_1_alg».proof.Defs
import proofs.«115931_j57277683859994_1_alg».proof.Proof.Gen.Kernel
import proofs.«115931_j57277683859994_1_alg».proof.Proof.Gen.Kernel.Skeleton
import proofs.«115931_j57277683859994_1_alg».proof.Proof.Gen.Kernel.Launch
import proofs.«115931_j57277683859994_1_alg».proof.Proof.Gen.Kernel.Points
import proofs.«115931_j57277683859994_1_alg».proof.Proof.Gen.KernelIdeal
import proofs.«115931_j57277683859994_1_alg».proof.Proof.Gen.KernelIdeal.Skeleton
import proofs.«115931_j57277683859994_1_alg».proof.Proof.Gen.KernelIdeal.Launch
import proofs.«115931_j57277683859994_1_alg».proof.Proof.Gen.KernelIdeal.Points
import proofs.«115931_j57277683859994_1_alg».proof.Proof.Gen.ReferenceIdeal
import proofs.«115931_j57277683859994_1_alg».proof.Proof.Gen.Pre_finite_inputs
import proofs.«115931_j57277683859994_1_alg».proof.Proof.Spec
import proofs.«115931_j57277683859994_1_alg».proof.Proof.RefSide
import proofs.«115931_j57277683859994_1_alg».proof.Proof.KFinal
import proofs.«115931_j57277683859994_1_alg».proof.Proof.Frames
import Idealize.ShloMosaic.Adequacy
import Idealize.ShloMosaic.Init

noncomputable section

namespace Cert.Proof

open Idealize.ShloMosaic Idealize.SL.Sem

/-- From memories that agree on the arguments, the kernel and the reference both end at the specification's loss of
    those arguments: the common value of the two result buffers. -/
theorem algebraic : Cert.algebraic_KernelIdeal_ReferenceIdeal :=
  fun m g m' g' _ hagree =>
    ⟨fun c => fun _ => Cert.Spec.loss
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1)),
      Cert.KernelIdeal.Final.kernel_run m g,
      (θ_run _ _ _).mono
        (fun _ h c => ⟨(h c).1.trans (by rw [(hagree c).1, (hagree c).2]; rfl), (h c).2.1, (h c).2.2⟩)
        (Cert.RefSide.ref_run m' g')⟩

theorem claim : Cert.Claim :=
  ⟨Cert.Kernel.Gen.facts, Cert.KernelIdeal.Gen.facts, Cert.ReferenceIdeal.Gen.facts, Cert.Pre_finite_inputs.Gen.facts,
    Cert.Frames.frame_k, Cert.Frames.frame_ki, Cert.RefSide.frame_ri, trivial, algebraic⟩

end Cert.Proof

end
